-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S400x1 .f32 .bf16
  ∧ IdealRules.truncf_extf.Statement Cert.KernelIdeal.S400x1 .f32 .bf16
  ∧ IdealRules.truncf_extf.Statement Cert.KernelIdeal.S400x128 .f32 .bf16
  ∧ IdealRules.truncf_extf.Statement Cert.KernelIdeal.S400x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400 : Shape := ⟨1, ![400]⟩

abbrev nBuf : Space → Nat
  | .hbm => 15
  | .vmem => 45
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .bf16⟩
  | .hbm, ⟨5, _⟩ => ⟨S128x128, .bf16⟩
  | .hbm, ⟨6, _⟩ => ⟨S1x128, .f32⟩
  | .hbm, ⟨7, _⟩ => ⟨S10000x128, .f32⟩
  | .hbm, ⟨8, _⟩ => ⟨S10000x128, .bf16⟩
  | .hbm, ⟨9, _⟩ => ⟨S10000x10000, .bf16⟩
  | .hbm, ⟨10, _⟩ => ⟨S10000x1, .f32⟩
  | .hbm, ⟨11, _⟩ => ⟨S10000x128, .f32⟩
  | .hbm, ⟨12, _⟩ => ⟨S10000x128, .bf16⟩
  | .hbm, ⟨13, _⟩ => ⟨S10000x128, .f32⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .bf16⟩
  | .local _ .vmem, ⟨4, _⟩ => ⟨S400x128, .bf16⟩
  | .local _ .vmem, ⟨5, _⟩ => ⟨S400x128, .f32⟩
  | .local _ .vmem, ⟨6, _⟩ => ⟨S400x128, .f32⟩
  | .local _ .vmem, ⟨7, _⟩ => ⟨S400x128, .bf16⟩
  | .local _ .vmem, ⟨8, _⟩ => ⟨S400x128, .bf16⟩
  | .local _ .vmem, ⟨9, _⟩ => ⟨S400x10000, .bf16⟩
  | .local _ .vmem, ⟨10, _⟩ => ⟨S400x10000, .bf16⟩
  | .local _ .vmem, ⟨11, _⟩ => ⟨S400x1, .f32⟩
  | .local _ .vmem, ⟨12, _⟩ => ⟨S400x1, .f32⟩
  | .local _ .vmem, ⟨13, _⟩ => ⟨S400x10000, .bf16⟩
  | .local _ .vmem, ⟨14, _⟩ => ⟨S400x10000, .bf16⟩
  | .local _ .vmem, ⟨15, _⟩ => ⟨S10000x128, .bf16⟩
  | .local _ .vmem, ⟨16, _⟩ => ⟨S400x128, .bf16⟩
  | .local _ .vmem, ⟨17, _⟩ => ⟨S400x128, .bf16⟩
  | .local _ .vmem, ⟨18, _⟩ => ⟨S400x128, .f32⟩
  | .local _ .vmem, ⟨19, _⟩ => ⟨S400x128, .f32⟩
  | .local _ .vmem, ⟨20, _⟩ => ⟨S400x128, .bf16⟩
  | .local _ .vmem, ⟨21, _⟩ => ⟨S400x128, .bf16⟩
  | .local _ .vmem, ⟨22, _⟩ => ⟨S400x1, .f32⟩
  | .local _ .vmem, ⟨23, _⟩ => ⟨S400x1, .f32⟩
  | .local _ .vmem, ⟨24, _⟩ => ⟨S400x128, .f32⟩
  | .local _ .vmem, ⟨25, _⟩ => ⟨S400x128, .f32⟩
  | .local _ .vmem, ⟨26, _⟩ => ⟨S400x128, .bf16⟩
  | .local _ .vmem, ⟨27, _⟩ => ⟨S400x128, .bf16⟩
  | .local _ .vmem, ⟨28, _⟩ => ⟨S400x128, .f32⟩
  | .local _ .vmem, ⟨29, _⟩ => ⟨S400x128, .f32⟩
  | .local _ .vmem, ⟨30, _⟩ => ⟨S400x10000, .bf16⟩
  | .local _ .vmem, ⟨31, _⟩ => ⟨S400x10000, .bf16⟩
  | .local _ .vmem, ⟨32, _⟩ => ⟨S10000x128, .bf16⟩
  | .local _ .vmem, ⟨33, _⟩ => ⟨S400x128, .bf16⟩
  | .local _ .vmem, ⟨34, _⟩ => ⟨S400x128, .bf16⟩
  | .local _ .vmem, ⟨35, _⟩ => ⟨S400x128, .f32⟩
  | .local _ .vmem, ⟨36, _⟩ => ⟨S400x128, .f32⟩
  | .local _ .vmem, ⟨37, _⟩ => ⟨S400x1, .f32⟩
  | .local _ .vmem, ⟨38, _⟩ => ⟨S400x1, .f32⟩
  | .local _ .vmem, ⟨39, _⟩ => ⟨S400x128, .f32⟩
  | .local _ .vmem, ⟨40, _⟩ => ⟨S400x128, .f32⟩
  | .local _ .vmem, ⟨41, _⟩ => ⟨S128x128, .bf16⟩
  | .local _ .vmem, ⟨42, _⟩ => ⟨S1x128, .f32⟩
  | .local _ .vmem, ⟨43, _⟩ => ⟨S400x128, .f32⟩
  | .local _ .vmem, ⟨44, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3_0 : Ref sig .tc := ⟨.hbm, 7, rfl⟩
abbrev main_call0_v3_1 : Ref sig .tc := ⟨.hbm, 8, rfl⟩
abbrev main_call0_v3_2 : Ref sig .tc := ⟨.hbm, 9, rfl⟩
abbrev main_call0_v3_3 : Ref sig .tc := ⟨.hbm, 10, rfl⟩
abbrev main_call0_v4_0 : Ref sig .tc := ⟨.hbm, 11, rfl⟩
abbrev main_call0_v4_1 : Ref sig .tc := ⟨.hbm, 12, rfl⟩
abbrev main_call0_v4_2 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg8_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem7_0 : DmaSem sig := 42
abbrev cc2_sem8_0 : DmaSem sig := 43
abbrev cc2_sem8_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  iota_S400x10000_d1_w32 : S400x10000.Iotas .tc 32 [1]
  iota_S400x10000_d0_w32 : S400x10000.Iotas .tc 32 [0]
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  broadcasts_S400x1_S400x128 : S400x1.Broadcasts S400x128
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  shapeCasts_S400x1_S400x1 : S400x1.ShapeCasts S400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .bf16 = 32 ∨ (Rect.block (s := S10000x128) S400x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S10000x1.size a
  hwx0_6 : ∀ i : grid0.Coords, EltTy.bits .f32 = 32 ∨ (Rect.block (s := S10000x1) S400x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x1.size a ≤ S10000x1.size a
  hwx1_5 : ∀ i : grid1.Coords, EltTy.bits .f32 = 32 ∨ (Rect.block (s := S10000x1) S400x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .bf16 = 32 ∨ (Rect.block (s := S10000x128) S400x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .f32 = 32 ∨ (Rect.block (s := S10000x128) S400x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .bf16 = 32 ∨ (Rect.block (s := S10000x128) S400x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x1.size a ≤ S10000x1.size a
  hwx2_4 : ∀ i : grid2.Coords, EltTy.bits .f32 = 32 ∨ (Rect.block (s := S10000x1) S400x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S400x128.size a ≤ S10000x128.size a
  hwx2_8 : ∀ i : grid2.Coords, EltTy.bits .f32 = 32 ∨ (Rect.block (s := S10000x128) S400x128.size (cc2_transform_8 i) (hinb2_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_2) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3_3) S400x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v3_2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v0) S400x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v3_3) S400x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4_0) S400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v4_1) S400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_call0_v4_2) S400x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_call0_v3_2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v4_1) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v3_0) S400x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v3_3) S400x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v4_2) S400x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_call0_v1) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v2) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v0) S400x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x10000, .f32⟩
  | .hbm, ⟨6, _⟩ => ⟨S10000x10000, .f32⟩
  | .hbm, ⟨7, _⟩ => ⟨S10000x10000, .i32⟩
  | .hbm, ⟨8, _⟩ => ⟨S10000x10000, .i32⟩
  | .hbm, ⟨9, _⟩ => ⟨S_, .i32⟩
  | .hbm, ⟨10, _⟩ => ⟨S10000x10000, .i32⟩
  | .hbm, ⟨11, _⟩ => ⟨S10000x10000, .i32⟩
  | .hbm, ⟨12, _⟩ => ⟨S10000x10000, .i1⟩
  | .hbm, ⟨13, _⟩ => ⟨S10000x10000, .f32⟩
  | .hbm, ⟨14, _⟩ => ⟨S10000x10000, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedWindows.lean ====
/-
  Windows that share an array. A pipeline may be handed one array through several input windows; the buffers behind its
  windows' arrays are then fewer than the windows. These lemmas say what a core's unscoped buffers are in that case —
  the DISTINCT buffers behind the arrays, and the rest —, list those buffers, and say that the rest only depends on the
  contents off the arrays. They hold for any window specification, any number of windows and any sharing pattern; how an
  array's share is dealt among the windows on it is left to the pipeline at hand.
-/
import Idealize.ShloMosaic.Lib.Pipeline.Kit
import Idealize.ShloMosaic.Lib.Pipeline.Launch

noncomputable section

namespace Cert.SharedWindows

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A core's unscoped buffers at contents `V` are the distinct buffers behind the windows' arrays at `V` and the rest,
    whether or not two windows are on one array. -/
theorem unscopedBufs_split {gr : Nat} {W : Nat} (win : Fin W → WinSpec sig gr) (c : Dev nD)
    (hunscoped : ∀ w, (arrRef win w).isScoped = false) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

/-- The distinct buffers behind the windows' arrays, listed. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs win c V : sProp 𝕄) = bigSepL l fun b => ((c.tc : Thread nD τ).loc b) ↦{fullShare} V b := by
  unfold arrBufs; exact bigSep_eq_bigSepL_of_eq l h hl _

/-- The unscoped buffers that are no window's array only see the contents off the arrays. -/
theorem unscopedRest_congr {gr : Nat} {W : Nat} (win : Fin W → WinSpec sig gr) (c : Dev nD)
    (V V' : (b : Ref sig .tc) → Buf Val ((c.tc : Thread nD τ).loc b))
    (h : ∀ b, b ∉ Finset.univ.image (arrRef win) → V b = V' b) :
    (unscopedRest win c V : sProp 𝕄) = unscopedRest win c V' := by
  unfold unscopedRest
  exact bigSep_congr fun b hb => by rw [h b (Finset.mem_sdiff.mp hb).2]

end Cert.SharedWindows

end
-- ==== Proof.Kernel.Rects.lean ====
/-
  The whole-buffer rectangles through which the three passes' bodies load and store — one per block shape — and that a
  single store through such a rectangle covers its buffer.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rL : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rB : Rect S400x128 := Rect.unit (s := S400x128) ![0, 0] S400x128.size inb_S400x128_S400x128_0_0
abbrev rC : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0

theorem coverB {e : EltTy} (p0 : Vec F S400x128 e) (y : S400x128.Idx) :
    ∃ pc ∈ ([⟨rB, p0⟩] : List (View.Piece (Elt F) S400x128 e)), y ∈ pc.1.set :=
  View.cover_of_tiled [⟨rB, p0⟩] S400x128.size (by rfl) y
theorem coverL {e : EltTy} (p0 : Vec F S400x10000 e) (y : S400x10000.Idx) :
    ∃ pc ∈ ([⟨rL, p0⟩] : List (View.Piece (Elt F) S400x10000 e)), y ∈ pc.1.set :=
  View.cover_of_tiled [⟨rL, p0⟩] S400x10000.size (by rfl) y
theorem coverC {e : EltTy} (p0 : Vec F S400x1 e) (y : S400x1.Idx) :
    ∃ pc ∈ ([⟨rC, p0⟩] : List (View.Piece (Elt F) S400x1 e)), y ∈ pc.1.set :=
  View.cover_of_tiled [⟨rC, p0⟩] S400x1.size (by rfl) y

end Cert.Kernel.Pass

end
-- ==== Proof.Kernel.Pass0.lean ====
/-
  The first of the three row-blocked passes, on one core. For a block of 400 rows it reads the operator's rows, the
  whole narrow copy of the features and the rows' own narrow features, and writes the rows of `T₁ = 2·(L·H) + c·H`
  (wide and narrow), the operator's rows narrowed, and the rows' corrections `c`. Here: what the body leaves in each
  output buffer as a term of the input blocks, the body's triple, and the pass's proof data. The narrow features reach
  the pass through two windows on one array, which therefore hold complementary halves of that array's share.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Kernel.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in each output buffer, from the input blocks -/

/-- The row block of `T₁`: twice the operator's rows times the features, plus the per-row correction times the rows' own features. -/
def t1Blk (i : grid0.Coords) (x0 : Vec F S400x10000 .f32) (x1 : Vec F S10000x128 .bf16) (x2 : Vec F S400x128 .bf16) : Vec F S400x128 .f32 :=
  View.canon [⟨rB, k0_pay4 i (View.ld x0 rL) (View.ld x0 rL) (View.ld x1 rH) (View.ld x2 rB)⟩]

/-- The same block in the narrower format. -/
def t1bBlk (i : grid0.Coords) (x0 : Vec F S400x10000 .f32) (x1 : Vec F S10000x128 .bf16) (x2 : Vec F S400x128 .bf16) : Vec F S400x128 .bf16 :=
  View.canon [⟨rB, k0_pay1 (k0_pay4 i (View.ld x0 rL) (View.ld x0 rL) (View.ld x1 rH) (View.ld x2 rB))⟩]

/-- The operator's rows in the narrower format. -/
def lbBlk (i : grid0.Coords) (x0 : Vec F S400x10000 .f32) (x1 : Vec F S10000x128 .bf16) (x2 : Vec F S400x128 .bf16) : Vec F S400x10000 .bf16 :=
  View.canon [⟨rL, k0_pay2 (View.ld x0 rL)⟩]

/-- The rows' corrections. -/
def cBlk (i : grid0.Coords) (x0 : Vec F S400x10000 .f32) (x1 : Vec F S10000x128 .bf16) (x2 : Vec F S400x128 .bf16) : Vec F S400x1 .f32 :=
  View.canon [⟨rC, k0_pay3 i (View.ld x0 rL)⟩]

/-! ## The body's triple -/

set_option maxHeartbeats 1000000 in
/-- The first pass's body on whole staging buffers: the three inputs' buffers are read and left as they were, and each of the four
    outputs' buffers ends at its block term of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x128 .bf16) (harg5 : arg5.IsWhole) (arg6 : Memref sig .tc .vmem S400x10000 .bf16) (harg6 : arg6.IsWhole) (arg7 : Memref sig .tc .vmem S400x1 .f32) (harg7 : arg7.IsWhole)
    (x0 : Vec F S400x10000 .f32) (x1 : Vec F S10000x128 .bf16) (x2 : Vec F S400x128 .bf16) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (t1Blk i x0 x1 x2)
            ∗ owns (c : Thread nD τ) arg5 fullShare (t1bBlk i x0 x1 x2)
            ∗ owns (c : Thread nD τ) arg6 fullShare (lbBlk i x0 x1 x2)
            ∗ owns (c : Thread nD τ) arg7 fullShare (cBlk i x0 x1 x2)) -∗ K ⟨⟩))
      ⊢ wp frame (wpE (defs₀ (F := F)) Variants.none c none) E (cc0__step1_kernel i arg1 harg1 arg2 harg2 arg3 harg3 arg4 harg4 arg5 harg5 arg6 harg6 arg7 harg7) K := by
  simp only [cc0__step1_kernel_eq_skeleton]; unfold cc0__step1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverB _)
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverL _)
  iexists _; isplitr
  swap; · iexact H6
  ipureintro
  exact View.read_writes_eq_canon _ _ _ (coverC _)

/-! ## The pass's windows and proof data, at the contents `V` the pass is entered from -/

section Pass0
variable (V : (c : Dev nD) → (b : Ref sig .tc) → Buf (Elt F) ((c : Thread nD τ).loc b))

/-- Window `w`'s block at grid point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first pass's proof data on core `c`. The narrow copy of the features is handed to the pass twice — whole, and row block by
    row block — so the two windows on it hold the two halves of its share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => t1Blk (grid0.coords t) (iblk0 V c 0 t) (iblk0 V c 1 t) (iblk0 V c 2 t)
    | ⟨4, _⟩ => t1bBlk (grid0.coords t) (iblk0 V c 0 t) (iblk0 V c 1 t) (iblk0 V c 2 t)
    | ⟨5, _⟩ => lbBlk (grid0.coords t) (iblk0 V c 0 t) (iblk0 V c 1 t) (iblk0 V c 2 t)
    | ⟨6, _⟩ => cBlk (grid0.coords t) (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = t1Blk (grid0.coords t) (iblk0 V c 0 t) (iblk0 V c 1 t) (iblk0 V c 2 t) := by dsimp only [dat0]
theorem after0_4 (c : Dev nD) (t : Fin cfg0.N) : (dat0 V c).after 4 t = t1bBlk (grid0.coords t) (iblk0 V c 0 t) (iblk0 V c 1 t) (iblk0 V c 2 t) := by dsimp only [dat0]
theorem after0_5 (c : Dev nD) (t : Fin cfg0.N) : (dat0 V c).after 5 t = lbBlk (grid0.coords t) (iblk0 V c 0 t) (iblk0 V c 1 t) (iblk0 V c 2 t) := by dsimp only [dat0]
theorem after0_6 (c : Dev nD) (t : Fin cfg0.N) : (dat0 V c).after 6 t = cBlk (grid0.coords t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Pass0

end Cert.Kernel.Pass

end
-- ==== Proof.Kernel.Pass1.lean ====
/-
  The second pass, on one core. For a block of 400 rows it reads the narrowed operator's rows, the whole narrow `T₁` and
  the rows' own narrow `T₁`, the rows' features (wide and narrow) and corrections, and writes the rows of
  `T₂ = 4·(L·T₁) + 2c·T₁ − H` (wide and narrow) and of the running sum `S₂ = H + T₁ + T₂`. Here: the block terms, the
  body's triple, and the pass's proof data; the two windows on the narrow `T₁` hold complementary halves of its share.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Kernel.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in each output buffer, from the input blocks -/

/-- The row block of `T₂`. -/
def t2Blk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .f32 :=
  View.canon [⟨rB, k1_pay2 (View.ld x0 rL) (View.ld x1 rH) (View.ld x2 rB) (View.ld x5 rC) (View.ld x3 rB)⟩]

/-- The same block in the narrower format. -/
def t2bBlk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .bf16 :=
  View.canon [⟨rB, k1_pay3 (View.ld x0 rL) (View.ld x1 rH) (View.ld x2 rB) (View.ld x5 rC) (View.ld x3 rB)⟩]

/-- The row block of the running sum `H + T₁ + T₂`. -/
def s2Blk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .f32 :=
  View.canon [⟨rB, k1_pay4 (View.ld x0 rL) (View.ld x1 rH) (View.ld x2 rB) (View.ld x5 rC) (View.ld x3 rB) (View.ld x4 rB)⟩]

/-! ## The body's triple -/

set_option maxHeartbeats 1000000 in
/-- The second pass's body on whole staging buffers: the six inputs' buffers are read and left as they were, and each of the three
    outputs' buffers ends at its block term of the inputs'. -/
theorem sound_kernel1 (c : Dev nD) (E : Set ℕ) (i : grid1.Coords)
    (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x128 .bf16) (harg5 : arg5.IsWhole) (arg6 : Memref sig .tc .vmem S400x1 .f32) (harg6 : arg6.IsWhole) (arg7 : Memref sig .tc .vmem S400x128 .f32) (harg7 : arg7.IsWhole) (arg8 : Memref sig .tc .vmem S400x128 .bf16) (harg8 : arg8.IsWhole) (arg9 : Memref sig .tc .vmem S400x128 .f32) (harg9 : arg9.IsWhole)
    (x0 : Vec F S400x10000 .bf16) (x1 : Vec F S10000x128 .bf16) (x2 : Vec F S400x128 .bf16) (x3 : Vec F S400x128 .f32) (x4 : Vec F S400x128 .bf16) (x5 : Vec F S400x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (t2Blk x0 x1 x2 x3 x4 x5)
            ∗ owns (c : Thread nD τ) arg8 fullShare (t2bBlk x0 x1 x2 x3 x4 x5)
            ∗ owns (c : Thread nD τ) arg9 fullShare (s2Blk x0 x1 x2 x3 x4 x5)) -∗ K ⟨⟩))
      ⊢ wp frame (wpE (defs₀ (F := F)) Variants.none c none) E (cc1__step2_kernel i arg1 harg1 arg2 harg2 arg3 harg3 arg4 harg4 arg5 harg5 arg6 harg6 arg7 harg7 arg8 harg8 arg9 harg9) K := by
  simp only [cc1__step2_kernel_eq_skeleton]; unfold cc1__step2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverB _)
  isplitl [H7]
  · iexists _; isplitr
    swap; · iexact H7
    ipureintro
    exact View.read_writes_eq_canon _ _ _ (coverB _)
  iexists _; isplitr
  swap; · iexact H8
  ipureintro
  exact View.read_writes_eq_canon _ _ _ (coverB _)

/-! ## The pass's windows and proof data, at the contents `V` the pass is entered from -/

section Pass1
variable (V : (c : Dev nD) → (b : Ref sig .tc) → Buf (Elt F) ((c : Thread nD τ).loc b))

/-- Window `w`'s block at grid point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The second pass's proof data on core `c`: the two windows on the narrow `T₁` hold the two halves of its share; every other
    array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => t2Blk (iblk1 V c 0 t) (iblk1 V c 1 t) (iblk1 V c 2 t) (iblk1 V c 3 t) (iblk1 V c 4 t) (iblk1 V c 5 t)
    | ⟨7, _⟩ => t2bBlk (iblk1 V c 0 t) (iblk1 V c 1 t) (iblk1 V c 2 t) (iblk1 V c 3 t) (iblk1 V c 4 t) (iblk1 V c 5 t)
    | ⟨8, _⟩ => s2Blk (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = t2Blk (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = t2bBlk (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = s2Blk (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Pass1

end Cert.Kernel.Pass

end
-- ==== Proof.Kernel.Pass2.lean ====
/-
  The third pass, on one core. For a block of 400 rows it reads the narrowed operator's rows, the whole narrow `T₂` and the
  rows' own narrow `T₂`, the rows of `T₁`, of the corrections and of the running sum, the narrow weights and the bias row,
  and writes the rows of the result `(S₂ + T₃)·W + b` with `T₃ = 4·(L·T₂) + 2c·T₂ − T₁`. Here: the block term, the body's
  triple, and the pass's proof data; the two windows on the narrow `T₂` hold complementary halves of its share.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Kernel.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in each output buffer, from the input blocks -/

/-- The row block of the result. -/
def outBlk (x0 : Vec F S400x10000 .bf16) (x1 : Vec F S10000x128 .bf16) (x2 : Vec F S400x128 .bf16) (x3 : Vec F S400x128 .f32) (x4 : Vec F S400x1 .f32) (x5 : Vec F S400x128 .f32) (x6 : Vec F S128x128 .bf16) (x7 : Vec F S1x128 .f32) : Vec F S400x128 .f32 :=
  View.canon [⟨rB, k2_pay1 (View.ld x0 rL) (View.ld x1 rH) (View.ld x4 rC) (View.ld x2 rB) (View.ld x3 rB) (View.ld x5 rB) (View.ld x6 rW) (View.ld x7 rBias)⟩]

/-! ## The body's triple -/

set_option maxHeartbeats 1000000 in
/-- The third pass's body on whole staging buffers: the eight inputs' buffers are read and left as they were, and the output's
    buffer ends at its block term of the inputs'. -/
theorem sound_kernel2 (c : Dev nD) (E : Set ℕ) (i : grid2.Coords)
    (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x1 .f32) (harg5 : arg5.IsWhole) (arg6 : Memref sig .tc .vmem S400x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S400x128 .f32) (harg9 : arg9.IsWhole)
    (x0 : Vec F S400x10000 .bf16) (x1 : Vec F S10000x128 .bf16) (x2 : Vec F S400x128 .bf16) (x3 : Vec F S400x128 .f32) (x4 : Vec F S400x1 .f32) (x5 : Vec F S400x128 .f32) (x6 : Vec F S128x128 .bf16) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (outBlk x0 x1 x2 x3 x4 x5 x6 x7)) -∗ K ⟨⟩))
      ⊢ wp frame (wpE (defs₀ (F := F)) Variants.none c none) E (cc2__step3_kernel i arg1 harg1 arg2 harg2 arg3 harg3 arg4 harg4 arg5 harg5 arg6 harg6 arg7 harg7 arg8 harg8 arg9 harg9) K := by
  simp only [cc2__step3_kernel_eq_skeleton]; unfold cc2__step3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverB _)

/-! ## The pass's windows and proof data, at the contents `V` the pass is entered from -/

section Pass2
variable (V : (c : Dev nD) → (b : Ref sig .tc) → Buf (Elt F) ((c : Thread nD τ).loc b))

/-- Window `w`'s block at grid point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The third pass's proof data on core `c`: the two windows on the narrow `T₂` hold the two halves of its share; every other
    array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outBlk (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outBlk (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Pass2

end Cert.Kernel.Pass

end
-- ==== Proof.Kernel.Between.lean ====
/-
  What a core's arrays hold between the three passes. The host first narrows the features and the weights and reshapes the
  bias; then each pass leaves, in each of its output arrays, what its row blocks' write-backs leave there, and every other
  array as it found it. Here: those four states of the arrays, what each reads at every array a later pass or the end looks
  at, and that no pass and no host operation touches an argument.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Gen.Kernel.Regions
import proofs.«148721_g88055419503321_cont_sun_m_792_6_alg».proof.Proof.Kernel.Pass0
import proofs.«148721_g88055419503321_cont_sun_m_792_6_alg».proof.Proof.Kernel.Pass1
import proofs.«148721_g88055419503321_cont_sun_m_792_6_alg».proof.Proof.Kernel.Pass2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The four states -/

/-- When the first pass is entered: the launch contents after the host's conversions. -/
abbrev W1 (c : Dev nD) : Valuation τ sig (Elt F) := StableHlo.after hostOps0 (fun b => m (c, b))
abbrev E1 : (c : Dev nD) → (b : Ref sig .tc) → Buf (Elt F) ((c : Thread nD τ).loc b) := fun c b => W1 m c b

/-- After the first pass: `T₁` wide and narrow, the narrowed operator and the corrections at what the write-backs leave. -/
def W2 (c : Dev nD) : Valuation τ sig (Elt F) :=
  Function.update (Function.update (Function.update (Function.update (W1 m c) main_call0_v3_0 ((dat0 (E1 m) c).arrAt 3 cfg0.N)) main_call0_v3_1 ((dat0 (E1 m) c).arrAt 4 cfg0.N)) main_call0_v3_2 ((dat0 (E1 m) c).arrAt 5 cfg0.N)) main_call0_v3_3 ((dat0 (E1 m) c).arrAt 6 cfg0.N)
abbrev E2 : (c : Dev nD) → (b : Ref sig .tc) → Buf (Elt F) ((c : Thread nD τ).loc b) := fun c b => W2 m c b

/-- After the second pass: `T₂` wide and narrow and the running sum. -/
def W3 (c : Dev nD) : Valuation τ sig (Elt F) :=
  Function.update (Function.update (Function.update (W2 m c) main_call0_v4_0 ((dat1 (E2 m) c).arrAt 6 cfg1.N)) main_call0_v4_1 ((dat1 (E2 m) c).arrAt 7 cfg1.N)) main_call0_v4_2 ((dat1 (E2 m) c).arrAt 8 cfg1.N)
abbrev E3 : (c : Dev nD) → (b : Ref sig .tc) → Buf (Elt F) ((c : Thread nD τ).loc b) := fun c b => W3 m c b

/-- After the third pass: the result. -/
def W4 (c : Dev nD) : Valuation τ sig (Elt F) :=
  Function.update (W3 m c) main_v0 ((dat2 (E3 m) c).arrAt 8 cfg2.N)
abbrev E4 : (c : Dev nD) → (b : Ref sig .tc) → Buf (Elt F) ((c : Thread nD τ).loc b) := fun c b => W4 m c b

/-! ## What each state reads -/

private theorem ne' {x y : Ref sig .tc} (h : x ≠ y) : (Proc.devRef .tc x : DevRef τ sig) ≠ Proc.devRef .tc y := StableHlo.devRef_ne_of_ne h

theorem W2_v3_0 (c : Dev nD) : W2 m c main_call0_v3_0 = (dat0 (E1 m) c).arrAt 3 cfg0.N := by
  unfold W2; rw [Function.update_of_ne (ne' (by decide)), Function.update_of_ne (ne' (by decide)), Function.update_of_ne (ne' (by decide)), Function.update_self]
theorem W2_v3_1 (c : Dev nD) : W2 m c main_call0_v3_1 = (dat0 (E1 m) c).arrAt 4 cfg0.N := by
  unfold W2; rw [Function.update_of_ne (ne' (by decide)), Function.update_of_ne (ne' (by decide)), Function.update_self]
theorem W2_v3_2 (c : Dev nD) : W2 m c main_call0_v3_2 = (dat0 (E1 m) c).arrAt 5 cfg0.N := by
  unfold W2; rw [Function.update_of_ne (ne' (by decide)), Function.update_self]
theorem W2_v3_3 (c : Dev nD) : W2 m c main_call0_v3_3 = (dat0 (E1 m) c).arrAt 6 cfg0.N := by
  unfold W2; rw [Function.update_self]
/-- Every other array is as the first pass found it. -/
theorem W2_of (c : Dev nD) (r : Ref sig .tc) (h : r ∉ ([main_call0_v3_0, main_call0_v3_1, main_call0_v3_2, main_call0_v3_3] : List (Ref sig .tc))) :
    W2 m c r = W1 m c r := by
  unfold W2
  rw [Function.update_of_ne (ne' (List.ne_of_not_mem_cons (List.not_mem_of_not_mem_cons (List.not_mem_of_not_mem_cons (List.not_mem_of_not_mem_cons h))))),
    Function.update_of_ne (ne' (List.ne_of_not_mem_cons (List.not_mem_of_not_mem_cons (List.not_mem_of_not_mem_cons h)))),
    Function.update_of_ne (ne' (List.ne_of_not_mem_cons (List.not_mem_of_not_mem_cons h))),
    Function.update_of_ne (ne' (List.ne_of_not_mem_cons h))]

theorem W3_v4_0 (c : Dev nD) : W3 m c main_call0_v4_0 = (dat1 (E2 m) c).arrAt 6 cfg1.N := by
  unfold W3; rw [Function.update_of_ne (ne' (by decide)), Function.update_of_ne (ne' (by decide)), Function.update_self]
theorem W3_v4_1 (c : Dev nD) : W3 m c main_call0_v4_1 = (dat1 (E2 m) c).arrAt 7 cfg1.N := by
  unfold W3; rw [Function.update_of_ne (ne' (by decide)), Function.update_self]
theorem W3_v4_2 (c : Dev nD) : W3 m c main_call0_v4_2 = (dat1 (E2 m) c).arrAt 8 cfg1.N := by
  unfold W3; rw [Function.update_self]
/-- Every other array is as the second pass found it. -/
theorem W3_of (c : Dev nD) (r : Ref sig .tc) (h : r ∉ ([main_call0_v4_0, main_call0_v4_1, main_call0_v4_2] : List (Ref sig .tc))) :
    W3 m c r = W2 m c r := by
  unfold W3
  rw [Function.update_of_ne (ne' (List.ne_of_not_mem_cons (List.not_mem_of_not_mem_cons (List.not_mem_of_not_mem_cons h)))),
    Function.update_of_ne (ne' (List.ne_of_not_mem_cons (List.not_mem_of_not_mem_cons h))),
    Function.update_of_ne (ne' (List.ne_of_not_mem_cons h))]

theorem W4_v0 (c : Dev nD) : W4 m c main_v0 = (dat2 (E3 m) c).arrAt 8 cfg2.N := by
  unfold W4; rw [Function.update_self]
/-- Every other array is as the third pass found it. -/
theorem W4_of (c : Dev nD) (r : Ref sig .tc) (h : r ∉ ([main_v0] : List (Ref sig .tc))) : W4 m c r = W3 m c r := by
  unfold W4; rw [Function.update_of_ne (ne' (List.ne_of_not_mem_cons h))]

/-! ## No pass and no host operation touches an argument -/

theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <| (V1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <| (V1_of m c main_arg1 (by decide)).trans rfl
theorem W4_main_arg2 (c : Dev nD) : W4 m c main_arg2 = m ((c : Thread nD τ).loc main_arg2) :=
  (W4_of m c main_arg2 (by decide)).trans <| (W3_of m c main_arg2 (by decide)).trans <| (W2_of m c main_arg2 (by decide)).trans <| (V1_of m c main_arg2 (by decide)).trans rfl
theorem W4_main_arg3 (c : Dev nD) : W4 m c main_arg3 = m ((c : Thread nD τ).loc main_arg3) :=
  (W4_of m c main_arg3 (by decide)).trans <| (W3_of m c main_arg3 (by decide)).trans <| (W2_of m c main_arg3 (by decide)).trans <| (V1_of m c main_arg3 (by decide)).trans rfl

/-! ## The three passes' proof data, each at the contents its pass is entered from -/

/-- The prefetched tables' admissible contents: no pass has a table. -/
abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c

/-- What rides beside the arrays through every item of the program: the core's generator register at some state, and that it
    owes nothing. -/
abbrev R (c : Dev nD) : sProp 𝕄 := iprop((∃ r, prngReg c r) ∗ ∃ W, owes (c : Thread nD τ) (0 : CellTallies nD τ sig Unit) W)
/-- The last thread state without the `owes`: every unscoped buffer at the contents the program ends with, the generator register at some state. -/
abbrev Tₙ (c : Dev nD) : sProp 𝕄 := iprop(StableHlo.held (c : Thread nD τ) (Pipeline.ucRefs τ sig) (W4 m c) ∗ ∃ r, prngReg c r)

end Cert.Kernel.Pass

end
-- ==== Proof.Kernel.Seg0.lean ====
/-
  The first pass as a segment of the program. It reads the operator and — through two windows — the narrow features, and writes
  `T₁` wide and narrow, the narrowed operator and the corrections. Entering it, the narrow features' buffer, held whole, is dealt
  in two halves to the two windows on it; leaving it, the inputs' arrays are as they were, the halves rejoin, and each output
  array is at what the row blocks' write-backs leave.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Gen.Kernel.Regions
import proofs.«148721_g88055419503321_cont_sun_m_792_6_alg».proof.Proof.LibSharedWindows
import proofs.«148721_g88055419503321_cont_sun_m_792_6_alg».proof.Proof.Kernel.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList0 : Finset.univ.image (Pipeline.arrRef spec0) = ([main_arg0, main_call0_v0, main_call0_v3_0, main_call0_v3_1, main_call0_v3_2, main_call0_v3_3] : List (Ref sig .tc)).toFinset := by decide

/-- The first pass's arrays sit on six distinct buffers: the narrow features are behind two of its seven windows. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0)
          ∗ (((c : Thread nD τ).loc main_call0_v0) ↦{fullShare} V main_call0_v0)
          ∗ (((c : Thread nD τ).loc main_call0_v3_0) ↦{fullShare} V main_call0_v3_0)
          ∗ (((c : Thread nD τ).loc main_call0_v3_1) ↦{fullShare} V main_call0_v3_1)
          ∗ (((c : Thread nD τ).loc main_call0_v3_2) ↦{fullShare} V main_call0_v3_2)
          ∗ (((c : Thread nD τ).loc main_call0_v3_3) ↦{fullShare} V main_call0_v3_3)) :=
  arrBufs_eq_of_list spec0 c V _ arrList0 (by decide)

/-- The first pass's windowed arrays, window by window, each whole: the operator and the four outputs at the full share, the two
    windows on the narrow features at the two halves of its share. -/
theorem arrays0_eq (V : (c : Dev nD) → (b : Ref sig .tc) → Buf (Elt F) ((c : Thread nD τ).loc b)) (c : Dev nD)
    (A : (w : Fin cfg0.W) → Buf (Elt F) ((cfg0.win w).arr.view.loc (c : Thread nD τ))) :
    ((dat0 V c).arrays A : sProp 𝕄)
      = iprop((((c : Thread nD τ).loc main_arg0) ↦{fullShare} A 0)
          ∗ (((c : Thread nD τ).loc main_call0_v0) ↦{fullShare.left} A 1)
          ∗ (((c : Thread nD τ).loc main_call0_v0) ↦{fullShare.right} A 2)
          ∗ (((c : Thread nD τ).loc main_call0_v3_0) ↦{fullShare} A 3)
          ∗ (((c : Thread nD τ).loc main_call0_v3_1) ↦{fullShare} A 4)
          ∗ (((c : Thread nD τ).loc main_call0_v3_2) ↦{fullShare} A 5)
          ∗ (((c : Thread nD τ).loc main_call0_v3_3) ↦{fullShare} A 6)) := by
  unfold Dat.arrays
  rw [bigSep_W0]
  simp only [View.set_whole]
  rfl

/-! ## Entering the pass: the shared array's share is dealt to the two windows on it -/

/-- The six buffers behind the arrays, each held whole at the contents the pass is entered from, make the pass's seven windowed arrays. -/
theorem entry0 (c : Dev nD) :
    (Pipeline.arrBufs spec0 c (E1 m c) : sProp 𝕄) ⊢ (dat0 (E1 m) c).arrays ((dat0 (E1 m) c).arrAt · 0) := by
  rw [arrBufs0_eq, arrays0_eq]
  iintro ⟨H_arg0, H_v0, H_v3_0, H_v3_1, H_v3_2, H_v3_3⟩
  ihave Hs := (pointsTo_share (PosShare.mem_left_op_right fullShare)).1 $$ H_v0
  icases Hs with ⟨Hl, Hr⟩
  isplitl [H_arg0]; · iexact H_arg0
  isplitl [Hl]; · iexact Hl
  isplitl [Hr]; · iexact Hr
  isplitl [H_v3_0]; · iexact H_v3_0
  isplitl [H_v3_1]; · iexact H_v3_1
  isplitl [H_v3_2]; · iexact H_v3_2
  iexact H_v3_3

/-! ## Leaving the pass: the inputs are as they were, the two halves rejoin, the outputs are at what the write-backs leave -/

/-- Off the pass's output arrays the state after it is the state before it. -/
theorem rest0 (c : Dev nD) (b : Ref sig .tc) (hb : b ∉ Finset.univ.image (Pipeline.arrRef spec0)) : E2 m c b = E1 m c b :=
  W2_of m c b fun h => hb (by rw [arrList0]; exact List.mem_toFinset.mpr (List.mem_cons_of_mem _ (List.mem_cons_of_mem _ (h))))

/-- The seven windowed arrays after the last row block make the six buffers at the state the pass leaves. -/
theorem exit0 (c : Dev nD) :
    ((dat0 (E1 m) c).arrays (fun w => (dat0 (E1 m) c).arrAt w cfg0.N) : sProp 𝕄) ⊢ Pipeline.arrBufs spec0 c (E2 m c) := by
  rw [arrBufs0_eq, arrays0_eq]
  beta_reduce
  rw [show (dat0 (E1 m) c).arrAt 0 cfg0.N = E1 m c main_arg0 from ((dat0 (E1 m) c).arrAt_in 0 rfl _).trans (A_eq0 (E1 m) c 0),
    show (dat0 (E1 m) c).arrAt 1 cfg0.N = E1 m c main_call0_v0 from ((dat0 (E1 m) c).arrAt_in 1 rfl _).trans (A_eq0 (E1 m) c 1),
    show (dat0 (E1 m) c).arrAt 2 cfg0.N = E1 m c main_call0_v0 from ((dat0 (E1 m) c).arrAt_in 2 rfl _).trans (A_eq0 (E1 m) c 2)]
  rw [show E2 m c main_arg0 = E1 m c main_arg0 from W2_of m c main_arg0 (by decide),
    show E2 m c main_call0_v0 = E1 m c main_call0_v0 from W2_of m c main_call0_v0 (by decide),
    show E2 m c main_call0_v3_0 = (dat0 (E1 m) c).arrAt 3 cfg0.N from W2_v3_0 m c,
    show E2 m c main_call0_v3_1 = (dat0 (E1 m) c).arrAt 4 cfg0.N from W2_v3_1 m c,
    show E2 m c main_call0_v3_2 = (dat0 (E1 m) c).arrAt 5 cfg0.N from W2_v3_2 m c,
    show E2 m c main_call0_v3_3 = (dat0 (E1 m) c).arrAt 6 cfg0.N from W2_v3_3 m c]
  iintro ⟨H0, H1, H2, H3, H4, H5, H6⟩
  ihave Hj := (pointsTo_share (PosShare.mem_left_op_right fullShare)).2 $$ [H1 H2]
  · isplitl [H1] <;> iassumption
  isplitl [H0]; · iexact H0
  isplitl [Hj]; · iexact Hj
  isplitl [H3]; · iexact H3
  isplitl [H4]; · iexact H4
  isplitl [H5]; · iexact H5
  iexact H6

/-! ## The pass as a segment of the program -/

set_option backward.isDefEq.respectTransparency.types false in
/-- The first pass over the thread state: every unscoped buffer at the contents before it, then at the contents after it; the generator register
    enters the pass's invariant and comes back; nothing is owed; the body has no semaphore of its own. -/
def reg0 : Pipeline.RegionSeg (pcfgs (F := F)) adm (pdats m) () defs₀ Variants.none (fun _ => (∅ : Finset Unit)) (fun _ _ => (0 : ℕ)) 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ _ _ 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (unscopedBufs c (E1 m c) : sProp 𝕄)
        ⊢ iprop((pdats m 0 c).arrays ((pdats m 0 c).arrAt · 0) ∗ Pipeline.unscopedRest spec0 c (E1 m c)) := by
      rw [unscopedBufs_split spec0 c winFacts₀0.arr_unscoped (E1 m c)]
      exact sep_mono (entry0 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (iprop((pdats m 0 c).arrays (fun w => (pdats m 0 c).arrAt w cfg0.N) ∗ Pipeline.unscopedRest spec0 c (E1 m c)) : sProp 𝕄)
        ⊢ unscopedBufs c (E2 m c) := by
      rw [unscopedBufs_split spec0 c winFacts₀0.arr_unscoped (E2 m c), unscopedRest_congr spec0 c (E2 m c) (E1 m c) (rest0 m c)]
      exact sep_mono (exit0 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Pass

end
-- ==== Proof.Kernel.Seg1.lean ====
/-
  The second pass as a segment of the program. It reads the narrowed operator, — through two windows — the narrow `T₁`, the
  features wide and narrow and the corrections, and writes `T₂` wide and narrow and the running sum. Entering it, the narrow
  `T₁`'s buffer is dealt in two halves to the two windows on it; leaving it, the inputs' arrays are as they were, the halves
  rejoin, and each output array is at what the row blocks' write-backs leave.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Gen.Kernel.Regions
import proofs.«148721_g88055419503321_cont_sun_m_792_6_alg».proof.Proof.LibSharedWindows
import proofs.«148721_g88055419503321_cont_sun_m_792_6_alg».proof.Proof.Kernel.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList1 : Finset.univ.image (Pipeline.arrRef spec1) = ([main_arg1, main_call0_v0, main_call0_v3_1, main_call0_v3_2, main_call0_v3_3, main_call0_v4_0, main_call0_v4_1, main_call0_v4_2] : List (Ref sig .tc)).toFinset := by decide

/-- The second pass's arrays sit on eight distinct buffers: the narrow `T₁` is behind two of its nine windows. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1)
          ∗ (((c : Thread nD τ).loc main_call0_v0) ↦{fullShare} V main_call0_v0)
          ∗ (((c : Thread nD τ).loc main_call0_v3_1) ↦{fullShare} V main_call0_v3_1)
          ∗ (((c : Thread nD τ).loc main_call0_v3_2) ↦{fullShare} V main_call0_v3_2)
          ∗ (((c : Thread nD τ).loc main_call0_v3_3) ↦{fullShare} V main_call0_v3_3)
          ∗ (((c : Thread nD τ).loc main_call0_v4_0) ↦{fullShare} V main_call0_v4_0)
          ∗ (((c : Thread nD τ).loc main_call0_v4_1) ↦{fullShare} V main_call0_v4_1)
          ∗ (((c : Thread nD τ).loc main_call0_v4_2) ↦{fullShare} V main_call0_v4_2)) :=
  arrBufs_eq_of_list spec1 c V _ arrList1 (by decide)

/-- The second pass's windowed arrays, window by window, each whole: the two windows on the narrow `T₁` at the two halves of its share,
    every other array at the full share. -/
theorem arrays1_eq (V : (c : Dev nD) → (b : Ref sig .tc) → Buf (Elt F) ((c : Thread nD τ).loc b)) (c : Dev nD)
    (A : (w : Fin cfg1.W) → Buf (Elt F) ((cfg1.win w).arr.view.loc (c : Thread nD τ))) :
    ((dat1 V c).arrays A : sProp 𝕄)
      = iprop((((c : Thread nD τ).loc main_call0_v3_2) ↦{fullShare} A 0)
          ∗ (((c : Thread nD τ).loc main_call0_v3_1) ↦{fullShare.left} A 1)
          ∗ (((c : Thread nD τ).loc main_call0_v3_1) ↦{fullShare.right} A 2)
          ∗ (((c : Thread nD τ).loc main_arg1) ↦{fullShare} A 3)
          ∗ (((c : Thread nD τ).loc main_call0_v0) ↦{fullShare} A 4)
          ∗ (((c : Thread nD τ).loc main_call0_v3_3) ↦{fullShare} A 5)
          ∗ (((c : Thread nD τ).loc main_call0_v4_0) ↦{fullShare} A 6)
          ∗ (((c : Thread nD τ).loc main_call0_v4_1) ↦{fullShare} A 7)
          ∗ (((c : Thread nD τ).loc main_call0_v4_2) ↦{fullShare} A 8)) := by
  unfold Dat.arrays
  rw [bigSep_W1]
  simp only [View.set_whole]
  rfl

/-! ## Entering the pass: the shared array's share is dealt to the two windows on it -/

/-- The eight buffers behind the arrays, each held whole at the contents the pass is entered from, make the pass's nine windowed arrays. -/
theorem entry1 (c : Dev nD) :
    (Pipeline.arrBufs spec1 c (E2 m c) : sProp 𝕄) ⊢ (dat1 (E2 m) c).arrays ((dat1 (E2 m) c).arrAt · 0) := by
  rw [arrBufs1_eq, arrays1_eq]
  iintro ⟨H_arg1, H_v0, H_v3_1, H_v3_2, H_v3_3, H_v4_0, H_v4_1, H_v4_2⟩
  ihave Hs := (pointsTo_share (PosShare.mem_left_op_right fullShare)).1 $$ H_v3_1
  icases Hs with ⟨Hl, Hr⟩
  isplitl [H_v3_2]; · iexact H_v3_2
  isplitl [Hl]; · iexact Hl
  isplitl [Hr]; · iexact Hr
  isplitl [H_arg1]; · iexact H_arg1
  isplitl [H_v0]; · iexact H_v0
  isplitl [H_v3_3]; · iexact H_v3_3
  isplitl [H_v4_0]; · iexact H_v4_0
  isplitl [H_v4_1]; · iexact H_v4_1
  iexact H_v4_2

/-! ## Leaving the pass: the inputs are as they were, the two halves rejoin, the outputs are at what the write-backs leave -/

/-- Off the pass's output arrays the state after it is the state before it. -/
theorem rest1 (c : Dev nD) (b : Ref sig .tc) (hb : b ∉ Finset.univ.image (Pipeline.arrRef spec1)) : E3 m c b = E2 m c b :=
  W3_of m c b fun h => hb (by rw [arrList1]; exact List.mem_toFinset.mpr (List.mem_cons_of_mem _ (List.mem_cons_of_mem _ (List.mem_cons_of_mem _ (List.mem_cons_of_mem _ (List.mem_cons_of_mem _ (h)))))))

/-- The nine windowed arrays after the last row block make the eight buffers at the state the pass leaves. -/
theorem exit1 (c : Dev nD) :
    ((dat1 (E2 m) c).arrays (fun w => (dat1 (E2 m) c).arrAt w cfg1.N) : sProp 𝕄) ⊢ Pipeline.arrBufs spec1 c (E3 m c) := by
  rw [arrBufs1_eq, arrays1_eq]
  beta_reduce
  rw [show (dat1 (E2 m) c).arrAt 0 cfg1.N = E2 m c main_call0_v3_2 from ((dat1 (E2 m) c).arrAt_in 0 rfl _).trans (A_eq1 (E2 m) c 0),
    show (dat1 (E2 m) c).arrAt 1 cfg1.N = E2 m c main_call0_v3_1 from ((dat1 (E2 m) c).arrAt_in 1 rfl _).trans (A_eq1 (E2 m) c 1),
    show (dat1 (E2 m) c).arrAt 2 cfg1.N = E2 m c main_call0_v3_1 from ((dat1 (E2 m) c).arrAt_in 2 rfl _).trans (A_eq1 (E2 m) c 2),
    show (dat1 (E2 m) c).arrAt 3 cfg1.N = E2 m c main_arg1 from ((dat1 (E2 m) c).arrAt_in 3 rfl _).trans (A_eq1 (E2 m) c 3),
    show (dat1 (E2 m) c).arrAt 4 cfg1.N = E2 m c main_call0_v0 from ((dat1 (E2 m) c).arrAt_in 4 rfl _).trans (A_eq1 (E2 m) c 4),
    show (dat1 (E2 m) c).arrAt 5 cfg1.N = E2 m c main_call0_v3_3 from ((dat1 (E2 m) c).arrAt_in 5 rfl _).trans (A_eq1 (E2 m) c 5)]
  rw [show E3 m c main_arg1 = E2 m c main_arg1 from W3_of m c main_arg1 (by decide),
    show E3 m c main_call0_v0 = E2 m c main_call0_v0 from W3_of m c main_call0_v0 (by decide),
    show E3 m c main_call0_v3_1 = E2 m c main_call0_v3_1 from W3_of m c main_call0_v3_1 (by decide),
    show E3 m c main_call0_v3_2 = E2 m c main_call0_v3_2 from W3_of m c main_call0_v3_2 (by decide),
    show E3 m c main_call0_v3_3 = E2 m c main_call0_v3_3 from W3_of m c main_call0_v3_3 (by decide),
    show E3 m c main_call0_v4_0 = (dat1 (E2 m) c).arrAt 6 cfg1.N from W3_v4_0 m c,
    show E3 m c main_call0_v4_1 = (dat1 (E2 m) c).arrAt 7 cfg1.N from W3_v4_1 m c,
    show E3 m c main_call0_v4_2 = (dat1 (E2 m) c).arrAt 8 cfg1.N from W3_v4_2 m c]
  iintro ⟨H0, H1, H2, H3, H4, H5, H6, H7, H8⟩
  ihave Hj := (pointsTo_share (PosShare.mem_left_op_right fullShare)).2 $$ [H1 H2]
  · isplitl [H1] <;> iassumption
  isplitl [H3]; · iexact H3
  isplitl [H4]; · iexact H4
  isplitl [Hj]; · iexact Hj
  isplitl [H0]; · iexact H0
  isplitl [H5]; · iexact H5
  isplitl [H6]; · iexact H6
  isplitl [H7]; · iexact H7
  iexact H8

/-! ## The pass as a segment of the program -/

set_option backward.isDefEq.respectTransparency.types false in
/-- The second pass over the thread state: every unscoped buffer at the contents before it, then at the contents after it; the generator register
    enters the pass's invariant and comes back; nothing is owed; the body has no semaphore of its own. -/
def reg1 : Pipeline.RegionSeg (pcfgs (F := F)) adm (pdats m) () defs₀ Variants.none (fun _ => (∅ : Finset Unit)) (fun _ _ => (0 : ℕ)) 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ _ _ 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest spec1 c (E2 m c)) := by
      rw [unscopedBufs_split spec1 c winFacts₀1.arr_unscoped (E2 m c)]
      exact sep_mono (entry1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays (fun w => (pdats m 1 c).arrAt w cfg1.N) ∗ Pipeline.unscopedRest spec1 c (E2 m c)) : sProp 𝕄)
        ⊢ unscopedBufs c (E3 m c) := by
      rw [unscopedBufs_split spec1 c winFacts₀1.arr_unscoped (E3 m c), unscopedRest_congr spec1 c (E3 m c) (E2 m c) (rest1 m c)]
      exact sep_mono (exit1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Pass

end
-- ==== Proof.Kernel.Seg2.lean ====
/-
  The third pass as a segment of the program. It reads the narrowed operator, — through two windows — the narrow `T₂`, then
  `T₁`, the corrections, the running sum, the narrow weights and the bias row, and writes the result. Entering it, the narrow
  `T₂`'s buffer is dealt in two halves to the two windows on it; leaving it, the inputs' arrays are as they were, the halves
  rejoin, and the result array is at what the row blocks' write-backs leave.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Gen.Kernel.Regions
import proofs.«148721_g88055419503321_cont_sun_m_792_6_alg».proof.Proof.LibSharedWindows
import proofs.«148721_g88055419503321_cont_sun_m_792_6_alg».proof.Proof.Kernel.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList2 : Finset.univ.image (Pipeline.arrRef spec2) = ([main_call0_v1, main_call0_v2, main_call0_v3_0, main_call0_v3_2, main_call0_v3_3, main_call0_v4_1, main_call0_v4_2, main_v0] : List (Ref sig .tc)).toFinset := by decide

/-- The third pass's arrays sit on eight distinct buffers: the narrow `T₂` is behind two of its nine windows. -/
theorem arrBufs2_eq (c : Dev nD) (V : (b : Ref sig .tc) → Buf (Elt F) ((c : Thread nD τ).loc b)) :
    (Pipeline.arrBufs spec2 c V : sProp 𝕄)
      = iprop((((c : Thread nD τ).loc main_call0_v1) ↦{fullShare} V main_call0_v1)
          ∗ (((c : Thread nD τ).loc main_call0_v2) ↦{fullShare} V main_call0_v2)
          ∗ (((c : Thread nD τ).loc main_call0_v3_0) ↦{fullShare} V main_call0_v3_0)
          ∗ (((c : Thread nD τ).loc main_call0_v3_2) ↦{fullShare} V main_call0_v3_2)
          ∗ (((c : Thread nD τ).loc main_call0_v3_3) ↦{fullShare} V main_call0_v3_3)
          ∗ (((c : Thread nD τ).loc main_call0_v4_1) ↦{fullShare} V main_call0_v4_1)
          ∗ (((c : Thread nD τ).loc main_call0_v4_2) ↦{fullShare} V main_call0_v4_2)
          ∗ (((c : Thread nD τ).loc main_v0) ↦{fullShare} V main_v0)) :=
  arrBufs_eq_of_list spec2 c V _ arrList2 (by decide)

/-- The third pass's windowed arrays, window by window, each whole: the two windows on the narrow `T₂` at the two halves of its share,
    every other array at the full share. -/
theorem arrays2_eq (V : (c : Dev nD) → (b : Ref sig .tc) → Buf (Elt F) ((c : Thread nD τ).loc b)) (c : Dev nD)
    (A : (w : Fin cfg2.W) → Buf (Elt F) ((cfg2.win w).arr.view.loc (c : Thread nD τ))) :
    ((dat2 V c).arrays A : sProp 𝕄)
      = iprop((((c : Thread nD τ).loc main_call0_v3_2) ↦{fullShare} A 0)
          ∗ (((c : Thread nD τ).loc main_call0_v4_1) ↦{fullShare.left} A 1)
          ∗ (((c : Thread nD τ).loc main_call0_v4_1) ↦{fullShare.right} A 2)
          ∗ (((c : Thread nD τ).loc main_call0_v3_0) ↦{fullShare} A 3)
          ∗ (((c : Thread nD τ).loc main_call0_v3_3) ↦{fullShare} A 4)
          ∗ (((c : Thread nD τ).loc main_call0_v4_2) ↦{fullShare} A 5)
          ∗ (((c : Thread nD τ).loc main_call0_v1) ↦{fullShare} A 6)
          ∗ (((c : Thread nD τ).loc main_call0_v2) ↦{fullShare} A 7)
          ∗ (((c : Thread nD τ).loc main_v0) ↦{fullShare} A 8)) := by
  unfold Dat.arrays
  rw [bigSep_W2]
  simp only [View.set_whole]
  rfl

/-! ## Entering the pass: the shared array's share is dealt to the two windows on it -/

/-- The eight buffers behind the arrays, each held whole at the contents the pass is entered from, make the pass's nine windowed arrays. -/
theorem entry2 (c : Dev nD) :
    (Pipeline.arrBufs spec2 c (E3 m c) : sProp 𝕄) ⊢ (dat2 (E3 m) c).arrays ((dat2 (E3 m) c).arrAt · 0) := by
  rw [arrBufs2_eq, arrays2_eq]
  iintro ⟨H_v1, H_v2, H_v3_0, H_v3_2, H_v3_3, H_v4_1, H_v4_2, H_v0⟩
  ihave Hs := (pointsTo_share (PosShare.mem_left_op_right fullShare)).1 $$ H_v4_1
  icases Hs with ⟨Hl, Hr⟩
  isplitl [H_v3_2]; · iexact H_v3_2
  isplitl [Hl]; · iexact Hl
  isplitl [Hr]; · iexact Hr
  isplitl [H_v3_0]; · iexact H_v3_0
  isplitl [H_v3_3]; · iexact H_v3_3
  isplitl [H_v4_2]; · iexact H_v4_2
  isplitl [H_v1]; · iexact H_v1
  isplitl [H_v2]; · iexact H_v2
  iexact H_v0

/-! ## Leaving the pass: the inputs are as they were, the two halves rejoin, the outputs are at what the write-backs leave -/

/-- Off the pass's output arrays the state after it is the state before it. -/
theorem rest2 (c : Dev nD) (b : Ref sig .tc) (hb : b ∉ Finset.univ.image (Pipeline.arrRef spec2)) : E4 m c b = E3 m c b :=
  W4_of m c b fun h => hb (by rw [arrList2]; exact List.mem_toFinset.mpr (List.mem_cons_of_mem _ (List.mem_cons_of_mem _ (List.mem_cons_of_mem _ (List.mem_cons_of_mem _ (List.mem_cons_of_mem _ (List.mem_cons_of_mem _ (List.mem_cons_of_mem _ (h)))))))))

/-- The nine windowed arrays after the last row block make the eight buffers at the state the pass leaves. -/
theorem exit2 (c : Dev nD) :
    ((dat2 (E3 m) c).arrays (fun w => (dat2 (E3 m) c).arrAt w cfg2.N) : sProp 𝕄) ⊢ Pipeline.arrBufs spec2 c (E4 m c) := by
  rw [arrBufs2_eq, arrays2_eq]
  beta_reduce
  rw [show (dat2 (E3 m) c).arrAt 0 cfg2.N = E3 m c main_call0_v3_2 from ((dat2 (E3 m) c).arrAt_in 0 rfl _).trans (A_eq2 (E3 m) c 0),
    show (dat2 (E3 m) c).arrAt 1 cfg2.N = E3 m c main_call0_v4_1 from ((dat2 (E3 m) c).arrAt_in 1 rfl _).trans (A_eq2 (E3 m) c 1),
    show (dat2 (E3 m) c).arrAt 2 cfg2.N = E3 m c main_call0_v4_1 from ((dat2 (E3 m) c).arrAt_in 2 rfl _).trans (A_eq2 (E3 m) c 2),
    show (dat2 (E3 m) c).arrAt 3 cfg2.N = E3 m c main_call0_v3_0 from ((dat2 (E3 m) c).arrAt_in 3 rfl _).trans (A_eq2 (E3 m) c 3),
    show (dat2 (E3 m) c).arrAt 4 cfg2.N = E3 m c main_call0_v3_3 from ((dat2 (E3 m) c).arrAt_in 4 rfl _).trans (A_eq2 (E3 m) c 4),
    show (dat2 (E3 m) c).arrAt 5 cfg2.N = E3 m c main_call0_v4_2 from ((dat2 (E3 m) c).arrAt_in 5 rfl _).trans (A_eq2 (E3 m) c 5),
    show (dat2 (E3 m) c).arrAt 6 cfg2.N = E3 m c main_call0_v1 from ((dat2 (E3 m) c).arrAt_in 6 rfl _).trans (A_eq2 (E3 m) c 6),
    show (dat2 (E3 m) c).arrAt 7 cfg2.N = E3 m c main_call0_v2 from ((dat2 (E3 m) c).arrAt_in 7 rfl _).trans (A_eq2 (E3 m) c 7)]
  rw [show E4 m c main_call0_v1 = E3 m c main_call0_v1 from W4_of m c main_call0_v1 (by decide),
    show E4 m c main_call0_v2 = E3 m c main_call0_v2 from W4_of m c main_call0_v2 (by decide),
    show E4 m c main_call0_v3_0 = E3 m c main_call0_v3_0 from W4_of m c main_call0_v3_0 (by decide),
    show E4 m c main_call0_v3_2 = E3 m c main_call0_v3_2 from W4_of m c main_call0_v3_2 (by decide),
    show E4 m c main_call0_v3_3 = E3 m c main_call0_v3_3 from W4_of m c main_call0_v3_3 (by decide),
    show E4 m c main_call0_v4_1 = E3 m c main_call0_v4_1 from W4_of m c main_call0_v4_1 (by decide),
    show E4 m c main_call0_v4_2 = E3 m c main_call0_v4_2 from W4_of m c main_call0_v4_2 (by decide),
    show E4 m c main_v0 = (dat2 (E3 m) c).arrAt 8 cfg2.N from W4_v0 m c]
  iintro ⟨H0, H1, H2, H3, H4, H5, H6, H7, H8⟩
  ihave Hj := (pointsTo_share (PosShare.mem_left_op_right fullShare)).2 $$ [H1 H2]
  · isplitl [H1] <;> iassumption
  isplitl [H6]; · iexact H6
  isplitl [H7]; · iexact H7
  isplitl [H3]; · iexact H3
  isplitl [H0]; · iexact H0
  isplitl [H4]; · iexact H4
  isplitl [Hj]; · iexact Hj
  isplitl [H5]; · iexact H5
  iexact H8

/-! ## The pass as a segment of the program -/

set_option backward.isDefEq.respectTransparency.types false in
/-- The third pass over the thread state: every unscoped buffer at the contents before it, then at the contents the program ends with; the generator
    register enters the pass's invariant and comes back; nothing is owed; the body has no semaphore of its own. -/
def reg2 : Pipeline.RegionSeg (pcfgs (F := F)) adm (pdats m) () defs₀ Variants.none (fun _ => (∅ : Finset Unit)) (fun _ _ => (0 : ℕ)) 2 where
  win := winFacts₀2
  block_pos := block_pos2
  stage_whole := stage_whole2
  K := PEmpty
  osem k := k.elim
  ho := Pipeline.OwnSemFacts.none _
  hbody c := (body_obligation2 (E3 m) c).loose
  hwaits := Pipeline.hwaits_of_owed_zero _ _ _ _ _ _ 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄)
        ⊢ iprop((pdats m 2 c).arrays ((pdats m 2 c).arrAt · 0) ∗ Pipeline.unscopedRest spec2 c (E3 m c)) := by
      rw [unscopedBufs_split spec2 c winFacts₀2.arr_unscoped (E3 m c)]
      exact sep_mono (entry2 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays (fun w => (pdats m 2 c).arrAt w cfg2.N) ∗ Pipeline.unscopedRest spec2 c (E3 m c)) : sProp 𝕄)
        ⊢ unscopedBufs c (E4 m c) := by
      rw [unscopedBufs_split spec2 c winFacts₀2.arr_unscoped (E4 m c), unscopedRest_congr spec2 c (E4 m c) (E3 m c) (rest2 m c)]
      exact sep_mono (exit2 m c) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Pass

end
-- ==== Proof.Kernel.Run.lean ====
/-
  The whole program on the TensorCores: the host's conversions, then the three passes. Every weakly fair execution from a
  memory with zero counters terminates, nothing faulting, and the final memory holds every unscoped buffer at the state the
  third pass leaves — so the arguments are as launched, and the result array is what the third pass's write-backs leave.
-/
import proofs.«148721_g88055419503321_cont_sun_m_792_6_alg».proof.Proof.Gen.Kernel.Launch
import proofs.«148721_g88055419503321_cont_sun_m_792_6_alg».proof.Proof.Gen.Kernel.Skeleton
import proofs.«148721_g88055419503321_cont_sun_m_792_6_alg».proof.Proof.Gen.Kernel.Points
import proofs.«148721_g88055419503321_cont_sun_m_792_6_alg».proof.Proof.Gen.Kernel.Regions
import proofs.«148721_g88055419503321_cont_sun_m_792_6_alg».proof.Proof.Kernel.Seg0
import proofs.«148721_g88055419503321_cont_sun_m_792_6_alg».proof.Proof.Kernel.Seg1
import proofs.«148721_g88055419503321_cont_sun_m_792_6_alg».proof.Proof.Kernel.Seg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch contents. -/
abbrev W0 (c : Dev nD) : Valuation τ sig (Elt F) := fun b => m (c, b)

/-- The host's conversions as a segment: over the unscoped buffers from the launch contents, the generator register and the
    empty debt riding along. -/
abbrev hseg0 : Pipeline.HostSeg (Name := ℕ) (U := UR sig nD τ) (pcfgs (F := F)) defs₀ Variants.none (fun _ => (∅ : Finset Unit)) (fun _ _ => (0 : ℕ)) :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The program's four segments in order. -/
abbrev segs : List (Pipeline.Seg (pcfgs (F := F)) adm (pdats m) () defs₀ Variants.none (fun _ => (∅ : Finset Unit)) (fun _ _ => (0 : ℕ))) :=
  [ .host (hseg0 m), .region (reg0 m), .region (reg1 m), .region (reg2 m) ]

/-- The program is the run of its segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, and the final memory
    holds every unscoped buffer at the state after the third pass. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none (fun _ => (∅ : Finset Unit)) (fun _ _ => (0 : ℕ)) m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach _ _ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c)⟩) (run_all m ρ)

/-- The arguments end as launched and the result array ends at what the third pass's write-backs leave. -/
theorem value_all : θ_run defs (onTc (τ := τ) (main (F := F))) ⟨m, fun _ => 0, ρ⟩ (fun r => ∀ c : Dev nD,
      r.2.mem ((c.tc : Thread nD τ).loc main_v0) = (dat2 (E3 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W4_v0 m c),
     (h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c)⟩) (run_all m ρ)

end Cert.Kernel.Pass

end
-- ==== Proof.KernelIdeal.Rects.lean ====
/-
  The whole-buffer rectangles through which the three passes' bodies load and store — one per block shape — and that a
  single store through such a rectangle covers its buffer.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rL : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rB : Rect S400x128 := Rect.unit (s := S400x128) ![0, 0] S400x128.size inb_S400x128_S400x128_0_0
abbrev rC : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0

theorem coverB {e : EltTy} (p0 : Vec F S400x128 e) (y : S400x128.Idx) :
    ∃ pc ∈ ([⟨rB, p0⟩] : List (View.Piece (Elt F) S400x128 e)), y ∈ pc.1.set :=
  View.cover_of_tiled [⟨rB, p0⟩] S400x128.size (by rfl) y
theorem coverL {e : EltTy} (p0 : Vec F S400x10000 e) (y : S400x10000.Idx) :
    ∃ pc ∈ ([⟨rL, p0⟩] : List (View.Piece (Elt F) S400x10000 e)), y ∈ pc.1.set :=
  View.cover_of_tiled [⟨rL, p0⟩] S400x10000.size (by rfl) y
theorem coverC {e : EltTy} (p0 : Vec F S400x1 e) (y : S400x1.Idx) :
    ∃ pc ∈ ([⟨rC, p0⟩] : List (View.Piece (Elt F) S400x1 e)), y ∈ pc.1.set :=
  View.cover_of_tiled [⟨rC, p0⟩] S400x1.size (by rfl) y

end Cert.KernelIdeal.Pass

end
-- ==== Proof.KernelIdeal.Pass0.lean ====
/-
  The first of the three row-blocked passes, on one core. For a block of 400 rows it reads the operator's rows, the
  whole narrow copy of the features and the rows' own narrow features, and writes the rows of `T₁ = 2·(L·H) + c·H`
  (wide and narrow), the operator's rows narrowed, and the rows' corrections `c`. Here: what the body leaves in each
  output buffer as a term of the input blocks, the body's triple, and the pass's proof data. The narrow features reach
  the pass through two windows on one array, which therefore hold complementary halves of that array's share.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in each output buffer, from the input blocks -/

/-- The row block of `T₁`: twice the operator's rows times the features, plus the per-row correction times the rows' own features. -/
def t1Blk (i : grid0.Coords) (x0 : Vec F S400x10000 .f32) (x1 : Vec F S10000x128 .bf16) (x2 : Vec F S400x128 .bf16) : Vec F S400x128 .f32 :=
  View.canon [⟨rB, k0_pay4 i (View.ld x0 rL) (View.ld x0 rL) (View.ld x1 rH) (View.ld x2 rB)⟩]

/-- The same block in the narrower format. -/
def t1bBlk (i : grid0.Coords) (x0 : Vec F S400x10000 .f32) (x1 : Vec F S10000x128 .bf16) (x2 : Vec F S400x128 .bf16) : Vec F S400x128 .bf16 :=
  View.canon [⟨rB, k0_pay1 (k0_pay4 i (View.ld x0 rL) (View.ld x0 rL) (View.ld x1 rH) (View.ld x2 rB))⟩]

/-- The operator's rows in the narrower format. -/
def lbBlk (i : grid0.Coords) (x0 : Vec F S400x10000 .f32) (x1 : Vec F S10000x128 .bf16) (x2 : Vec F S400x128 .bf16) : Vec F S400x10000 .bf16 :=
  View.canon [⟨rL, k0_pay2 (View.ld x0 rL)⟩]

/-- The rows' corrections. -/
def cBlk (i : grid0.Coords) (x0 : Vec F S400x10000 .f32) (x1 : Vec F S10000x128 .bf16) (x2 : Vec F S400x128 .bf16) : Vec F S400x1 .f32 :=
  View.canon [⟨rC, k0_pay3 i (View.ld x0 rL)⟩]

/-! ## The body's triple -/

set_option maxHeartbeats 1000000 in
/-- The first pass's body on whole staging buffers: the three inputs' buffers are read and left as they were, and each of the four
    outputs' buffers ends at its block term of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x128 .bf16) (harg5 : arg5.IsWhole) (arg6 : Memref sig .tc .vmem S400x10000 .bf16) (harg6 : arg6.IsWhole) (arg7 : Memref sig .tc .vmem S400x1 .f32) (harg7 : arg7.IsWhole)
    (x0 : Vec F S400x10000 .f32) (x1 : Vec F S10000x128 .bf16) (x2 : Vec F S400x128 .bf16) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (t1Blk i x0 x1 x2)
            ∗ owns (c : Thread nD τ) arg5 fullShare (t1bBlk i x0 x1 x2)
            ∗ owns (c : Thread nD τ) arg6 fullShare (lbBlk i x0 x1 x2)
            ∗ owns (c : Thread nD τ) arg7 fullShare (cBlk i x0 x1 x2)) -∗ K ⟨⟩))
      ⊢ wp frame (wpE (defs₀ (F := F)) Variants.none c none) E (cc0__step1_kernel i arg1 harg1 arg2 harg2 arg3 harg3 arg4 harg4 arg5 harg5 arg6 harg6 arg7 harg7) K := by
  simp only [cc0__step1_kernel_eq_skeleton]; unfold cc0__step1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverB _)
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverL _)
  iexists _; isplitr
  swap; · iexact H6
  ipureintro
  exact View.read_writes_eq_canon _ _ _ (coverC _)

/-! ## The pass's windows and proof data, at the contents `V` the pass is entered from -/

section Pass0
variable (V : (c : Dev nD) → (b : Ref sig .tc) → Buf (Elt F) ((c : Thread nD τ).loc b))

/-- Window `w`'s block at grid point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first pass's proof data on core `c`. The narrow copy of the features is handed to the pass twice — whole, and row block by
    row block — so the two windows on it hold the two halves of its share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => t1Blk (grid0.coords t) (iblk0 V c 0 t) (iblk0 V c 1 t) (iblk0 V c 2 t)
    | ⟨4, _⟩ => t1bBlk (grid0.coords t) (iblk0 V c 0 t) (iblk0 V c 1 t) (iblk0 V c 2 t)
    | ⟨5, _⟩ => lbBlk (grid0.coords t) (iblk0 V c 0 t) (iblk0 V c 1 t) (iblk0 V c 2 t)
    | ⟨6, _⟩ => cBlk (grid0.coords t) (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = t1Blk (grid0.coords t) (iblk0 V c 0 t) (iblk0 V c 1 t) (iblk0 V c 2 t) := by dsimp only [dat0]
theorem after0_4 (c : Dev nD) (t : Fin cfg0.N) : (dat0 V c).after 4 t = t1bBlk (grid0.coords t) (iblk0 V c 0 t) (iblk0 V c 1 t) (iblk0 V c 2 t) := by dsimp only [dat0]
theorem after0_5 (c : Dev nD) (t : Fin cfg0.N) : (dat0 V c).after 5 t = lbBlk (grid0.coords t) (iblk0 V c 0 t) (iblk0 V c 1 t) (iblk0 V c 2 t) := by dsimp only [dat0]
theorem after0_6 (c : Dev nD) (t : Fin cfg0.N) : (dat0 V c).after 6 t = cBlk (grid0.coords t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Pass0

end Cert.KernelIdeal.Pass

end
-- ==== Proof.KernelIdeal.Pass1.lean ====
/-
  The second pass, on one core. For a block of 400 rows it reads the narrowed operator's rows, the whole narrow `T₁` and
  the rows' own narrow `T₁`, the rows' features (wide and narrow) and corrections, and writes the rows of
  `T₂ = 4·(L·T₁) + 2c·T₁ − H` (wide and narrow) and of the running sum `S₂ = H + T₁ + T₂`. Here: the block terms, the
  body's triple, and the pass's proof data; the two windows on the narrow `T₁` hold complementary halves of its share.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in each output buffer, from the input blocks -/

/-- The row block of `T₂`. -/
def t2Blk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .f32 :=
  View.canon [⟨rB, k1_pay2 (View.ld x0 rL) (View.ld x1 rH) (View.ld x2 rB) (View.ld x5 rC) (View.ld x3 rB)⟩]

/-- The same block in the narrower format. -/
def t2bBlk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .bf16 :=
  View.canon [⟨rB, k1_pay3 (View.ld x0 rL) (View.ld x1 rH) (View.ld x2 rB) (View.ld x5 rC) (View.ld x3 rB)⟩]

/-- The row block of the running sum `H + T₁ + T₂`. -/
def s2Blk (x0 : Vec F S400x10000 .bf16) (x1 : Vec F S10000x128 .bf16) (x2 : Vec F S400x128 .bf16) (x3 : Vec F S400x128 .f32) (x4 : Vec F S400x128 .bf16) (x5 : Vec F S400x1 .f32) : Vec F S400x128 .f32 :=
  View.canon [⟨rB, k1_pay4 (View.ld x0 rL) (View.ld x1 rH) (View.ld x2 rB) (View.ld x5 rC) (View.ld x3 rB) (View.ld x4 rB)⟩]

/-! ## The body's triple -/

set_option maxHeartbeats 1000000 in
/-- The second pass's body on whole staging buffers: the six inputs' buffers are read and left as they were, and each of the three
    outputs' buffers ends at its block term of the inputs'. -/
theorem sound_kernel1 (c : Dev nD) (E : Set ℕ) (i : grid1.Coords)
    (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x128 .bf16) (harg5 : arg5.IsWhole) (arg6 : Memref sig .tc .vmem S400x1 .f32) (harg6 : arg6.IsWhole) (arg7 : Memref sig .tc .vmem S400x128 .f32) (harg7 : arg7.IsWhole) (arg8 : Memref sig .tc .vmem S400x128 .bf16) (harg8 : arg8.IsWhole) (arg9 : Memref sig .tc .vmem S400x128 .f32) (harg9 : arg9.IsWhole)
    (x0 : Vec F S400x10000 .bf16) (x1 : Vec F S10000x128 .bf16) (x2 : Vec F S400x128 .bf16) (x3 : Vec F S400x128 .f32) (x4 : Vec F S400x128 .bf16) (x5 : Vec F S400x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (t2Blk x0 x1 x2 x3 x4 x5)
            ∗ owns (c : Thread nD τ) arg8 fullShare (t2bBlk x0 x1 x2 x3 x4 x5)
            ∗ owns (c : Thread nD τ) arg9 fullShare (s2Blk x0 x1 x2 x3 x4 x5)) -∗ K ⟨⟩))
      ⊢ wp frame (wpE (defs₀ (F := F)) Variants.none c none) E (cc1__step2_kernel i arg1 harg1 arg2 harg2 arg3 harg3 arg4 harg4 arg5 harg5 arg6 harg6 arg7 harg7 arg8 harg8 arg9 harg9) K := by
  simp only [cc1__step2_kernel_eq_skeleton]; unfold cc1__step2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverB _)
  isplitl [H7]
  · iexists _; isplitr
    swap; · iexact H7
    ipureintro
    exact View.read_writes_eq_canon _ _ _ (coverB _)
  iexists _; isplitr
  swap; · iexact H8
  ipureintro
  exact View.read_writes_eq_canon _ _ _ (coverB _)

/-! ## The pass's windows and proof data, at the contents `V` the pass is entered from -/

section Pass1
variable (V : (c : Dev nD) → (b : Ref sig .tc) → Buf (Elt F) ((c : Thread nD τ).loc b))

/-- Window `w`'s block at grid point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The second pass's proof data on core `c`: the two windows on the narrow `T₁` hold the two halves of its share; every other
    array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => t2Blk (iblk1 V c 0 t) (iblk1 V c 1 t) (iblk1 V c 2 t) (iblk1 V c 3 t) (iblk1 V c 4 t) (iblk1 V c 5 t)
    | ⟨7, _⟩ => t2bBlk (iblk1 V c 0 t) (iblk1 V c 1 t) (iblk1 V c 2 t) (iblk1 V c 3 t) (iblk1 V c 4 t) (iblk1 V c 5 t)
    | ⟨8, _⟩ => s2Blk (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = t2Blk (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = t2bBlk (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = s2Blk (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Pass1

end Cert.KernelIdeal.Pass

end
-- ==== Proof.KernelIdeal.Pass2.lean ====
/-
  The third pass, on one core. For a block of 400 rows it reads the narrowed operator's rows, the whole narrow `T₂` and the
  rows' own narrow `T₂`, the rows of `T₁`, of the corrections and of the running sum, the narrow weights and the bias row,
  and writes the rows of the result `(S₂ + T₃)·W + b` with `T₃ = 4·(L·T₂) + 2c·T₂ − T₁`. Here: the block term, the body's
  triple, and the pass's proof data; the two windows on the narrow `T₂` hold complementary halves of its share.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Rects
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in each output buffer, from the input blocks -/

/-- The row block of the result. -/
def outBlk (x0 : Vec F S400x10000 .bf16) (x1 : Vec F S10000x128 .bf16) (x2 : Vec F S400x128 .bf16) (x3 : Vec F S400x128 .f32) (x4 : Vec F S400x1 .f32) (x5 : Vec F S400x128 .f32) (x6 : Vec F S128x128 .bf16) (x7 : Vec F S1x128 .f32) : Vec F S400x128 .f32 :=
  View.canon [⟨rB, k2_pay1 (View.ld x0 rL) (View.ld x1 rH) (View.ld x4 rC) (View.ld x2 rB) (View.ld x3 rB) (View.ld x5 rB) (View.ld x6 rW) (View.ld x7 rBias)⟩]

/-! ## The body's triple -/

set_option maxHeartbeats 1000000 in
/-- The third pass's body on whole staging buffers: the eight inputs' buffers are read and left as they were, and the output's
    buffer ends at its block term of the inputs'. -/
theorem sound_kernel2 (c : Dev nD) (E : Set ℕ) (i : grid2.Coords)
    (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S400x1 .f32) (harg5 : arg5.IsWhole) (arg6 : Memref sig .tc .vmem S400x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S400x128 .f32) (harg9 : arg9.IsWhole)
    (x0 : Vec F S400x10000 .bf16) (x1 : Vec F S10000x128 .bf16) (x2 : Vec F S400x128 .bf16) (x3 : Vec F S400x128 .f32) (x4 : Vec F S400x1 .f32) (x5 : Vec F S400x128 .f32) (x6 : Vec F S128x128 .bf16) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (outBlk x0 x1 x2 x3 x4 x5 x6 x7)) -∗ K ⟨⟩))
      ⊢ wp frame (wpE (defs₀ (F := F)) Variants.none c none) E (cc2__step3_kernel i arg1 harg1 arg2 harg2 arg3 harg3 arg4 harg4 arg5 harg5 arg6 harg6 arg7 harg7 arg8 harg8 arg9 harg9) K := by
  simp only [cc2__step3_kernel_eq_skeleton]; unfold cc2__step3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverB _)

/-! ## The pass's windows and proof data, at the contents `V` the pass is entered from -/

section Pass2
variable (V : (c : Dev nD) → (b : Ref sig .tc) → Buf (Elt F) ((c : Thread nD τ).loc b))

/-- Window `w`'s block at grid point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The third pass's proof data on core `c`: the two windows on the narrow `T₂` hold the two halves of its share; every other
    array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outBlk (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outBlk (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Pass2

end Cert.KernelIdeal.Pass

end
-- ==== Proof.KernelIdeal.Between.lean ====
/-
  What a core's arrays hold between the three passes. The host first narrows the features and the weights and reshapes the
  bias; then each pass leaves, in each of its output arrays, what its row blocks' write-backs leave there, and every other
  array as it found it. Here: those four states of the arrays, what each reads at every array a later pass or the end looks
  at, and that no pass and no host operation touches an argument.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.Gen.KernelIdeal.Regions
import proofs.«148721_g88055419503321_cont_sun_m_792_6_alg».proof.Proof.KernelIdeal.Pass0
import proofs.«148721_g88055419503321_cont_sun_m_792_6_alg».proof.Proof.KernelIdeal.Pass1
import proofs.«148721_g88055419503321_cont_sun_m_792_6_alg».proof.Proof.KernelIdeal.Pass2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The four states -/

/-- When the first pass is entered: the launch contents after the host's conversions. -/
abbrev W1 (c : Dev nD) : Valuation τ sig (Elt F) := StableHlo.after hostOps0 (fun b => m (c, b))
abbrev E1 : (c : Dev nD) → (b : Ref sig .tc) → Buf (Elt F) ((c : Thread nD τ).loc b) := fun c b => W1 m c b

/-- After the first pass: `T₁` wide and narrow, the narrowed operator and the corrections at what the write-backs leave. -/
def W2 (c : Dev nD) : Valuation τ sig (Elt F) :=
  Function.update (Function.update (Function.update (Function.update (W1 m c) main_call0_v3_0 ((dat0 (E1 m) c).arrAt 3 cfg0.N)) main_call0_v3_1 ((dat0 (E1 m) c).arrAt 4 cfg0.N)) main_call0_v3_2 ((dat0 (E1 m) c).arrAt 5 cfg0.N)) main_call0_v3_3 ((dat0 (E1 m) c).arrAt 6 cfg0.N)
abbrev E2 : (c : Dev nD) → (b : Ref sig .tc) → Buf (Elt F) ((c : Thread nD τ).loc b) := fun c b => W2 m c b

/-- After the second pass: `T₂` wide and narrow and the running sum. -/
def W3 (c : Dev nD) : Valuation τ sig (Elt F) :=
  Function.update (Function.update (Function.update (W2 m c) main_call0_v4_0 ((dat1 (E2 m) c).arrAt 6 cfg1.N)) main_call0_v4_1 ((dat1 (E2 m) c).arrAt 7 cfg1.N)) main_call0_v4_2 ((dat1 (E2 m) c).arrAt 8 cfg1.N)
abbrev E3 : (c : Dev nD) → (b : Ref sig .tc) → Buf (Elt F) ((c : Thread nD τ).loc b) := fun c b => W3 m c b

/-- After the third pass: the result. -/
def W4 (c : Dev nD) : Valuation τ sig (Elt F) :=
  Function.update (W3 m c) main_v0 ((dat2 (E3 m) c).arrAt 8 cfg2.N)
abbrev E4 : (c : Dev nD) → (b : Ref sig .tc) → Buf (Elt F) ((c : Thread nD τ).loc b) := fun c b => W4 m c b

/-! ## What each state reads -/

private theorem ne' {x y : Ref sig .tc} (h : x ≠ y) : (Proc.devRef .tc x : DevRef τ sig) ≠ Proc.devRef .tc y := StableHlo.devRef_ne_of_ne h

theorem W2_v3_0 (c : Dev nD) : W2 m c main_call0_v3_0 = (dat0 (E1 m) c).arrAt 3 cfg0.N := by
  unfold W2; rw [Function.update_of_ne (ne' (by decide)), Function.update_of_ne (ne' (by decide)), Function.update_of_ne (ne' (by decide)), Function.update_self]
theorem W2_v3_1 (c : Dev nD) : W2 m c main_call0_v3_1 = (dat0 (E1 m) c).arrAt 4 cfg0.N := by
  unfold W2; rw [Function.update_of_ne (ne' (by decide)), Function.update_of_ne (ne' (by decide)), Function.update_self]
theorem W2_v3_2 (c : Dev nD) : W2 m c main_call0_v3_2 = (dat0 (E1 m) c).arrAt 5 cfg0.N := by
  unfold W2; rw [Function.update_of_ne (ne' (by decide)), Function.update_self]
theorem W2_v3_3 (c : Dev nD) : W2 m c main_call0_v3_3 = (dat0 (E1 m) c).arrAt 6 cfg0.N := by
  unfold W2; rw [Function.update_self]
/-- Every other array is as the first pass found it. -/
theorem W2_of (c : Dev nD) (r : Ref sig .tc) (h : r ∉ ([main_call0_v3_0, main_call0_v3_1, main_call0_v3_2, main_call0_v3_3] : List (Ref sig .tc))) :
    W2 m c r = W1 m c r := by
  unfold W2
  rw [Function.update_of_ne (ne' (List.ne_of_not_mem_cons (List.not_mem_of_not_mem_cons (List.not_mem_of_not_mem_cons (List.not_mem_of_not_mem_cons h))))),
    Function.update_of_ne (ne' (List.ne_of_not_mem_cons (List.not_mem_of_not_mem_cons (List.not_mem_of_not_mem_cons h)))),
    Function.update_of_ne (ne' (List.ne_of_not_mem_cons (List.not_mem_of_not_mem_cons h))),
    Function.update_of_ne (ne' (List.ne_of_not_mem_cons h))]

theorem W3_v4_0 (c : Dev nD) : W3 m c main_call0_v4_0 = (dat1 (E2 m) c).arrAt 6 cfg1.N := by
  unfold W3; rw [Function.update_of_ne (ne' (by decide)), Function.update_of_ne (ne' (by decide)), Function.update_self]
theorem W3_v4_1 (c : Dev nD) : W3 m c main_call0_v4_1 = (dat1 (E2 m) c).arrAt 7 cfg1.N := by
  unfold W3; rw [Function.update_of_ne (ne' (by decide)), Function.update_self]
theorem W3_v4_2 (c : Dev nD) : W3 m c main_call0_v4_2 = (dat1 (E2 m) c).arrAt 8 cfg1.N := by
  unfold W3; rw [Function.update_self]
/-- Every other array is as the second pass found it. -/
theorem W3_of (c : Dev nD) (r : Ref sig .tc) (h : r ∉ ([main_call0_v4_0, main_call0_v4_1, main_call0_v4_2] : List (Ref sig .tc))) :
    W3 m c r = W2 m c r := by
  unfold W3
  rw [Function.update_of_ne (ne' (List.ne_of_not_mem_cons (List.not_mem_of_not_mem_cons (List.not_mem_of_not_mem_cons h)))),
    Function.update_of_ne (ne' (List.ne_of_not_mem_cons (List.not_mem_of_not_mem_cons h))),
    Function.update_of_ne (ne' (List.ne_of_not_mem_cons h))]

theorem W4_v0 (c : Dev nD) : W4 m c main_v0 = (dat2 (E3 m) c).arrAt 8 cfg2.N := by
  unfold W4; rw [Function.update_self]
/-- Every other array is as the third pass found it. -/
theorem W4_of (c : Dev nD) (r : Ref sig .tc) (h : r ∉ ([main_v0] : List (Ref sig .tc))) : W4 m c r = W3 m c r := by
  unfold W4; rw [Function.update_of_ne (ne' (List.ne_of_not_mem_cons h))]

/-! ## No pass and no host operation touches an argument -/

theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <| (V1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <| (V1_of m c main_arg1 (by decide)).trans rfl
theorem W4_main_arg2 (c : Dev nD) : W4 m c main_arg2 = m ((c : Thread nD τ).loc main_arg2) :=
  (W4_of m c main_arg2 (by decide)).trans <| (W3_of m c main_arg2 (by decide)).trans <| (W2_of m c main_arg2 (by decide)).trans <| (V1_of m c main_arg2 (by decide)).trans rfl
theorem W4_main_arg3 (c : Dev nD) : W4 m c main_arg3 = m ((c : Thread nD τ).loc main_arg3) :=
  (W4_of m c main_arg3 (by decide)).trans <| (W3_of m c main_arg3 (by decide)).trans <| (W2_of m c main_arg3 (by decide)).trans <| (V1_of m c main_arg3 (by decide)).trans rfl

/-! ## The three passes' proof data, each at the contents its pass is entered from -/

/-- The prefetched tables' admissible contents: no pass has a table. -/
abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c

/-- What rides beside the arrays through every item of the program: the core's generator register at some state, and that it
    owes nothing. -/
abbrev R (c : Dev nD) : sProp 𝕄 := iprop((∃ r, prngReg c r) ∗ ∃ W, owes (c : Thread nD τ) (0 : CellTallies nD τ sig Unit) W)
/-- The last thread state without the `owes`: every unscoped buffer at the contents the program ends with, the generator register at some state. -/
abbrev Tₙ (c : Dev nD) : sProp 𝕄 := iprop(StableHlo.held (c : Thread nD τ) (Pipeline.ucRefs τ sig) (W4 m c) ∗ ∃ r, prngReg c r)

end Cert.KernelIdeal.Pass

end
-- ==== Proof.KernelIdeal.Seg0.lean ====
/-
  The first pass as a segment of the program. It reads the operator and — through two windows — the narrow features, and writes
  `T₁` wide and narrow, the narrowed operator and the corrections. Entering it, the narrow features' buffer, held whole, is dealt
  in two halves to the two windows on it; leaving it, the inputs' arrays are as they were, the halves rejoin, and each output
  array is at what the row blocks' write-backs leave.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.Gen.KernelIdeal.Regions
import proofs.«148721_g88055419503321_cont_sun_m_792_6_alg».proof.Proof.LibSharedWindows
import proofs.«148721_g88055419503321_cont_sun_m_792_6_alg».proof.Proof.KernelIdeal.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList0 : Finset.univ.image (Pipeline.arrRef spec0) = ([main_arg0, main_call0_v0, main_call0_v3_0, main_call0_v3_1, main_call0_v3_2, main_call0_v3_3] : List (Ref sig .tc)).toFinset := by decide

/-- The first pass's arrays sit on six distinct buffers: the narrow features are behind two of its seven windows. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0)
          ∗ (((c : Thread nD τ).loc main_call0_v0) ↦{fullShare} V main_call0_v0)
          ∗ (((c : Thread nD τ).loc main_call0_v3_0) ↦{fullShare} V main_call0_v3_0)
          ∗ (((c : Thread nD τ).loc main_call0_v3_1) ↦{fullShare} V main_call0_v3_1)
          ∗ (((c : Thread nD τ).loc main_call0_v3_2) ↦{fullShare} V main_call0_v3_2)
          ∗ (((c : Thread nD τ).loc main_call0_v3_3) ↦{fullShare} V main_call0_v3_3)) :=
  arrBufs_eq_of_list spec0 c V _ arrList0 (by decide)

/-- The first pass's windowed arrays, window by window, each whole: the operator and the four outputs at the full share, the two
    windows on the narrow features at the two halves of its share. -/
theorem arrays0_eq (V : (c : Dev nD) → (b : Ref sig .tc) → Buf (Elt F) ((c : Thread nD τ).loc b)) (c : Dev nD)
    (A : (w : Fin cfg0.W) → Buf (Elt F) ((cfg0.win w).arr.view.loc (c : Thread nD τ))) :
    ((dat0 V c).arrays A : sProp 𝕄)
      = iprop((((c : Thread nD τ).loc main_arg0) ↦{fullShare} A 0)
          ∗ (((c : Thread nD τ).loc main_call0_v0) ↦{fullShare.left} A 1)
          ∗ (((c : Thread nD τ).loc main_call0_v0) ↦{fullShare.right} A 2)
          ∗ (((c : Thread nD τ).loc main_call0_v3_0) ↦{fullShare} A 3)
          ∗ (((c : Thread nD τ).loc main_call0_v3_1) ↦{fullShare} A 4)
          ∗ (((c : Thread nD τ).loc main_call0_v3_2) ↦{fullShare} A 5)
          ∗ (((c : Thread nD τ).loc main_call0_v3_3) ↦{fullShare} A 6)) := by
  unfold Dat.arrays
  rw [bigSep_W0]
  simp only [View.set_whole]
  rfl

/-! ## Entering the pass: the shared array's share is dealt to the two windows on it -/

/-- The six buffers behind the arrays, each held whole at the contents the pass is entered from, make the pass's seven windowed arrays. -/
theorem entry0 (c : Dev nD) :
    (Pipeline.arrBufs spec0 c (E1 m c) : sProp 𝕄) ⊢ (dat0 (E1 m) c).arrays ((dat0 (E1 m) c).arrAt · 0) := by
  rw [arrBufs0_eq, arrays0_eq]
  iintro ⟨H_arg0, H_v0, H_v3_0, H_v3_1, H_v3_2, H_v3_3⟩
  ihave Hs := (pointsTo_share (PosShare.mem_left_op_right fullShare)).1 $$ H_v0
  icases Hs with ⟨Hl, Hr⟩
  isplitl [H_arg0]; · iexact H_arg0
  isplitl [Hl]; · iexact Hl
  isplitl [Hr]; · iexact Hr
  isplitl [H_v3_0]; · iexact H_v3_0
  isplitl [H_v3_1]; · iexact H_v3_1
  isplitl [H_v3_2]; · iexact H_v3_2
  iexact H_v3_3

/-! ## Leaving the pass: the inputs are as they were, the two halves rejoin, the outputs are at what the write-backs leave -/

/-- Off the pass's output arrays the state after it is the state before it. -/
theorem rest0 (c : Dev nD) (b : Ref sig .tc) (hb : b ∉ Finset.univ.image (Pipeline.arrRef spec0)) : E2 m c b = E1 m c b :=
  W2_of m c b fun h => hb (by rw [arrList0]; exact List.mem_toFinset.mpr (List.mem_cons_of_mem _ (List.mem_cons_of_mem _ (h))))

/-- The seven windowed arrays after the last row block make the six buffers at the state the pass leaves. -/
theorem exit0 (c : Dev nD) :
    ((dat0 (E1 m) c).arrays (fun w => (dat0 (E1 m) c).arrAt w cfg0.N) : sProp 𝕄) ⊢ Pipeline.arrBufs spec0 c (E2 m c) := by
  rw [arrBufs0_eq, arrays0_eq]
  beta_reduce
  rw [show (dat0 (E1 m) c).arrAt 0 cfg0.N = E1 m c main_arg0 from ((dat0 (E1 m) c).arrAt_in 0 rfl _).trans (A_eq0 (E1 m) c 0),
    show (dat0 (E1 m) c).arrAt 1 cfg0.N = E1 m c main_call0_v0 from ((dat0 (E1 m) c).arrAt_in 1 rfl _).trans (A_eq0 (E1 m) c 1),
    show (dat0 (E1 m) c).arrAt 2 cfg0.N = E1 m c main_call0_v0 from ((dat0 (E1 m) c).arrAt_in 2 rfl _).trans (A_eq0 (E1 m) c 2)]
  rw [show E2 m c main_arg0 = E1 m c main_arg0 from W2_of m c main_arg0 (by decide),
    show E2 m c main_call0_v0 = E1 m c main_call0_v0 from W2_of m c main_call0_v0 (by decide),
    show E2 m c main_call0_v3_0 = (dat0 (E1 m) c).arrAt 3 cfg0.N from W2_v3_0 m c,
    show E2 m c main_call0_v3_1 = (dat0 (E1 m) c).arrAt 4 cfg0.N from W2_v3_1 m c,
    show E2 m c main_call0_v3_2 = (dat0 (E1 m) c).arrAt 5 cfg0.N from W2_v3_2 m c,
    show E2 m c main_call0_v3_3 = (dat0 (E1 m) c).arrAt 6 cfg0.N from W2_v3_3 m c]
  iintro ⟨H0, H1, H2, H3, H4, H5, H6⟩
  ihave Hj := (pointsTo_share (PosShare.mem_left_op_right fullShare)).2 $$ [H1 H2]
  · isplitl [H1] <;> iassumption
  isplitl [H0]; · iexact H0
  isplitl [Hj]; · iexact Hj
  isplitl [H3]; · iexact H3
  isplitl [H4]; · iexact H4
  isplitl [H5]; · iexact H5
  iexact H6

/-! ## The pass as a segment of the program -/

set_option backward.isDefEq.respectTransparency.types false in
/-- The first pass over the thread state: every unscoped buffer at the contents before it, then at the contents after it; the generator register
    enters the pass's invariant and comes back; nothing is owed; the body has no semaphore of its own. -/
def reg0 : Pipeline.RegionSeg (pcfgs (F := F)) adm (pdats m) () defs₀ Variants.none (fun _ => (∅ : Finset Unit)) (fun _ _ => (0 : ℕ)) 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ _ _ 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (unscopedBufs c (E1 m c) : sProp 𝕄)
        ⊢ iprop((pdats m 0 c).arrays ((pdats m 0 c).arrAt · 0) ∗ Pipeline.unscopedRest spec0 c (E1 m c)) := by
      rw [unscopedBufs_split spec0 c winFacts₀0.arr_unscoped (E1 m c)]
      exact sep_mono (entry0 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (iprop((pdats m 0 c).arrays (fun w => (pdats m 0 c).arrAt w cfg0.N) ∗ Pipeline.unscopedRest spec0 c (E1 m c)) : sProp 𝕄)
        ⊢ unscopedBufs c (E2 m c) := by
      rw [unscopedBufs_split spec0 c winFacts₀0.arr_unscoped (E2 m c), unscopedRest_congr spec0 c (E2 m c) (E1 m c) (rest0 m c)]
      exact sep_mono (exit0 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Pass

end
-- ==== Proof.KernelIdeal.Seg1.lean ====
/-
  The second pass as a segment of the program. It reads the narrowed operator, — through two windows — the narrow `T₁`, the
  features wide and narrow and the corrections, and writes `T₂` wide and narrow and the running sum. Entering it, the narrow
  `T₁`'s buffer is dealt in two halves to the two windows on it; leaving it, the inputs' arrays are as they were, the halves
  rejoin, and each output array is at what the row blocks' write-backs leave.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.Gen.KernelIdeal.Regions
import proofs.«148721_g88055419503321_cont_sun_m_792_6_alg».proof.Proof.LibSharedWindows
import proofs.«148721_g88055419503321_cont_sun_m_792_6_alg».proof.Proof.KernelIdeal.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList1 : Finset.univ.image (Pipeline.arrRef spec1) = ([main_arg1, main_call0_v0, main_call0_v3_1, main_call0_v3_2, main_call0_v3_3, main_call0_v4_0, main_call0_v4_1, main_call0_v4_2] : List (Ref sig .tc)).toFinset := by decide

/-- The second pass's arrays sit on eight distinct buffers: the narrow `T₁` is behind two of its nine windows. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1)
          ∗ (((c : Thread nD τ).loc main_call0_v0) ↦{fullShare} V main_call0_v0)
          ∗ (((c : Thread nD τ).loc main_call0_v3_1) ↦{fullShare} V main_call0_v3_1)
          ∗ (((c : Thread nD τ).loc main_call0_v3_2) ↦{fullShare} V main_call0_v3_2)
          ∗ (((c : Thread nD τ).loc main_call0_v3_3) ↦{fullShare} V main_call0_v3_3)
          ∗ (((c : Thread nD τ).loc main_call0_v4_0) ↦{fullShare} V main_call0_v4_0)
          ∗ (((c : Thread nD τ).loc main_call0_v4_1) ↦{fullShare} V main_call0_v4_1)
          ∗ (((c : Thread nD τ).loc main_call0_v4_2) ↦{fullShare} V main_call0_v4_2)) :=
  arrBufs_eq_of_list spec1 c V _ arrList1 (by decide)

/-- The second pass's windowed arrays, window by window, each whole: the two windows on the narrow `T₁` at the two halves of its share,
    every other array at the full share. -/
theorem arrays1_eq (V : (c : Dev nD) → (b : Ref sig .tc) → Buf (Elt F) ((c : Thread nD τ).loc b)) (c : Dev nD)
    (A : (w : Fin cfg1.W) → Buf (Elt F) ((cfg1.win w).arr.view.loc (c : Thread nD τ))) :
    ((dat1 V c).arrays A : sProp 𝕄)
      = iprop((((c : Thread nD τ).loc main_call0_v3_2) ↦{fullShare} A 0)
          ∗ (((c : Thread nD τ).loc main_call0_v3_1) ↦{fullShare.left} A 1)
          ∗ (((c : Thread nD τ).loc main_call0_v3_1) ↦{fullShare.right} A 2)
          ∗ (((c : Thread nD τ).loc main_arg1) ↦{fullShare} A 3)
          ∗ (((c : Thread nD τ).loc main_call0_v0) ↦{fullShare} A 4)
          ∗ (((c : Thread nD τ).loc main_call0_v3_3) ↦{fullShare} A 5)
          ∗ (((c : Thread nD τ).loc main_call0_v4_0) ↦{fullShare} A 6)
          ∗ (((c : Thread nD τ).loc main_call0_v4_1) ↦{fullShare} A 7)
          ∗ (((c : Thread nD τ).loc main_call0_v4_2) ↦{fullShare} A 8)) := by
  unfold Dat.arrays
  rw [bigSep_W1]
  simp only [View.set_whole]
  rfl

/-! ## Entering the pass: the shared array's share is dealt to the two windows on it -/

/-- The eight buffers behind the arrays, each held whole at the contents the pass is entered from, make the pass's nine windowed arrays. -/
theorem entry1 (c : Dev nD) :
    (Pipeline.arrBufs spec1 c (E2 m c) : sProp 𝕄) ⊢ (dat1 (E2 m) c).arrays ((dat1 (E2 m) c).arrAt · 0) := by
  rw [arrBufs1_eq, arrays1_eq]
  iintro ⟨H_arg1, H_v0, H_v3_1, H_v3_2, H_v3_3, H_v4_0, H_v4_1, H_v4_2⟩
  ihave Hs := (pointsTo_share (PosShare.mem_left_op_right fullShare)).1 $$ H_v3_1
  icases Hs with ⟨Hl, Hr⟩
  isplitl [H_v3_2]; · iexact H_v3_2
  isplitl [Hl]; · iexact Hl
  isplitl [Hr]; · iexact Hr
  isplitl [H_arg1]; · iexact H_arg1
  isplitl [H_v0]; · iexact H_v0
  isplitl [H_v3_3]; · iexact H_v3_3
  isplitl [H_v4_0]; · iexact H_v4_0
  isplitl [H_v4_1]; · iexact H_v4_1
  iexact H_v4_2

/-! ## Leaving the pass: the inputs are as they were, the two halves rejoin, the outputs are at what the write-backs leave -/

/-- Off the pass's output arrays the state after it is the state before it. -/
theorem rest1 (c : Dev nD) (b : Ref sig .tc) (hb : b ∉ Finset.univ.image (Pipeline.arrRef spec1)) : E3 m c b = E2 m c b :=
  W3_of m c b fun h => hb (by rw [arrList1]; exact List.mem_toFinset.mpr (List.mem_cons_of_mem _ (List.mem_cons_of_mem _ (List.mem_cons_of_mem _ (List.mem_cons_of_mem _ (List.mem_cons_of_mem _ (h)))))))

/-- The nine windowed arrays after the last row block make the eight buffers at the state the pass leaves. -/
theorem exit1 (c : Dev nD) :
    ((dat1 (E2 m) c).arrays (fun w => (dat1 (E2 m) c).arrAt w cfg1.N) : sProp 𝕄) ⊢ Pipeline.arrBufs spec1 c (E3 m c) := by
  rw [arrBufs1_eq, arrays1_eq]
  beta_reduce
  rw [show (dat1 (E2 m) c).arrAt 0 cfg1.N = E2 m c main_call0_v3_2 from ((dat1 (E2 m) c).arrAt_in 0 rfl _).trans (A_eq1 (E2 m) c 0),
    show (dat1 (E2 m) c).arrAt 1 cfg1.N = E2 m c main_call0_v3_1 from ((dat1 (E2 m) c).arrAt_in 1 rfl _).trans (A_eq1 (E2 m) c 1),
    show (dat1 (E2 m) c).arrAt 2 cfg1.N = E2 m c main_call0_v3_1 from ((dat1 (E2 m) c).arrAt_in 2 rfl _).trans (A_eq1 (E2 m) c 2),
    show (dat1 (E2 m) c).arrAt 3 cfg1.N = E2 m c main_arg1 from ((dat1 (E2 m) c).arrAt_in 3 rfl _).trans (A_eq1 (E2 m) c 3),
    show (dat1 (E2 m) c).arrAt 4 cfg1.N = E2 m c main_call0_v0 from ((dat1 (E2 m) c).arrAt_in 4 rfl _).trans (A_eq1 (E2 m) c 4),
    show (dat1 (E2 m) c).arrAt 5 cfg1.N = E2 m c main_call0_v3_3 from ((dat1 (E2 m) c).arrAt_in 5 rfl _).trans (A_eq1 (E2 m) c 5)]
  rw [show E3 m c main_arg1 = E2 m c main_arg1 from W3_of m c main_arg1 (by decide),
    show E3 m c main_call0_v0 = E2 m c main_call0_v0 from W3_of m c main_call0_v0 (by decide),
    show E3 m c main_call0_v3_1 = E2 m c main_call0_v3_1 from W3_of m c main_call0_v3_1 (by decide),
    show E3 m c main_call0_v3_2 = E2 m c main_call0_v3_2 from W3_of m c main_call0_v3_2 (by decide),
    show E3 m c main_call0_v3_3 = E2 m c main_call0_v3_3 from W3_of m c main_call0_v3_3 (by decide),
    show E3 m c main_call0_v4_0 = (dat1 (E2 m) c).arrAt 6 cfg1.N from W3_v4_0 m c,
    show E3 m c main_call0_v4_1 = (dat1 (E2 m) c).arrAt 7 cfg1.N from W3_v4_1 m c,
    show E3 m c main_call0_v4_2 = (dat1 (E2 m) c).arrAt 8 cfg1.N from W3_v4_2 m c]
  iintro ⟨H0, H1, H2, H3, H4, H5, H6, H7, H8⟩
  ihave Hj := (pointsTo_share (PosShare.mem_left_op_right fullShare)).2 $$ [H1 H2]
  · isplitl [H1] <;> iassumption
  isplitl [H3]; · iexact H3
  isplitl [H4]; · iexact H4
  isplitl [Hj]; · iexact Hj
  isplitl [H0]; · iexact H0
  isplitl [H5]; · iexact H5
  isplitl [H6]; · iexact H6
  isplitl [H7]; · iexact H7
  iexact H8

/-! ## The pass as a segment of the program -/

set_option backward.isDefEq.respectTransparency.types false in
/-- The second pass over the thread state: every unscoped buffer at the contents before it, then at the contents after it; the generator register
    enters the pass's invariant and comes back; nothing is owed; the body has no semaphore of its own. -/
def reg1 : Pipeline.RegionSeg (pcfgs (F := F)) adm (pdats m) () defs₀ Variants.none (fun _ => (∅ : Finset Unit)) (fun _ _ => (0 : ℕ)) 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ _ _ 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest spec1 c (E2 m c)) := by
      rw [unscopedBufs_split spec1 c winFacts₀1.arr_unscoped (E2 m c)]
      exact sep_mono (entry1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays (fun w => (pdats m 1 c).arrAt w cfg1.N) ∗ Pipeline.unscopedRest spec1 c (E2 m c)) : sProp 𝕄)
        ⊢ unscopedBufs c (E3 m c) := by
      rw [unscopedBufs_split spec1 c winFacts₀1.arr_unscoped (E3 m c), unscopedRest_congr spec1 c (E3 m c) (E2 m c) (rest1 m c)]
      exact sep_mono (exit1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Pass

end
-- ==== Proof.KernelIdeal.Seg2.lean ====
/-
  The third pass as a segment of the program. It reads the narrowed operator, — through two windows — the narrow `T₂`, then
  `T₁`, the corrections, the running sum, the narrow weights and the bias row, and writes the result. Entering it, the narrow
  `T₂`'s buffer is dealt in two halves to the two windows on it; leaving it, the inputs' arrays are as they were, the halves
  rejoin, and the result array is at what the row blocks' write-backs leave.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.Gen.KernelIdeal.Regions
import proofs.«148721_g88055419503321_cont_sun_m_792_6_alg».proof.Proof.LibSharedWindows
import proofs.«148721_g88055419503321_cont_sun_m_792_6_alg».proof.Proof.KernelIdeal.Between
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.SharedWindows
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The pass's arrays, and the buffers behind them -/

theorem arrList2 : Finset.univ.image (Pipeline.arrRef spec2) = ([main_call0_v1, main_call0_v2, main_call0_v3_0, main_call0_v3_2, main_call0_v3_3, main_call0_v4_1, main_call0_v4_2, main_v0] : List (Ref sig .tc)).toFinset := by decide

/-- The third pass's arrays sit on eight distinct buffers: the narrow `T₂` is behind two of its nine windows. -/
theorem arrBufs2_eq (c : Dev nD) (V : (b : Ref sig .tc) → Buf (Elt F) ((c : Thread nD τ).loc b)) :
    (Pipeline.arrBufs spec2 c V : sProp 𝕄)
      = iprop((((c : Thread nD τ).loc main_call0_v1) ↦{fullShare} V main_call0_v1)
          ∗ (((c : Thread nD τ).loc main_call0_v2) ↦{fullShare} V main_call0_v2)
          ∗ (((c : Thread nD τ).loc main_call0_v3_0) ↦{fullShare} V main_call0_v3_0)
          ∗ (((c : Thread nD τ).loc main_call0_v3_2) ↦{fullShare} V main_call0_v3_2)
          ∗ (((c : Thread nD τ).loc main_call0_v3_3) ↦{fullShare} V main_call0_v3_3)
          ∗ (((c : Thread nD τ).loc main_call0_v4_1) ↦{fullShare} V main_call0_v4_1)
          ∗ (((c : Thread nD τ).loc main_call0_v4_2) ↦{fullShare} V main_call0_v4_2)
          ∗ (((c : Thread nD τ).loc main_v0) ↦{fullShare} V main_v0)) :=
  arrBufs_eq_of_list spec2 c V _ arrList2 (by decide)

/-- The third pass's windowed arrays, window by window, each whole: the two windows on the narrow `T₂` at the two halves of its share,
    every other array at the full share. -/
theorem arrays2_eq (V : (c : Dev nD) → (b : Ref sig .tc) → Buf (Elt F) ((c : Thread nD τ).loc b)) (c : Dev nD)
    (A : (w : Fin cfg2.W) → Buf (Elt F) ((cfg2.win w).arr.view.loc (c : Thread nD τ))) :
    ((dat2 V c).arrays A : sProp 𝕄)
      = iprop((((c : Thread nD τ).loc main_call0_v3_2) ↦{fullShare} A 0)
          ∗ (((c : Thread nD τ).loc main_call0_v4_1) ↦{fullShare.left} A 1)
          ∗ (((c : Thread nD τ).loc main_call0_v4_1) ↦{fullShare.right} A 2)
          ∗ (((c : Thread nD τ).loc main_call0_v3_0) ↦{fullShare} A 3)
          ∗ (((c : Thread nD τ).loc main_call0_v3_3) ↦{fullShare} A 4)
          ∗ (((c : Thread nD τ).loc main_call0_v4_2) ↦{fullShare} A 5)
          ∗ (((c : Thread nD τ).loc main_call0_v1) ↦{fullShare} A 6)
          ∗ (((c : Thread nD τ).loc main_call0_v2) ↦{fullShare} A 7)
          ∗ (((c : Thread nD τ).loc main_v0) ↦{fullShare} A 8)) := by
  unfold Dat.arrays
  rw [bigSep_W2]
  simp only [View.set_whole]
  rfl

/-! ## Entering the pass: the shared array's share is dealt to the two windows on it -/

/-- The eight buffers behind the arrays, each held whole at the contents the pass is entered from, make the pass's nine windowed arrays. -/
theorem entry2 (c : Dev nD) :
    (Pipeline.arrBufs spec2 c (E3 m c) : sProp 𝕄) ⊢ (dat2 (E3 m) c).arrays ((dat2 (E3 m) c).arrAt · 0) := by
  rw [arrBufs2_eq, arrays2_eq]
  iintro ⟨H_v1, H_v2, H_v3_0, H_v3_2, H_v3_3, H_v4_1, H_v4_2, H_v0⟩
  ihave Hs := (pointsTo_share (PosShare.mem_left_op_right fullShare)).1 $$ H_v4_1
  icases Hs with ⟨Hl, Hr⟩
  isplitl [H_v3_2]; · iexact H_v3_2
  isplitl [Hl]; · iexact Hl
  isplitl [Hr]; · iexact Hr
  isplitl [H_v3_0]; · iexact H_v3_0
  isplitl [H_v3_3]; · iexact H_v3_3
  isplitl [H_v4_2]; · iexact H_v4_2
  isplitl [H_v1]; · iexact H_v1
  isplitl [H_v2]; · iexact H_v2
  iexact H_v0

/-! ## Leaving the pass: the inputs are as they were, the two halves rejoin, the outputs are at what the write-backs leave -/

/-- Off the pass's output arrays the state after it is the state before it. -/
theorem rest2 (c : Dev nD) (b : Ref sig .tc) (hb : b ∉ Finset.univ.image (Pipeline.arrRef spec2)) : E4 m c b = E3 m c b :=
  W4_of m c b fun h => hb (by rw [arrList2]; exact List.mem_toFinset.mpr (List.mem_cons_of_mem _ (List.mem_cons_of_mem _ (List.mem_cons_of_mem _ (List.mem_cons_of_mem _ (List.mem_cons_of_mem _ (List.mem_cons_of_mem _ (List.mem_cons_of_mem _ (h)))))))))

/-- The nine windowed arrays after the last row block make the eight buffers at the state the pass leaves. -/
theorem exit2 (c : Dev nD) :
    ((dat2 (E3 m) c).arrays (fun w => (dat2 (E3 m) c).arrAt w cfg2.N) : sProp 𝕄) ⊢ Pipeline.arrBufs spec2 c (E4 m c) := by
  rw [arrBufs2_eq, arrays2_eq]
  beta_reduce
  rw [show (dat2 (E3 m) c).arrAt 0 cfg2.N = E3 m c main_call0_v3_2 from ((dat2 (E3 m) c).arrAt_in 0 rfl _).trans (A_eq2 (E3 m) c 0),
    show (dat2 (E3 m) c).arrAt 1 cfg2.N = E3 m c main_call0_v4_1 from ((dat2 (E3 m) c).arrAt_in 1 rfl _).trans (A_eq2 (E3 m) c 1),
    show (dat2 (E3 m) c).arrAt 2 cfg2.N = E3 m c main_call0_v4_1 from ((dat2 (E3 m) c).arrAt_in 2 rfl _).trans (A_eq2 (E3 m) c 2),
    show (dat2 (E3 m) c).arrAt 3 cfg2.N = E3 m c main_call0_v3_0 from ((dat2 (E3 m) c).arrAt_in 3 rfl _).trans (A_eq2 (E3 m) c 3),
    show (dat2 (E3 m) c).arrAt 4 cfg2.N = E3 m c main_call0_v3_3 from ((dat2 (E3 m) c).arrAt_in 4 rfl _).trans (A_eq2 (E3 m) c 4),
    show (dat2 (E3 m) c).arrAt 5 cfg2.N = E3 m c main_call0_v4_2 from ((dat2 (E3 m) c).arrAt_in 5 rfl _).trans (A_eq2 (E3 m) c 5),
    show (dat2 (E3 m) c).arrAt 6 cfg2.N = E3 m c main_call0_v1 from ((dat2 (E3 m) c).arrAt_in 6 rfl _).trans (A_eq2 (E3 m) c 6),
    show (dat2 (E3 m) c).arrAt 7 cfg2.N = E3 m c main_call0_v2 from ((dat2 (E3 m) c).arrAt_in 7 rfl _).trans (A_eq2 (E3 m) c 7)]
  rw [show E4 m c main_call0_v1 = E3 m c main_call0_v1 from W4_of m c main_call0_v1 (by decide),
    show E4 m c main_call0_v2 = E3 m c main_call0_v2 from W4_of m c main_call0_v2 (by decide),
    show E4 m c main_call0_v3_0 = E3 m c main_call0_v3_0 from W4_of m c main_call0_v3_0 (by decide),
    show E4 m c main_call0_v3_2 = E3 m c main_call0_v3_2 from W4_of m c main_call0_v3_2 (by decide),
    show E4 m c main_call0_v3_3 = E3 m c main_call0_v3_3 from W4_of m c main_call0_v3_3 (by decide),
    show E4 m c main_call0_v4_1 = E3 m c main_call0_v4_1 from W4_of m c main_call0_v4_1 (by decide),
    show E4 m c main_call0_v4_2 = E3 m c main_call0_v4_2 from W4_of m c main_call0_v4_2 (by decide),
    show E4 m c main_v0 = (dat2 (E3 m) c).arrAt 8 cfg2.N from W4_v0 m c]
  iintro ⟨H0, H1, H2, H3, H4, H5, H6, H7, H8⟩
  ihave Hj := (pointsTo_share (PosShare.mem_left_op_right fullShare)).2 $$ [H1 H2]
  · isplitl [H1] <;> iassumption
  isplitl [H6]; · iexact H6
  isplitl [H7]; · iexact H7
  isplitl [H3]; · iexact H3
  isplitl [H0]; · iexact H0
  isplitl [H4]; · iexact H4
  isplitl [Hj]; · iexact Hj
  isplitl [H5]; · iexact H5
  iexact H8

/-! ## The pass as a segment of the program -/

set_option backward.isDefEq.respectTransparency.types false in
/-- The third pass over the thread state: every unscoped buffer at the contents before it, then at the contents the program ends with; the generator
    register enters the pass's invariant and comes back; nothing is owed; the body has no semaphore of its own. -/
def reg2 : Pipeline.RegionSeg (pcfgs (F := F)) adm (pdats m) () defs₀ Variants.none (fun _ => (∅ : Finset Unit)) (fun _ _ => (0 : ℕ)) 2 where
  win := winFacts₀2
  block_pos := block_pos2
  stage_whole := stage_whole2
  K := PEmpty
  osem k := k.elim
  ho := Pipeline.OwnSemFacts.none _
  hbody c := (body_obligation2 (E3 m) c).loose
  hwaits := Pipeline.hwaits_of_owed_zero _ _ _ _ _ _ 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄)
        ⊢ iprop((pdats m 2 c).arrays ((pdats m 2 c).arrAt · 0) ∗ Pipeline.unscopedRest spec2 c (E3 m c)) := by
      rw [unscopedBufs_split spec2 c winFacts₀2.arr_unscoped (E3 m c)]
      exact sep_mono (entry2 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays (fun w => (pdats m 2 c).arrAt w cfg2.N) ∗ Pipeline.unscopedRest spec2 c (E3 m c)) : sProp 𝕄)
        ⊢ unscopedBufs c (E4 m c) := by
      rw [unscopedBufs_split spec2 c winFacts₀2.arr_unscoped (E4 m c), unscopedRest_congr spec2 c (E4 m c) (E3 m c) (rest2 m c)]
      exact sep_mono (exit2 m c) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Pass

end
-- ==== Proof.KernelIdeal.Run.lean ====
/-
  The whole program on the TensorCores: the host's conversions, then the three passes. Every weakly fair execution from a
  memory with zero counters terminates, nothing faulting, and the final memory holds every unscoped buffer at the state the
  third pass leaves — so the arguments are as launched, and the result array is what the third pass's write-backs leave.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.Gen.KernelIdeal.Regions
import proofs.«148721_g88055419503321_cont_sun_m_792_6_alg».proof.Proof.KernelIdeal.Seg0
import proofs.«148721_g88055419503321_cont_sun_m_792_6_alg».proof.Proof.KernelIdeal.Seg1
import proofs.«148721_g88055419503321_cont_sun_m_792_6_alg».proof.Proof.KernelIdeal.Seg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch contents. -/
abbrev W0 (c : Dev nD) : Valuation τ sig (Elt F) := fun b => m (c, b)

/-- The host's conversions as a segment: over the unscoped buffers from the launch contents, the generator register and the
    empty debt riding along. -/
abbrev hseg0 : Pipeline.HostSeg (Name := ℕ) (U := UR sig nD τ) (pcfgs (F := F)) defs₀ Variants.none (fun _ => (∅ : Finset Unit)) (fun _ _ => (0 : ℕ)) :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The program's four segments in order. -/
abbrev segs : List (Pipeline.Seg (pcfgs (F := F)) adm (pdats m) () defs₀ Variants.none (fun _ => (∅ : Finset Unit)) (fun _ _ => (0 : ℕ))) :=
  [ .host (hseg0 m), .region (reg0 m), .region (reg1 m), .region (reg2 m) ]

/-- The program is the run of its segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, and the final memory
    holds every unscoped buffer at the state after the third pass. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none (fun _ => (∅ : Finset Unit)) (fun _ _ => (0 : ℕ)) m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach _ _ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c)⟩) (run_all m ρ)

/-- The arguments end as launched and the result array ends at what the third pass's write-backs leave. -/
theorem value_all : θ_run defs (onTc (τ := τ) (main (F := F))) ⟨m, fun _ => 0, ρ⟩ (fun r => ∀ c : Dev nD,
      r.2.mem ((c.tc : Thread nD τ).loc main_v0) = (dat2 (E3 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W4_v0 m c),
     (h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c)⟩) (run_all m ρ)

end Cert.KernelIdeal.Pass

end
-- ==== Proof.ChebDefs.lean ====
/-
  The Chebyshev graph convolution of order three, written twice over the extended reals, on matrices indexed by
  literal finite types: once as the three row-blocked passes compute it (the operator `L` itself, a per-row
  correction `(2·L i i − 1) − 2·L i i` standing for the diagonal of `2·L − I`, the recursion's factors folded to `4`
  and `2·c`, one product with `W` of the summed terms) and once as the textbook recursion states it
  (`Lₙ = 2·L − I`, `T₁ = Lₙ·H`, `Tₖ = 2·Lₙ·Tₖ₋₁ − Tₖ₋₂`, the four products with `W` summed left to right, then the
  bias). Nothing here mentions a program.
-/
import Mathlib.Data.EReal.Inv
import Mathlib.Algebra.BigOperators.Group.Finset.Basic

noncomputable section

namespace Cheb

open scoped BigOperators

/-- An `n × n` operator, an `n × d` feature matrix, a `d × d` weight matrix and a bias row, over the extended reals. -/
abbrev Op := Fin 10000 → Fin 10000 → EReal
abbrev Feat := Fin 10000 → Fin 128 → EReal
abbrev Wt := Fin 128 → Fin 128 → EReal
abbrev Bias := Fin 128 → EReal

/-- The operator applied to a feature matrix: `(A·X) i k = ∑ j, A i j * X j k`. -/
def opMul (A : Op) (X : Feat) : Feat := fun i k => ∑ j : Fin 10000, A i j * X j k
/-- A feature matrix projected by the weights: `(X·W) i n = ∑ k, X i k * W k n`. -/
def wtMul (X : Feat) (W : Wt) : Feat := fun i n => ∑ k : Fin 128, X i k * W k n

/-! ## As the three passes compute it -/

/-- The per-row correction: what is left of the diagonal of `2·L − I` once `2·L` has been taken out. -/
def corr (L : Op) (i : Fin 10000) : EReal := (2 * L i i - 1) - 2 * L i i
def passT1 (L : Op) (H : Feat) : Feat := fun i k => 2 * opMul L H i k + corr L i * H i k
def passT2 (L : Op) (H : Feat) : Feat := fun i k =>
  (4 * opMul L (passT1 L H) i k + (2 * corr L i) * passT1 L H i k) - H i k
def passS2 (L : Op) (H : Feat) : Feat := fun i k => (H i k + passT1 L H i k) + passT2 L H i k
def passT3 (L : Op) (H : Feat) : Feat := fun i k =>
  (4 * opMul L (passT2 L H) i k + (2 * corr L i) * passT2 L H i k) - passT1 L H i k
def passOut (L : Op) (H : Feat) (W : Wt) (b : Bias) : Feat := fun i n =>
  wtMul (fun i k => passS2 L H i k + passT3 L H i k) W i n + b n

/-! ## As the recursion states it -/

def normOp (L : Op) : Op := fun i j => 2 * L i j - (if i = j then 1 else 0)
def recT1 (L : Op) (H : Feat) : Feat := opMul (normOp L) H
def recT2 (L : Op) (H : Feat) : Feat := fun i k => 2 * opMul (normOp L) (recT1 L H) i k - H i k
def recT3 (L : Op) (H : Feat) : Feat := fun i k => 2 * opMul (normOp L) (recT2 L H) i k - recT1 L H i k
def recOut (L : Op) (H : Feat) (W : Wt) (b : Bias) : Feat := fun i n =>
  (((wtMul H W i n + wtMul (recT1 L H) W i n) + wtMul (recT2 L H) W i n) + wtMul (recT3 L H) W i n) + b n

end Cheb

end
-- ==== Proof.ChebIdx.lean ====
/-
  Arrays of the printed programs read as matrices: a rank-2 array as a function of its two coordinates, a rank-1
  array as a function of its one coordinate, and back. The Chebyshev terms of `ChebDefs` are stated over matrices;
  the programs' arrays are functions of an index, and these are the two passages between them.
-/
import Idealize.ShloMosaic.Lib.ValueIdx
import proofs.«148721_g88055419503321_cont_sun_m_792_6_alg».proof.Proof.ChebDefs

noncomputable section

namespace Cheb

open Idealize.ShloMosaic Idealize.ShloMosaic.ValueIdx

/-- A rank-2 array as a matrix of its coordinates. -/
def mat {n0 n1 : Nat} (f : (⟨2, ![n0, n1]⟩ : Shape).Idx → EReal) : Fin n0 → Fin n1 → EReal := fun i j => f (ix2 i j)
/-- A rank-1 array as a function of its coordinate. -/
def vec {n : Nat} (f : (⟨1, ![n]⟩ : Shape).Idx → EReal) : Fin n → EReal := fun i => f (ix1 i)
/-- A matrix as a rank-2 array. -/
def arr {n0 n1 : Nat} (g : Fin n0 → Fin n1 → EReal) : (⟨2, ![n0, n1]⟩ : Shape).Idx → EReal := fun j => g (j 0) (j 1)

theorem arr_mat {n0 n1 : Nat} (f : (⟨2, ![n0, n1]⟩ : Shape).Idx → EReal) : arr (mat f) = f := by
  funext j; exact congrArg f (eq_ix2 j).symm
theorem mat_arr {n0 n1 : Nat} (g : Fin n0 → Fin n1 → EReal) : mat (arr g) = g := rfl
theorem arr_apply {n0 n1 : Nat} (g : Fin n0 → Fin n1 → EReal) (i : Fin n0) (j : Fin n1) : arr g (ix2 i j) = g i j := rfl

end Cheb

end
-- ==== Proof.KernelIdeal.HostRead.lean ====
/-
  What the host's three conversions leave, read at the ideal instance: the narrow copies of the features and of the weights
  hold the features and the weights themselves (a change of format is the identity), the bias reshaped to one row holds the
  bias, and the operator and the features are untouched.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Between
import proofs.«148721_g88055419503321_cont_sun_m_792_6_alg».proof.Proof.ChebIdx
import Idealize.ShloMosaic.Lib.Pipeline.Value
import Idealize.ShloMosaic.Lib.StableHlo.Run
import Idealize.ShloMosaic.Lib.ValueLayout
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass

variable (m : (ℓ : Loc nD τ sig) → Buf (Elt Ideal) ℓ)

theorem E1_arg0 (c : Dev nD) : E1 m c main_arg0 = m ((c : Thread nD τ).loc main_arg0) := V1_of m c main_arg0 (by decide)
theorem E1_arg1 (c : Dev nD) : E1 m c main_arg1 = m ((c : Thread nD τ).loc main_arg1) := V1_of m c main_arg1 (by decide)

theorem E1_v0 (c : Dev nD) : (E1 m c main_call0_v0 : S10000x128.Idx → EReal) = m ((c : Thread nD τ).loc main_arg1) := by
  show StableHlo.after hostOps0 (fun b => m (c, b)) (Proc.devRef .tc main_call0_v0) = _
  after_results
  rfl

theorem E1_v1 (c : Dev nD) : (E1 m c main_call0_v1 : S128x128.Idx → EReal) = m ((c : Thread nD τ).loc main_arg2) := by
  show StableHlo.after hostOps0 (fun b => m (c, b)) (Proc.devRef .tc main_call0_v1) = _
  after_results
  rfl

theorem E1_v2 (c : Dev nD) (n : Fin 128) :
    (E1 m c main_call0_v2 : S1x128.Idx → EReal) (ix2 (0 : Fin 1) n) = (m ((c : Thread nD τ).loc main_arg3) : S128.Idx → EReal) (ix1 n) := by
  show StableHlo.after hostOps0 (fun b => m (c, b)) (Proc.devRef .tc main_call0_v2) (ix2 (0 : Fin 1) n) = _
  after_results
  exact shapeCast_a_1a_apply (m ((c : Thread nD τ).loc main_arg3) : S128.Idx → EReal) shapeCasts_S128_S1x128 (0 : Fin 1) n

end Cert.KernelIdeal.Arrays

end
-- ==== Proof.KernelIdeal.Blocks0.lean ====
/-
  Where the first pass's blocks sit in their arrays. Its grid has 25 points; at point `t` a row-blocked window is on rows
  `400·t … 400·t + 399` of its array (all columns) and a whole-array window on the whole array. Here: those index facts, decided over the
  grid; each input window's block read as entries of its array; where each output block's entries land; and that an output's 25 row
  blocks cover its array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Pass0
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass

variable (V : (c : Dev nD) → (b : Ref sig .tc) → Buf (Elt Ideal) ((c : Thread nD τ).loc b))

theorem hz0 : (![0, 0] : Fin 2 → Nat) = fun _ => 0 := funext fun a => by fin_cases a <;> rfl

/-! ## The printed index maps, decided over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
/-- The grid's one coordinate at point `t` is `t`. -/
theorem coord0 : ∀ t : Fin cfg0.N, ((grid0.coords t) 0).val = t.val :=
  (by decide +kernel : ∀ t : Fin grid0.N, _)

/-- Row `p` of the block at grid point `t` is row `400·t + p` of the array. -/
def row0 (t : Fin cfg0.N) (p : Fin 400) : Fin 10000 :=
  ⟨400 * t.val + p.val, by have ht := t.isLt; have hN : cfg0.N = 25 := N_0; have hp := p.isLt; omega⟩
theorem row0_val (t : Fin cfg0.N) (p : Fin 400) : (row0 t p).val = 400 * t.val + p.val := rfl

/-! ## The input windows' blocks, read as entries of their arrays -/

theorem iblk0_0 (c : Dev nD) (t : Fin cfg0.N) (p : Fin 400) (q : Fin 10000) :
    iblk0 V c 0 t (ix2 p q) = V c main_arg0 (ix2 (row0 t p) q) := by
  show V c main_arg0 (((cfg0.win 0).blk t).view.emb (ix2 p q)) = V c main_arg0 (ix2 (row0 t p) q)
  refine congrArg _ ?_
  obtain ⟨e0, e1⟩ := idx0_0 t
  funext a; apply Fin.ext
  match a with
  | ⟨0, _⟩ => show win0_0.index t (0 : Fin 2) * 400 + 1 * p.val = 400 * t.val + p.val; omega
  | ⟨1, _⟩ => show win0_0.index t (1 : Fin 2) * 10000 + 1 * q.val = q.val; omega
theorem iblk0_1 (c : Dev nD) (t : Fin cfg0.N) (p : Fin 10000) (q : Fin 128) :
    iblk0 V c 1 t (ix2 p q) = V c main_call0_v0 (ix2 p q) := by
  show V c main_call0_v0 (((cfg0.win 1).blk t).view.emb (ix2 p q)) = V c main_call0_v0 (ix2 p q)
  refine congrArg _ ?_
  obtain ⟨e0, e1⟩ := idx0_1 t
  funext a; apply Fin.ext
  match a with
  | ⟨0, _⟩ => show win0_1.index t (0 : Fin 2) * 10000 + 1 * p.val = p.val; omega
  | ⟨1, _⟩ => show win0_1.index t (1 : Fin 2) * 128 + 1 * q.val = q.val; omega
theorem iblk0_2 (c : Dev nD) (t : Fin cfg0.N) (p : Fin 400) (q : Fin 128) :
    iblk0 V c 2 t (ix2 p q) = V c main_call0_v0 (ix2 (row0 t p) q) := by
  show V c main_call0_v0 (((cfg0.win 2).blk t).view.emb (ix2 p q)) = V c main_call0_v0 (ix2 (row0 t p) q)
  refine congrArg _ ?_
  obtain ⟨e0, e1⟩ := idx0_2 t
  funext a; apply Fin.ext
  match a with
  | ⟨0, _⟩ => show win0_2.index t (0 : Fin 2) * 400 + 1 * p.val = 400 * t.val + p.val; omega
  | ⟨1, _⟩ => show win0_2.index t (1 : Fin 2) * 128 + 1 * q.val = q.val; omega

/-! ## The output windows: where a block's entries land, and that the blocks cover the array -/

theorem emb0_3 (t : Fin cfg0.N) (p : Fin 400) (q : Fin 128) :
    ((cfg0.win 3).blk t).view.emb (ix2 p q) = ix2 (row0 t p) q := by
  obtain ⟨e0, e1⟩ := idx0_3 t
  funext a; apply Fin.ext
  match a with
  | ⟨0, _⟩ => show win0_3.index t (0 : Fin 2) * 400 + 1 * p.val = 400 * t.val + p.val; omega
  | ⟨1, _⟩ => show win0_3.index t (1 : Fin 2) * 128 + 1 * q.val = q.val; omega
theorem mem_blk0_3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_call0_v3_0).slice (win0_3.rect t)).set ↔ _
  rw [View.set_slice_whole, Rect.mem_set_unit]
  exact Iff.rfl
/-- Every entry of the array is in the row block of the point `row / 400`. -/
theorem cover0_3 (i : S10000x128.Idx) : ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 25 := N_0
  refine ⟨⟨(i 0).val / 400, by omega⟩, flush0_3 _, ?_⟩
  obtain ⟨e0, e1⟩ := idx0_3 ⟨(i 0).val / 400, by omega⟩
  rw [mem_blk0_3]
  intro a
  match a with
  | ⟨0, _⟩ => show win0_3.index ⟨(i 0).val / 400, _⟩ (0 : Fin 2) * 400 ≤ (i 0).val ∧ (i 0).val < win0_3.index ⟨(i 0).val / 400, _⟩ (0 : Fin 2) * 400 + 400; rw [e0]; show (i 0).val / 400 * 400 ≤ (i 0).val ∧ (i 0).val < (i 0).val / 400 * 400 + 400; omega
  | ⟨1, _⟩ => show win0_3.index ⟨(i 0).val / 400, _⟩ (1 : Fin 2) * 128 ≤ (i 1).val ∧ (i 1).val < win0_3.index ⟨(i 0).val / 400, _⟩ (1 : Fin 2) * 128 + 128; rw [e1]; omega

theorem emb0_4 (t : Fin cfg0.N) (p : Fin 400) (q : Fin 128) :
    ((cfg0.win 4).blk t).view.emb (ix2 p q) = ix2 (row0 t p) q := by
  obtain ⟨e0, e1⟩ := idx0_4 t
  funext a; apply Fin.ext
  match a with
  | ⟨0, _⟩ => show win0_4.index t (0 : Fin 2) * 400 + 1 * p.val = 400 * t.val + p.val; omega
  | ⟨1, _⟩ => show win0_4.index t (1 : Fin 2) * 128 + 1 * q.val = q.val; omega
theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v3_1).slice (win0_4.rect t)).set ↔ _
  rw [View.set_slice_whole, Rect.mem_set_unit]
  exact Iff.rfl
/-- Every entry of the array is in the row block of the point `row / 400`. -/
theorem cover0_4 (i : S10000x128.Idx) : ∃ t : Fin cfg0.N, (cfg0.win 4).flush t = true ∧ i ∈ ((cfg0.win 4).blk t).view.set := by
  have hi0 : (i 0).val < 10000 := idx2_lt0 i
  have hi1 : (i 1).val < 128 := idx2_lt1 i
  have hN : cfg0.N = 25 := N_0
  refine ⟨⟨(i 0).val / 400, by omega⟩, flush0_4 _, ?_⟩
  obtain ⟨e0, e1⟩ := idx0_4 ⟨(i 0).val / 400, by omega⟩
  rw [mem_blk0_4]
  intro a
  match a with
  | ⟨0, _⟩ => show win0_4.index ⟨(i 0).val / 400, _⟩ (0 : Fin 2) * 400 ≤ (i 0).val ∧ (i 0).val < win0_4.index ⟨(i 0).val / 400, _⟩ (0 : Fin 2) * 400 + 400; rw [e0]; show (i 0).val / 400 * 400 ≤ (i 0).val ∧ (i 0).val < (i 0).val / 400 * 400 + 400; omega
  | ⟨1, _⟩ => show win0_4.index ⟨(i 0).val / 400, _⟩ (1 : Fin 2) * 128 ≤ (i 1).val ∧ (i 1).val < win0_4.index ⟨(i 0).val / 400, _⟩ (1 : Fin 2) * 128 + 128; rw [e1]; omega

theorem emb0_5 (t : Fin cfg0.N) (p : Fin 400) (q : Fin 10000) :
    ((cfg0.win 5).blk t).view.emb (ix2 p q) = ix2 (row0 t p) q := by
  obtain ⟨e0, e1⟩ := idx0_5 t
  funext a; apply Fin.ext
  match a with
  | ⟨0, _⟩ => show win0_5.index t (0 : Fin 2) * 400 + 1 * p.val = 400 * t.val + p.val; omega
  | ⟨1, _⟩ => show win0_5.index t (1 : Fin 2) * 10000 + 1 * q.val = q.val; omega
theorem mem_blk0_5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_call0_v3_2).slice (win0_5.rect t)).set ↔ _
  rw [View.set_slice_whole, Rect.mem_set_unit]
  exact Iff.rfl
/-- Every entry of the array is in the row block of the point `row / 400`. -/
theorem cover0_5 (i : S10000x10000.Idx) : ∃ t : Fin cfg0.N, (cfg0.win 5).flush t = true ∧ i ∈ ((cfg0.win 5).blk t).view.set := by
  have hi0 : (i 0).val < 10000 := idx2_lt0 i
  have hi1 : (i 1).val < 10000 := idx2_lt1 i
  have hN : cfg0.N = 25 := N_0
  refine ⟨⟨(i 0).val / 400, by omega⟩, flush0_5 _, ?_⟩
  obtain ⟨e0, e1⟩ := idx0_5 ⟨(i 0).val / 400, by omega⟩
  rw [mem_blk0_5]
  intro a
  match a with
  | ⟨0, _⟩ => show win0_5.index ⟨(i 0).val / 400, _⟩ (0 : Fin 2) * 400 ≤ (i 0).val ∧ (i 0).val < win0_5.index ⟨(i 0).val / 400, _⟩ (0 : Fin 2) * 400 + 400; rw [e0]; show (i 0).val / 400 * 400 ≤ (i 0).val ∧ (i 0).val < (i 0).val / 400 * 400 + 400; omega
  | ⟨1, _⟩ => show win0_5.index ⟨(i 0).val / 400, _⟩ (1 : Fin 2) * 10000 ≤ (i 1).val ∧ (i 1).val < win0_5.index ⟨(i 0).val / 400, _⟩ (1 : Fin 2) * 10000 + 10000; rw [e1]; omega

theorem emb0_6 (t : Fin cfg0.N) (p : Fin 400) (q : Fin 1) :
    ((cfg0.win 6).blk t).view.emb (ix2 p q) = ix2 (row0 t p) q := by
  obtain ⟨e0, e1⟩ := idx0_6 t
  funext a; apply Fin.ext
  match a with
  | ⟨0, _⟩ => show win0_6.index t (0 : Fin 2) * 400 + 1 * p.val = 400 * t.val + p.val; omega
  | ⟨1, _⟩ => show win0_6.index t (1 : Fin 2) * 1 + 1 * q.val = q.val; omega
theorem mem_blk0_6 (t : Fin cfg0.N) (i : S10000x1.Idx) :
    i ∈ ((cfg0.win 6).blk t).view.set ↔ ∀ a : Fin 2, win0_6.index t a * S400x1.size a ≤ (i a).val ∧ (i a).val < win0_6.index t a * S400x1.size a + S400x1.size a := by
  show i ∈ ((View.whole main_call0_v3_3).slice (win0_6.rect t)).set ↔ _
  rw [View.set_slice_whole, Rect.mem_set_unit]
  exact Iff.rfl
/-- Every entry of the array is in the row block of the point `row / 400`. -/
theorem cover0_6 (i : S10000x1.Idx) : ∃ t : Fin cfg0.N, (cfg0.win 6).flush t = true ∧ i ∈ ((cfg0.win 6).blk t).view.set := by
  have hi0 : (i 0).val < 10000 := idx2_lt0 i
  have hi1 : (i 1).val < 1 := idx2_lt1 i
  have hN : cfg0.N = 25 := N_0
  refine ⟨⟨(i 0).val / 400, by omega⟩, flush0_6 _, ?_⟩
  obtain ⟨e0, e1⟩ := idx0_6 ⟨(i 0).val / 400, by omega⟩
  rw [mem_blk0_6]
  intro a
  match a with
  | ⟨0, _⟩ => show win0_6.index ⟨(i 0).val / 400, _⟩ (0 : Fin 2) * 400 ≤ (i 0).val ∧ (i 0).val < win0_6.index ⟨(i 0).val / 400, _⟩ (0 : Fin 2) * 400 + 400; rw [e0]; show (i 0).val / 400 * 400 ≤ (i 0).val ∧ (i 0).val < (i 0).val / 400 * 400 + 400; omega
  | ⟨1, _⟩ => show win0_6.index ⟨(i 0).val / 400, _⟩ (1 : Fin 2) * 1 ≤ (i 1).val ∧ (i 1).val < win0_6.index ⟨(i 0).val / 400, _⟩ (1 : Fin 2) * 1 + 1; rw [e1]; omega

end Cert.KernelIdeal.Arrays

end
-- ==== Proof.KernelIdeal.PayloadOps.lean ====
/-
  The kernel's operations that are not entrywise, read at an index of literal shape. A matrix product onto the zero
  accumulator is the sum over the contraction coordinate, `(l·r) (p, k) = ∑ j, l (p, j) · r (j, k)` (the contraction
  index set is re-indexed by its one coordinate); a column `[400, 1]` broadcast along the rows reads `(p, 0)` at
  `(p, k)`; a row `[1, 128]` broadcast down the columns reads `(0, n)` at `(p, n)`.
-/
import proofs.«148721_g88055419503321_cont_sun_m_792_6_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PassValue

open Cert.KernelIdeal Cert.KernelIdeal.Gen Idealize.ShloMosaic Idealize.ShloMosaic.ValueIdx
open scoped BigOperators

/-! ## The operand indices of the two products -/

theorem lhs_big_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_big_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_big_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_big_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_small_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_small_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_small_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_small_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-! ## The two products at an index -/

/-- `[400, 10000] × [10000, 128]` onto zero: the sum over the 10000 contraction coordinates. -/
theorem matmul_big_apply (l : FVec Ideal S400x10000 .bf16) (r : FVec Ideal S10000x128 .bf16) (p : Fin 400) (k : Fin 128) :
    matmul (F := Ideal) dot_S400x10000_S10000x128_S400x128_1_0_0_1_n_n none l r (constant (F := Ideal) S400x128 .f32 0x00000000#32) (ix2 p k)
      = ∑ j : Fin 10000, l (ix2 p j) * r (ix2 j k) := by
  refine (Ideal.matmul_constant_zero_apply dot_S400x10000_S10000x128_S400x128_1_0_0_1_n_n none l r (ix2 p k)).trans ?_
  rw [← Equiv.sum_comp (ValueIdx.contrEquiv1 dot_S400x10000_S10000x128_S400x128_1_0_0_1_n_n 10000 rfl rfl).symm]
  refine Finset.sum_congr rfl fun j _ => ?_
  have hk := ValueIdx.contrEquiv1_symm_val dot_S400x10000_S10000x128_S400x128_1_0_0_1_n_n 10000 rfl rfl j
  have el : dot_S400x10000_S10000x128_S400x128_1_0_0_1_n_n.lhsIdx (ix2 p k) ((ValueIdx.contrEquiv1 dot_S400x10000_S10000x128_S400x128_1_0_0_1_n_n 10000 rfl rfl).symm j) = ix2 p j := funext fun a => Fin.ext (by
    match a with
    | ⟨0, _⟩ => exact lhs_big_0 _ _
    | ⟨1, _⟩ => exact (lhs_big_1 _ _).trans hk)
  have er : dot_S400x10000_S10000x128_S400x128_1_0_0_1_n_n.rhsIdx (ix2 p k) ((ValueIdx.contrEquiv1 dot_S400x10000_S10000x128_S400x128_1_0_0_1_n_n 10000 rfl rfl).symm j) = ix2 j k := funext fun a => Fin.ext (by
    match a with
    | ⟨0, _⟩ => exact (rhs_big_0 _ _).trans hk
    | ⟨1, _⟩ => exact rhs_big_1 _ _)
  rw [el, er]

/-- `[400, 128] × [128, 128]` onto zero: the sum over the 128 contraction coordinates. -/
theorem matmul_small_apply (l : FVec Ideal S400x128 .bf16) (r : FVec Ideal S128x128 .bf16) (p : Fin 400) (n : Fin 128) :
    matmul (F := Ideal) dot_S400x128_S128x128_S400x128_1_0_0_1_n_n none l r (constant (F := Ideal) S400x128 .f32 0x00000000#32) (ix2 p n)
      = ∑ k : Fin 128, l (ix2 p k) * r (ix2 k n) := by
  refine (Ideal.matmul_constant_zero_apply dot_S400x128_S128x128_S400x128_1_0_0_1_n_n none l r (ix2 p n)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p n) ((ValueIdx.contrEquiv1 dot_S400x128_S128x128_S400x128_1_0_0_1_n_n 128 rfl rfl).symm k) = ix2 p k := funext fun a => Fin.ext (by
    match a with
    | ⟨0, _⟩ => exact lhs_small_0 _ _
    | ⟨1, _⟩ => exact (lhs_small_1 _ _).trans hk)
  have er : dot_S400x128_S128x128_S400x128_1_0_0_1_n_n.rhsIdx (ix2 p n) ((ValueIdx.contrEquiv1 dot_S400x128_S128x128_S400x128_1_0_0_1_n_n 128 rfl rfl).symm k) = ix2 k n := funext fun a => Fin.ext (by
    match a with
    | ⟨0, _⟩ => exact (rhs_small_0 _ _).trans hk
    | ⟨1, _⟩ => exact rhs_small_1 _ _)
  rw [el, er]

/-! ## The two broadcasts at an index -/

/-- A column broadcast along the rows: `(p, k)` reads `(p, 0)`. -/
theorem bcast_col_apply {α : Type} (x : S400x1.Idx → α) (h : S400x1.Broadcasts S400x128) (p : Fin 400) (k : Fin 128) :
    broadcastTo S400x128 x h (ix2 p k) = x (ix2 p (0 : Fin 1)) :=
  broadcastTo_apply x h (ix2 p k) (ix2 p (0 : Fin 1)) (fun a => match a with
    | ⟨0, _⟩ => by show p.val = if (400 : Nat) = 1 then 0 else p.val; rw [if_neg (by decide)]
    | ⟨1, _⟩ => by show (0 : Nat) = if (1 : Nat) = 1 then 0 else k.val; rw [if_pos rfl])

/-- A row broadcast down the columns: `(p, n)` reads `(0, n)`. -/
theorem bcast_row_apply {α : Type} (x : S1x128.Idx → α) (h : S1x128.Broadcasts S400x128) (p : Fin 400) (n : Fin 128) :
    broadcastTo S400x128 x h (ix2 p n) = x (ix2 (0 : Fin 1) n) :=
  broadcastTo_apply x h (ix2 p n) (ix2 (0 : Fin 1) n) (fun a => match a with
    | ⟨0, _⟩ => by show (0 : Nat) = if (1 : Nat) = 1 then 0 else p.val; rw [if_pos rfl]
    | ⟨1, _⟩ => by show n.val = if (128 : Nat) = 1 then 0 else n.val; rw [if_neg (by decide)])

end Cert.KernelIdeal.PassValue

end
-- ==== Proof.Consts.lean ====
/-
  The float words these programs spell, as the extended reals their patterns denote: `0x3F800000` is `1`,
  `0x40000000` is `2`, `0x40800000` is `4` (sign 0, exponents 127, 128, 129, zero fraction: `2^(e − 127)`),
  and `0x7F800000` (exponent 255, zero fraction) is `+∞`. Each word is evaluated once, here.
-/
import Idealize.ShloMosaic.PureOps.Ideal
import Idealize.ShloMosaic.PureOps.Ideal.Laws

noncomputable section

namespace Cert.Consts

open Idealize.ShloMosaic

/-- `1.0` denotes the real `1`. -/
theorem ofBits_one_real : Ideal.ofBits .f32 0x3F800000#32 = ((1 : ℝ) : EReal) := by
  simp [Ideal.ofBits, Ideal.ieee, -EReal.coe_mul]; norm_num

/-- `2.0` denotes the real `2`. -/
theorem ofBits_two_real : Ideal.ofBits .f32 0x40000000#32 = ((2 : ℝ) : EReal) := by
  simp [Ideal.ofBits, Ideal.ieee, -EReal.coe_mul]; norm_num

/-- `4.0` denotes the real `4`. -/
theorem ofBits_four_real : Ideal.ofBits .f32 0x40800000#32 = ((4 : ℝ) : EReal) := by
  simp [Ideal.ofBits, Ideal.ieee, -EReal.coe_mul]; norm_num

/-- `1.0` denotes `1`. -/
theorem ofBits_one : Ideal.ofBits .f32 0x3F800000#32 = (1 : EReal) := ofBits_one_real

/-- `2.0` denotes `2`. -/
theorem ofBits_two : Ideal.ofBits .f32 0x40000000#32 = (2 : EReal) := ofBits_two_real

/-- `4.0` denotes `4`. -/
theorem ofBits_four : Ideal.ofBits .f32 0x40800000#32 = (4 : EReal) := ofBits_four_real

/-- The word of `+∞` denotes `⊤`. -/
theorem ofBits_inf : Ideal.ofBits .f32 0x7F800000#32 = (⊤ : EReal) := by
  simp [Ideal.ofBits, Ideal.ieee]

end Cert.Consts

end
-- ==== Proof.KernelIdeal.PayloadFirst.lean ====
/-
  The first pass's arithmetic at an index, at grid point `i` (row offset `400·i`). A change of format is the identity
  on extended reals. The correction column: the mask "column counter = row counter + 400·i" (32-bit words, all below
  `2^32`, so the words are equal exactly when the naturals are) keeps one entry of row `p`, the diagonal entry
  `x = L (p, 400·i + p)`; the row sum of that entry and zeros is `x` (zero is neutral for `+` on the extended reals: no
  finiteness is needed); the column is then `(2·x − 1) − 2·x`. The first term:
  `T₁ (p, k) = 2·∑ j, L (p, j)·H (j, k) + c (p, 0)·R (p, k)` with `c` that column and `R` the row block of `H`.
-/
import proofs.«148721_g88055419503321_cont_sun_m_792_6_alg».proof.Proof.Gen.KernelIdeal.Skeleton
import proofs.«148721_g88055419503321_cont_sun_m_792_6_alg».proof.Proof.KernelIdeal.PayloadOps
import proofs.«148721_g88055419503321_cont_sun_m_792_6_alg».proof.Proof.Consts
import Idealize.ShloMosaic.Lib.Pipeline.Value
import Idealize.ShloMosaic.Lib.ValueIdx
import Idealize.ShloMosaic.PureOps.Ideal.Laws
import Idealize.ShloMosaic.Lib.Affine

noncomputable section

namespace Cert.KernelIdeal.PassValue

open Cert.KernelIdeal Cert.KernelIdeal.Gen Idealize.ShloMosaic Idealize.ShloMosaic.ValueIdx
open scoped BigOperators

/-! ## Changes of format -/

/-- Narrowing the operator block is the identity. -/
theorem narrow0 (v : Vec Ideal S400x10000 .f32) : k0_pay2 (F := Ideal) v = v := rfl

/-- Narrowing the first term is the identity. -/
theorem narrow1 (v : FVec Ideal S400x128 .f32) : k0_pay1 (F := Ideal) v = v := rfl

/-! ## The first term -/

theorem t1_apply (i : grid0.Coords) (xL : Vec Ideal S400x10000 .f32) (xH : Vec Ideal S10000x128 .bf16)
    (xR : Vec Ideal S400x128 .bf16) (p : Fin 400) (k : Fin 128) :
    k0_pay4 (F := Ideal) i xL xL xH xR (ix2 p k)
      = 2 * (∑ j : Fin 10000, xL (ix2 p j) * xH (ix2 j k)) + k0_pay3 (F := Ideal) i xL (ix2 p 0) * xR (ix2 p k) := by
  unfold k0_pay4
  simp only [shapeCast_self]
  show Ideal.ofBits .f32 0x40000000#32
        * matmul (F := Ideal) dot_S400x10000_S10000x128_S400x128_1_0_0_1_n_n none (k0_pay2 (F := Ideal) xL) xH (constant (F := Ideal) S400x128 .f32 0x00000000#32) (ix2 p k)
      + broadcastTo S400x128 (k0_pay3 (F := Ideal) i xL) broadcasts_S400x1_S400x128 (ix2 p k) * xR (ix2 p k) = _
  rw [matmul_big_apply, bcast_col_apply, Cert.Consts.ofBits_two] <;> rfl

/-! ## The correction column -/

/-- A vector `[a]` viewed as a column `[a, 1]` reads, at `(i, u)`, its entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the second axis of a `[400, 10000]` array, read at row `p`. -/
theorem lane_sum_apply (src : FVec Ideal S400x10000 .f32) (h : S400x10000.Reduces [1] S400) (hφ : FKind.Formats .f32)
    (hacc : (0x00000000#32 : BitVec 32) = FKind.add.neutral .f32 hφ) (p : Fin 400) :
    multiReduction (F := Ideal) .add [1] S400 src 0x00000000#32 h hφ hacc (ix1 p) = ∑ j : Fin 10000, src (ix2 p j) := by
  refine (Ideal.multiReduction_add_single src 0x00000000#32 h hφ hacc (ix1 p)).trans ?_
  show ∑ j : Fin 10000, src (h.lift (ix1 p) j) = _
  refine Finset.sum_congr rfl fun j _ => congrArg src ?_
  funext a
  match a with
  | ⟨0, _⟩ => exact Fin.ext rfl
  | ⟨1, _⟩ => exact Fin.ext rfl

/-- Words below `2^32`: the column counter equals the row counter plus `400·i` exactly when the naturals do. -/
theorem mask_iff (i0 : Nat) (p : Fin 400) (j : Fin 10000) (hp : 400 * i0 + p.val < 10000) :
    IntOp.cmpi .eq (BitVec.ofNat 32 j.val) (IntOp.addi (BitVec.ofNat 32 p.val) (Scalar.muli (BitVec.ofNat 32 i0) 400#32)) = 1#1
      ↔ j.val = 400 * i0 + p.val := by
  have hj := j.isLt
  have hpl := p.isLt
  rw [IntOp.cmpi_eq]
  constructor
  · intro e
    have e' := congrArg BitVec.toNat e
    simp only [IntOp.addi, Scalar.muli, IntOp.muli, BitVec.toNat_add, BitVec.toNat_mul, BitVec.toNat_ofNat] at e'
    omega
  · intro e
    apply BitVec.eq_of_toNat_eq
    simp only [IntOp.addi, Scalar.muli, IntOp.muli, BitVec.toNat_add, BitVec.toNat_mul, BitVec.toNat_ofNat]
    omega

/-- The mask at `(p, j)` is that comparison of words. -/
theorem mask_apply (i0 : Nat) (p : Fin 400) (j : Fin 10000) (h1 : S400x10000.Iotas .tc 32 [1]) (h0 : S400x10000.Iotas .tc 32 [0]) :
    cmpi .eq (iota .tc S400x10000 32 [1] h1)
        (addi (iota .tc S400x10000 32 [0] h0) (broadcast S400x10000 (Scalar.muli (BitVec.ofNat 32 i0) 400#32))) (ix2 p j)
      = IntOp.cmpi .eq (BitVec.ofNat 32 j.val) (IntOp.addi (BitVec.ofNat 32 p.val) (Scalar.muli (BitVec.ofNat 32 i0) 400#32)) := by
  show IntOp.cmpi .eq (iota .tc S400x10000 32 [1] h1 (ix2 p j))
      (IntOp.addi (iota .tc S400x10000 32 [0] h0 (ix2 p j)) (Scalar.muli (BitVec.ofNat 32 i0) 400#32)) = _
  rw [iota_single_apply, iota_single_apply] <;> rfl

/-- The masked row sum as a column: what the pass keeps of row `p` of the operator block. -/
def diagCol (i : grid0.Coords) (xL : Vec Ideal S400x10000 .f32) : FVec Ideal S400x1 .f32 :=
  shapeCast S400x1
    (multiReduction (F := Ideal) .add [1] S400
      (select
        (cmpi .eq (iota .tc S400x10000 32 [1] iota_S400x10000_d1_w32)
          (addi (iota .tc S400x10000 32 [0] iota_S400x10000_d0_w32)
            (broadcast S400x10000 (Scalar.muli (BitVec.ofNat 32 (i 0).val) 400#32))))
        xL (broadcast S400x10000 (Scalar.ofBits (F := Ideal) .f32 0x00000000#32)))
      0x00000000#32 reduces_S400x10000_S400 (.inl rfl) rfl)
    shapeCasts_S400_S400x1

/-- It is the diagonal entry of the row. -/
theorem diagCol_apply (i : grid0.Coords) (xL : Vec Ideal S400x10000 .f32) (p : Fin 400)
    (hp : 400 * (i 0).val + p.val < 10000) :
    diagCol i xL (ix2 p (0 : Fin 1)) = xL (ix2 p ⟨400 * (i 0).val + p.val, hp⟩) := by
  unfold diagCol
  refine (shapeCast_a_a1_apply _ _ p 0).trans ?_
  refine (lane_sum_apply _ _ _ _ p).trans ?_
  have hterm : ∀ j : Fin 10000,
      select
          (cmpi .eq (iota .tc S400x10000 32 [1] iota_S400x10000_d1_w32)
            (addi (iota .tc S400x10000 32 [0] iota_S400x10000_d0_w32)
              (broadcast S400x10000 (Scalar.muli (BitVec.ofNat 32 (i 0).val) 400#32))))
          xL (broadcast S400x10000 (Scalar.ofBits (F := Ideal) .f32 0x00000000#32)) (ix2 p j)
        = if j = ⟨400 * (i 0).val + p.val, hp⟩ then xL (ix2 p j) else 0 := by
    intro j
    show (if cmpi .eq (iota .tc S400x10000 32 [1] iota_S400x10000_d1_w32)
            (addi (iota .tc S400x10000 32 [0] iota_S400x10000_d0_w32)
              (broadcast S400x10000 (Scalar.muli (BitVec.ofNat 32 (i 0).val) 400#32))) (ix2 p j) = 1#1
          then xL (ix2 p j) else Ideal.ofBits .f32 0x00000000#32) = _
    rw [mask_apply]
    by_cases hj : j = ⟨400 * (i 0).val + p.val, hp⟩
    · rw [if_pos hj, if_pos ((mask_iff (i 0).val p j hp).2 (by rw [hj]))]
    · rw [if_neg hj, if_neg (fun e => hj (Fin.ext ((mask_iff (i 0).val p j hp).1 e))), Ideal.ofBits_zero_f32]
  refine (Finset.sum_congr rfl fun j _ => hterm j).trans ?_
  rw [Finset.sum_ite_eq', if_pos (Finset.mem_univ _)]

/-- Every row offset keeps the diagonal inside the operator's columns. -/
theorem row_lt (i : grid0.Coords) (p : Fin 400) : 400 * (i 0).val + p.val < 10000 := by
  have hi : (i 0).val < 25 := (i 0).isLt
  have hpl := p.isLt
  omega

/-- The correction column: `(2·x − 1) − 2·x` at the diagonal entry `x` of the row. -/
theorem corr_apply (i : grid0.Coords) (xL : Vec Ideal S400x10000 .f32) (p : Fin 400)
    (hp : 400 * (i 0).val + p.val < 10000) :
    k0_pay3 (F := Ideal) i xL (ix2 p (0 : Fin 1))
      = (2 * xL (ix2 p ⟨400 * (i 0).val + p.val, hp⟩) - 1) - 2 * xL (ix2 p ⟨400 * (i 0).val + p.val, hp⟩) := by
  have h1 : k0_pay3 (F := Ideal) i xL (ix2 p (0 : Fin 1))
      = (Ideal.ofBits .f32 0x40000000#32 * diagCol i xL (ix2 p (0 : Fin 1)) - Ideal.ofBits .f32 0x3F800000#32)
        - Ideal.ofBits .f32 0x40000000#32 * diagCol i xL (ix2 p (0 : Fin 1)) := rfl
  rw [h1, diagCol_apply i xL p hp, Cert.Consts.ofBits_two, Cert.Consts.ofBits_one]

end Cert.KernelIdeal.PassValue

end
-- ==== Proof.KernelIdeal.Arrays0.lean ====
/-
  What the first pass leaves in its four output arrays, as functions of the arrays it is entered with. Row `i`:
  `T₁ i k = 2·(L·H) i k + c i · H i k` in the wide and in the narrow array, the operator's row itself in the narrowed operator,
  and `c i = (2·L i i − 1) − 2·L i i` in the corrections — `L` and `H` being whatever the operator's array and the narrow features'
  array hold when the pass is entered. The mask that picks the diagonal compares a column index with `row + 400·t`, and row
  `p` of block `t` is row `400·t + p` of the array, so the masked row sum is the diagonal entry. Each row block's write-back is
  the corresponding rows of that function, and the 25 row blocks cover the array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Blocks0
import proofs.«148721_g88055419503321_cont_sun_m_792_6_alg».proof.Proof.KernelIdeal.PayloadFirst
import proofs.«148721_g88055419503321_cont_sun_m_792_6_alg».proof.Proof.ChebIdx
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass Cert.KernelIdeal.PassValue

variable (V : (c : Dev nD) → (b : Ref sig .tc) → Buf (Elt Ideal) ((c : Thread nD τ).loc b))

/-- `T₁` of the arrays the pass is entered with. -/
def t1Of (c : Dev nD) : Cheb.Feat :=
  Cheb.passT1 (Cheb.mat (n0 := 10000) (n1 := 10000) (V c main_arg0)) (Cheb.mat (n0 := 10000) (n1 := 128) (V c main_call0_v0))
/-- The corrections of the operator the pass is entered with, as a one-column array. -/
def corrOf (c : Dev nD) : S10000x1.Idx → EReal := fun j => Cheb.corr (Cheb.mat (n0 := 10000) (n1 := 10000) (V c main_arg0)) (j 0)

/-- The body's correction payload at a grid point, row by row, in the arrays' terms: the masked row sum is the diagonal entry. -/
theorem corr_at (c : Dev nD) (t : Fin cfg0.N) (p : Fin 400) :
    k0_pay3 (F := Ideal) (grid0.coords t) (iblk0 V c 0 t) (ix2 p (0 : Fin 1))
      = Cheb.corr (Cheb.mat (n0 := 10000) (n1 := 10000) (V c main_arg0)) (row0 t p) := by
  refine (corr_apply (grid0.coords t) (iblk0 V c 0 t) p (row_lt (grid0.coords t) p)).trans ?_
  have hr : (⟨400 * ((grid0.coords t) 0).val + p.val, row_lt (grid0.coords t) p⟩ : Fin 10000) = row0 t p :=
    Fin.ext (by show 400 * ((grid0.coords t) 0).val + p.val = 400 * t.val + p.val; rw [coord0 t])
  rw [hr, iblk0_0]
  rfl

/-- The body's `T₁` payload at a grid point, entry by entry, in the arrays' terms. -/
theorem t1_at (c : Dev nD) (t : Fin cfg0.N) (p : Fin 400) (k : Fin 128) :
    k0_pay4 (F := Ideal) (grid0.coords t) (iblk0 V c 0 t) (iblk0 V c 0 t) (iblk0 V c 1 t) (iblk0 V c 2 t) (ix2 p k) = t1Of V c (row0 t p) k := by
  refine (t1_apply (grid0.coords t) (iblk0 V c 0 t) (iblk0 V c 1 t) (iblk0 V c 2 t) p k).trans ?_
  rw [corr_at V c t p]
  simp only [iblk0_0, iblk0_1, iblk0_2]
  rfl

theorem flushed0_3 (c : Dev nD) (t : Fin cfg0.N) :
    (dat0 V c).flushed 3 t = ((cfg0.win 3).blk t).view.read (Elt Ideal) (Cheb.arr (t1Of V c)) := by
  show (cfg0.win 3).cut (grid0.coords t) ((dat0 V c).after 3 t) = _
  rw [after0_3]
  unfold t1Blk
  rw [View.canon_unit_zero hz0]
  simp only [View.ld_unit_zero (S := S400x10000) hz0, View.ld_unit_zero (S := S10000x128) hz0, View.ld_unit_zero (S := S400x128) hz0]
  funext y
  obtain ⟨p, k, rfl⟩ : ∃ (p : Fin 400) (k : Fin 128), y = ix2 p k := ⟨y 0, y 1, eq_ix2 y⟩
  show k0_pay4 (F := Ideal) (grid0.coords t) (iblk0 V c 0 t) (iblk0 V c 0 t) (iblk0 V c 1 t) (iblk0 V c 2 t) (ix2 p k)
    = Cheb.arr (t1Of V c) (((cfg0.win 3).blk t).view.emb (ix2 p k))
  rw [emb0_3, Cheb.arr_apply]
  exact t1_at V c t p k

theorem flushed0_4 (c : Dev nD) (t : Fin cfg0.N) :
    (dat0 V c).flushed 4 t = ((cfg0.win 4).blk t).view.read (Elt Ideal) (Cheb.arr (t1Of V c)) := by
  show (cfg0.win 4).cut (grid0.coords t) ((dat0 V c).after 4 t) = _
  rw [after0_4]
  unfold t1bBlk
  rw [View.canon_unit_zero hz0]
  simp only [View.ld_unit_zero (S := S400x10000) hz0, View.ld_unit_zero (S := S10000x128) hz0, View.ld_unit_zero (S := S400x128) hz0]
  funext y
  obtain ⟨p, k, rfl⟩ : ∃ (p : Fin 400) (k : Fin 128), y = ix2 p k := ⟨y 0, y 1, eq_ix2 y⟩
  show k0_pay1 (F := Ideal) (k0_pay4 (F := Ideal) (grid0.coords t) (iblk0 V c 0 t) (iblk0 V c 0 t) (iblk0 V c 1 t) (iblk0 V c 2 t)) (ix2 p k)
    = Cheb.arr (t1Of V c) (((cfg0.win 4).blk t).view.emb (ix2 p k))
  rw [emb0_4, Cheb.arr_apply, narrow1]
  exact t1_at V c t p k

theorem flushed0_5 (c : Dev nD) (t : Fin cfg0.N) :
    (dat0 V c).flushed 5 t = ((cfg0.win 5).blk t).view.read (Elt Ideal) (V c main_arg0) := by
  show (cfg0.win 5).cut (grid0.coords t) ((dat0 V c).after 5 t) = _
  rw [after0_5]
  unfold lbBlk
  rw [View.canon_unit_zero hz0]
  simp only [View.ld_unit_zero (S := S400x10000) hz0]
  funext y
  obtain ⟨p, j, rfl⟩ : ∃ (p : Fin 400) (j : Fin 10000), y = ix2 p j := ⟨y 0, y 1, eq_ix2 y⟩
  show iblk0 V c 0 t (ix2 p j) = V c main_arg0 (((cfg0.win 5).blk t).view.emb (ix2 p j))
  rw [iblk0_0, emb0_5]

theorem flushed0_6 (c : Dev nD) (t : Fin cfg0.N) :
    (dat0 V c).flushed 6 t = ((cfg0.win 6).blk t).view.read (Elt Ideal) (corrOf V c) := by
  show (cfg0.win 6).cut (grid0.coords t) ((dat0 V c).after 6 t) = _
  rw [after0_6]
  unfold cBlk
  rw [View.canon_unit_zero hz0]
  simp only [View.ld_unit_zero (S := S400x10000) hz0]
  funext y
  obtain ⟨p, u, rfl⟩ : ∃ (p : Fin 400) (u : Fin 1), y = ix2 p u := ⟨y 0, y 1, eq_ix2 y⟩
  obtain rfl : u = 0 := Subsingleton.elim _ _
  show k0_pay3 (F := Ideal) (grid0.coords t) (iblk0 V c 0 t) (ix2 p (0 : Fin 1)) = corrOf V c (((cfg0.win 6).blk t).view.emb (ix2 p (0 : Fin 1)))
  rw [emb0_6]
  exact corr_at V c t p

/-- After the first pass the wide `T₁` array holds `T₁` of the arrays the pass was entered with, -/
theorem final0_3 (c : Dev nD) : (dat0 V c).arrAt 3 cfg0.N = Cheb.arr (t1Of V c) :=
  (dat0 V c).arrAt_eq_of_cover 3 _ (fun t _ => flushed0_3 V c t) cover0_3
/-- so does the narrow one, -/
theorem final0_4 (c : Dev nD) : (dat0 V c).arrAt 4 cfg0.N = Cheb.arr (t1Of V c) :=
  (dat0 V c).arrAt_eq_of_cover 4 _ (fun t _ => flushed0_4 V c t) cover0_4
/-- the narrowed operator's array holds the operator, -/
theorem final0_5 (c : Dev nD) : (dat0 V c).arrAt 5 cfg0.N = V c main_arg0 :=
  (dat0 V c).arrAt_eq_of_cover 5 _ (fun t _ => flushed0_5 V c t) cover0_5
/-- and the corrections' array holds the corrections. -/
theorem final0_6 (c : Dev nD) : (dat0 V c).arrAt 6 cfg0.N = corrOf V c :=
  (dat0 V c).arrAt_eq_of_cover 6 _ (fun t _ => flushed0_6 V c t) cover0_6

end Cert.KernelIdeal.Arrays

end
-- ==== Proof.KernelIdeal.Blocks1.lean ====
/-
  Where the second pass's blocks sit in their arrays. Its grid has 25 points; at point `t` a row-blocked window is on rows
  `400·t … 400·t + 399` of its array (all columns) and a whole-array window on the whole array. Here: those index facts, decided over the
  grid; each input window's block read as entries of its array; where each output block's entries land; and that an output's 25 row
  blocks cover its array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Pass1
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass

variable (V : (c : Dev nD) → (b : Ref sig .tc) → Buf (Elt Ideal) ((c : Thread nD τ).loc b))

theorem hz1 : (![0, 0] : Fin 2 → Nat) = fun _ => 0 := funext fun a => by fin_cases a <;> rfl

/-! ## The printed index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
/-- The grid's one coordinate at point `t` is `t`. -/
theorem coord1 : ∀ t : Fin cfg1.N, ((grid1.coords t) 0).val = t.val :=
  (by decide +kernel : ∀ t : Fin grid1.N, _)

/-- Row `p` of the block at grid point `t` is row `400·t + p` of the array. -/
def row1 (t : Fin cfg1.N) (p : Fin 400) : Fin 10000 :=
  ⟨400 * t.val + p.val, by have ht := t.isLt; have hN : cfg1.N = 25 := N_1; have hp := p.isLt; omega⟩
theorem row1_val (t : Fin cfg1.N) (p : Fin 400) : (row1 t p).val = 400 * t.val + p.val := rfl

/-! ## The input windows' blocks, read as entries of their arrays -/

theorem iblk1_0 (c : Dev nD) (t : Fin cfg1.N) (p : Fin 400) (q : Fin 10000) :
    iblk1 V c 0 t (ix2 p q) = V c main_call0_v3_2 (ix2 (row1 t p) q) := by
  show V c main_call0_v3_2 (((cfg1.win 0).blk t).view.emb (ix2 p q)) = V c main_call0_v3_2 (ix2 (row1 t p) q)
  refine congrArg _ ?_
  obtain ⟨e0, e1⟩ := idx1_0 t
  funext a; apply Fin.ext
  match a with
  | ⟨0, _⟩ => show win1_0.index t (0 : Fin 2) * 400 + 1 * p.val = 400 * t.val + p.val; omega
  | ⟨1, _⟩ => show win1_0.index t (1 : Fin 2) * 10000 + 1 * q.val = q.val; omega
theorem iblk1_1 (c : Dev nD) (t : Fin cfg1.N) (p : Fin 10000) (q : Fin 128) :
    iblk1 V c 1 t (ix2 p q) = V c main_call0_v3_1 (ix2 p q) := by
  show V c main_call0_v3_1 (((cfg1.win 1).blk t).view.emb (ix2 p q)) = V c main_call0_v3_1 (ix2 p q)
  refine congrArg _ ?_
  obtain ⟨e0, e1⟩ := idx1_1 t
  funext a; apply Fin.ext
  match a with
  | ⟨0, _⟩ => show win1_1.index t (0 : Fin 2) * 10000 + 1 * p.val = p.val; omega
  | ⟨1, _⟩ => show win1_1.index t (1 : Fin 2) * 128 + 1 * q.val = q.val; omega
theorem iblk1_2 (c : Dev nD) (t : Fin cfg1.N) (p : Fin 400) (q : Fin 128) :
    iblk1 V c 2 t (ix2 p q) = V c main_call0_v3_1 (ix2 (row1 t p) q) := by
  show V c main_call0_v3_1 (((cfg1.win 2).blk t).view.emb (ix2 p q)) = V c main_call0_v3_1 (ix2 (row1 t p) q)
  refine congrArg _ ?_
  obtain ⟨e0, e1⟩ := idx1_2 t
  funext a; apply Fin.ext
  match a with
  | ⟨0, _⟩ => show win1_2.index t (0 : Fin 2) * 400 + 1 * p.val = 400 * t.val + p.val; omega
  | ⟨1, _⟩ => show win1_2.index t (1 : Fin 2) * 128 + 1 * q.val = q.val; omega
theorem iblk1_3 (c : Dev nD) (t : Fin cfg1.N) (p : Fin 400) (q : Fin 128) :
    iblk1 V c 3 t (ix2 p q) = V c main_arg1 (ix2 (row1 t p) q) := by
  show V c main_arg1 (((cfg1.win 3).blk t).view.emb (ix2 p q)) = V c main_arg1 (ix2 (row1 t p) q)
  refine congrArg _ ?_
  obtain ⟨e0, e1⟩ := idx1_3 t
  funext a; apply Fin.ext
  match a with
  | ⟨0, _⟩ => show win1_3.index t (0 : Fin 2) * 400 + 1 * p.val = 400 * t.val + p.val; omega
  | ⟨1, _⟩ => show win1_3.index t (1 : Fin 2) * 128 + 1 * q.val = q.val; omega
theorem iblk1_4 (c : Dev nD) (t : Fin cfg1.N) (p : Fin 400) (q : Fin 128) :
    iblk1 V c 4 t (ix2 p q) = V c main_call0_v0 (ix2 (row1 t p) q) := by
  show V c main_call0_v0 (((cfg1.win 4).blk t).view.emb (ix2 p q)) = V c main_call0_v0 (ix2 (row1 t p) q)
  refine congrArg _ ?_
  obtain ⟨e0, e1⟩ := idx1_4 t
  funext a; apply Fin.ext
  match a with
  | ⟨0, _⟩ => show win1_4.index t (0 : Fin 2) * 400 + 1 * p.val = 400 * t.val + p.val; omega
  | ⟨1, _⟩ => show win1_4.index t (1 : Fin 2) * 128 + 1 * q.val = q.val; omega
theorem iblk1_5 (c : Dev nD) (t : Fin cfg1.N) (p : Fin 400) (q : Fin 1) :
    iblk1 V c 5 t (ix2 p q) = V c main_call0_v3_3 (ix2 (row1 t p) q) := by
  show V c main_call0_v3_3 (((cfg1.win 5).blk t).view.emb (ix2 p q)) = V c main_call0_v3_3 (ix2 (row1 t p) q)
  refine congrArg _ ?_
  obtain ⟨e0, e1⟩ := idx1_5 t
  funext a; apply Fin.ext
  match a with
  | ⟨0, _⟩ => show win1_5.index t (0 : Fin 2) * 400 + 1 * p.val = 400 * t.val + p.val; omega
  | ⟨1, _⟩ => show win1_5.index t (1 : Fin 2) * 1 + 1 * q.val = q.val; omega

/-! ## The output windows: where a block's entries land, and that the blocks cover the array -/

theorem emb1_6 (t : Fin cfg1.N) (p : Fin 400) (q : Fin 128) :
    ((cfg1.win 6).blk t).view.emb (ix2 p q) = ix2 (row1 t p) q := by
  obtain ⟨e0, e1⟩ := idx1_6 t
  funext a; apply Fin.ext
  match a with
  | ⟨0, _⟩ => show win1_6.index t (0 : Fin 2) * 400 + 1 * p.val = 400 * t.val + p.val; omega
  | ⟨1, _⟩ => show win1_6.index t (1 : Fin 2) * 128 + 1 * q.val = q.val; omega
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_call0_v4_0).slice (win1_6.rect t)).set ↔ _
  rw [View.set_slice_whole, Rect.mem_set_unit]
  exact Iff.rfl
/-- Every entry of the array is in the row block of the point `row / 400`. -/
theorem cover1_6 (i : S10000x128.Idx) : ∃ t : Fin cfg1.N, (cfg1.win 6).flush t = true ∧ i ∈ ((cfg1.win 6).blk t).view.set := by
  have hi0 : (i 0).val < 10000 := idx2_lt0 i
  have hi1 : (i 1).val < 128 := idx2_lt1 i
  have hN : cfg1.N = 25 := N_1
  refine ⟨⟨(i 0).val / 400, by omega⟩, flush1_6 _, ?_⟩
  obtain ⟨e0, e1⟩ := idx1_6 ⟨(i 0).val / 400, by omega⟩
  rw [mem_blk1_6]
  intro a
  match a with
  | ⟨0, _⟩ => show win1_6.index ⟨(i 0).val / 400, _⟩ (0 : Fin 2) * 400 ≤ (i 0).val ∧ (i 0).val < win1_6.index ⟨(i 0).val / 400, _⟩ (0 : Fin 2) * 400 + 400; rw [e0]; show (i 0).val / 400 * 400 ≤ (i 0).val ∧ (i 0).val < (i 0).val / 400 * 400 + 400; omega
  | ⟨1, _⟩ => show win1_6.index ⟨(i 0).val / 400, _⟩ (1 : Fin 2) * 128 ≤ (i 1).val ∧ (i 1).val < win1_6.index ⟨(i 0).val / 400, _⟩ (1 : Fin 2) * 128 + 128; rw [e1]; omega

theorem emb1_7 (t : Fin cfg1.N) (p : Fin 400) (q : Fin 128) :
    ((cfg1.win 7).blk t).view.emb (ix2 p q) = ix2 (row1 t p) q := by
  obtain ⟨e0, e1⟩ := idx1_7 t
  funext a; apply Fin.ext
  match a with
  | ⟨0, _⟩ => show win1_7.index t (0 : Fin 2) * 400 + 1 * p.val = 400 * t.val + p.val; omega
  | ⟨1, _⟩ => show win1_7.index t (1 : Fin 2) * 128 + 1 * q.val = q.val; omega
theorem mem_blk1_7 (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_call0_v4_1).slice (win1_7.rect t)).set ↔ _
  rw [View.set_slice_whole, Rect.mem_set_unit]
  exact Iff.rfl
/-- Every entry of the array is in the row block of the point `row / 400`. -/
theorem cover1_7 (i : S10000x128.Idx) : ∃ t : Fin cfg1.N, (cfg1.win 7).flush t = true ∧ i ∈ ((cfg1.win 7).blk t).view.set := by
  have hi0 : (i 0).val < 10000 := idx2_lt0 i
  have hi1 : (i 1).val < 128 := idx2_lt1 i
  have hN : cfg1.N = 25 := N_1
  refine ⟨⟨(i 0).val / 400, by omega⟩, flush1_7 _, ?_⟩
  obtain ⟨e0, e1⟩ := idx1_7 ⟨(i 0).val / 400, by omega⟩
  rw [mem_blk1_7]
  intro a
  match a with
  | ⟨0, _⟩ => show win1_7.index ⟨(i 0).val / 400, _⟩ (0 : Fin 2) * 400 ≤ (i 0).val ∧ (i 0).val < win1_7.index ⟨(i 0).val / 400, _⟩ (0 : Fin 2) * 400 + 400; rw [e0]; show (i 0).val / 400 * 400 ≤ (i 0).val ∧ (i 0).val < (i 0).val / 400 * 400 + 400; omega
  | ⟨1, _⟩ => show win1_7.index ⟨(i 0).val / 400, _⟩ (1 : Fin 2) * 128 ≤ (i 1).val ∧ (i 1).val < win1_7.index ⟨(i 0).val / 400, _⟩ (1 : Fin 2) * 128 + 128; rw [e1]; omega

theorem emb1_8 (t : Fin cfg1.N) (p : Fin 400) (q : Fin 128) :
    ((cfg1.win 8).blk t).view.emb (ix2 p q) = ix2 (row1 t p) q := by
  obtain ⟨e0, e1⟩ := idx1_8 t
  funext a; apply Fin.ext
  match a with
  | ⟨0, _⟩ => show win1_8.index t (0 : Fin 2) * 400 + 1 * p.val = 400 * t.val + p.val; omega
  | ⟨1, _⟩ => show win1_8.index t (1 : Fin 2) * 128 + 1 * q.val = q.val; omega
theorem mem_blk1_8 (t : Fin cfg1.N) (i : S10000x128.Idx) :
    i ∈ ((cfg1.win 8).blk t).view.set ↔ ∀ a : Fin 2, win1_8.index t a * S400x128.size a ≤ (i a).val ∧ (i a).val < win1_8.index t a * S400x128.size a + S400x128.size a := by
  show i ∈ ((View.whole main_call0_v4_2).slice (win1_8.rect t)).set ↔ _
  rw [View.set_slice_whole, Rect.mem_set_unit]
  exact Iff.rfl
/-- Every entry of the array is in the row block of the point `row / 400`. -/
theorem cover1_8 (i : S10000x128.Idx) : ∃ t : Fin cfg1.N, (cfg1.win 8).flush t = true ∧ i ∈ ((cfg1.win 8).blk t).view.set := by
  have hi0 : (i 0).val < 10000 := idx2_lt0 i
  have hi1 : (i 1).val < 128 := idx2_lt1 i
  have hN : cfg1.N = 25 := N_1
  refine ⟨⟨(i 0).val / 400, by omega⟩, flush1_8 _, ?_⟩
  obtain ⟨e0, e1⟩ := idx1_8 ⟨(i 0).val / 400, by omega⟩
  rw [mem_blk1_8]
  intro a
  match a with
  | ⟨0, _⟩ => show win1_8.index ⟨(i 0).val / 400, _⟩ (0 : Fin 2) * 400 ≤ (i 0).val ∧ (i 0).val < win1_8.index ⟨(i 0).val / 400, _⟩ (0 : Fin 2) * 400 + 400; rw [e0]; show (i 0).val / 400 * 400 ≤ (i 0).val ∧ (i 0).val < (i 0).val / 400 * 400 + 400; omega
  | ⟨1, _⟩ => show win1_8.index ⟨(i 0).val / 400, _⟩ (1 : Fin 2) * 128 ≤ (i 1).val ∧ (i 1).val < win1_8.index ⟨(i 0).val / 400, _⟩ (1 : Fin 2) * 128 + 128; rw [e1]; omega

end Cert.KernelIdeal.Arrays

end
-- ==== Proof.KernelIdeal.PayloadSecond.lean ====
/-
  The second pass's arithmetic at an index. With `S = ∑ j, x₀ (p, j) · x₁ (j, k)` the row block's product, `c` the
  per-row correction column and `x₂`, `x₃`, `x₄` the three feature blocks, the pass computes
  `T₂ (p, k) = (4·S + (2·c (p, 0))·x₂ (p, k)) − x₃ (p, k)`, stores it a second time through a change of format (the
  identity on extended reals), and the running sum `(x₄ (p, k) + x₂ (p, k)) + T₂ (p, k)`.
-/
import proofs.«148721_g88055419503321_cont_sun_m_792_6_alg».proof.Proof.Gen.KernelIdeal.Skeleton
import proofs.«148721_g88055419503321_cont_sun_m_792_6_alg».proof.Proof.KernelIdeal.PayloadOps
import proofs.«148721_g88055419503321_cont_sun_m_792_6_alg».proof.Proof.Consts
import Idealize.ShloMosaic.Lib.Pipeline.Value
import Idealize.ShloMosaic.Lib.ValueIdx
import Idealize.ShloMosaic.PureOps.Ideal.Laws

noncomputable section

namespace Cert.KernelIdeal.PassValue

open Cert.KernelIdeal Cert.KernelIdeal.Gen Idealize.ShloMosaic Idealize.ShloMosaic.ValueIdx
open scoped BigOperators

/-- The recursion's second term as the pass computes it. -/
theorem t2_apply (x0 : Vec Ideal S400x10000 .bf16) (x1 : Vec Ideal S10000x128 .bf16) (x2 : Vec Ideal S400x128 .bf16)
    (xc : Vec Ideal S400x1 .f32) (x3 : Vec Ideal S400x128 .f32) (p : Fin 400) (k : Fin 128) :
    k1_pay2 (F := Ideal) x0 x1 x2 xc x3 (ix2 p k)
      = (4 * (∑ j : Fin 10000, x0 (ix2 p j) * x1 (ix2 j k)) + (2 * xc (ix2 p 0)) * x2 (ix2 p k)) - x3 (ix2 p k) := by
  unfold k1_pay2 k1_pay1
  simp only [shapeCast_self]
  show (Ideal.ofBits .f32 0x40800000#32
          * matmul (F := Ideal) dot_S400x10000_S10000x128_S400x128_1_0_0_1_n_n none x0 x1 (constant (F := Ideal) S400x128 .f32 0x00000000#32) (ix2 p k)
        + broadcastTo S400x128 (mulf (F := Ideal) (broadcast S400x1 (Scalar.ofBits (F := Ideal) .f32 0x40000000#32)) xc)
            broadcasts_S400x1_S400x128 (ix2 p k) * x2 (ix2 p k)) - x3 (ix2 p k) = _
  rw [matmul_big_apply, bcast_col_apply]
  show (Ideal.ofBits .f32 0x40800000#32 * (∑ j : Fin 10000, x0 (ix2 p j) * x1 (ix2 j k))
        + (Ideal.ofBits .f32 0x40000000#32 * xc (ix2 p 0)) * x2 (ix2 p k)) - x3 (ix2 p k) = _
  rw [Cert.Consts.ofBits_four, Cert.Consts.ofBits_two] <;> rfl

/-- The second store of that term goes through a change of format, the identity on extended reals. -/
theorem t2b_eq (x0 : Vec Ideal S400x10000 .bf16) (x1 : Vec Ideal S10000x128 .bf16) (x2 : Vec Ideal S400x128 .bf16)
    (xc : Vec Ideal S400x1 .f32) (x3 : Vec Ideal S400x128 .f32) :
    k1_pay3 (F := Ideal) x0 x1 x2 xc x3 = k1_pay2 (F := Ideal) x0 x1 x2 xc x3 := rfl

/-- The running sum of the first three terms. -/
theorem s2_apply (x0 : Vec Ideal S400x10000 .bf16) (x1 : Vec Ideal S10000x128 .bf16) (x2 : Vec Ideal S400x128 .bf16)
    (xc : Vec Ideal S400x1 .f32) (x3 : Vec Ideal S400x128 .f32) (x4 : Vec Ideal S400x128 .bf16) (p : Fin 400) (k : Fin 128) :
    k1_pay4 (F := Ideal) x0 x1 x2 xc x3 x4 (ix2 p k)
      = (x4 (ix2 p k) + x2 (ix2 p k)) + k1_pay2 (F := Ideal) x0 x1 x2 xc x3 (ix2 p k) := by
  unfold k1_pay4 k1_pay1
  simp only [shapeCast_self]
  rfl

end Cert.KernelIdeal.PassValue

end
-- ==== Proof.KernelIdeal.Arrays1.lean ====
/-
  What the second pass leaves in its three output arrays, as functions of the arrays it is entered with. Row `i`, column `k`:
  `T₂ = (4·(L·T₁) + 2c·T₁) − H` in the wide and in the narrow array, and `(H + T₁) + T₂` in the running sum — `L`, `T₁`, `c`, `H`
  being whatever the operator's, `T₁`'s, the corrections' and the features' arrays hold when the pass is entered. Each row block's
  write-back is the corresponding rows of that function, and the 25 row blocks cover the array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Blocks1
import proofs.«148721_g88055419503321_cont_sun_m_792_6_alg».proof.Proof.KernelIdeal.PayloadSecond
import proofs.«148721_g88055419503321_cont_sun_m_792_6_alg».proof.Proof.ChebIdx
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass Cert.KernelIdeal.PassValue

variable (V : (c : Dev nD) → (b : Ref sig .tc) → Buf (Elt Ideal) ((c : Thread nD τ).loc b))

/-- `T₂` of the arrays the pass is entered with. -/
def t2Of (c : Dev nD) : Cheb.Feat := fun i k =>
  (4 * Cheb.opMul (Cheb.mat (n0 := 10000) (n1 := 10000) (V c main_call0_v3_2)) (Cheb.mat (n0 := 10000) (n1 := 128) (V c main_call0_v3_1)) i k
    + (2 * (V c main_call0_v3_3 : S10000x1.Idx → EReal) (ix2 i (0 : Fin 1))) * Cheb.mat (n0 := 10000) (n1 := 128) (V c main_call0_v3_1) i k)
    - Cheb.mat (n0 := 10000) (n1 := 128) (V c main_arg1) i k
/-- The running sum of the arrays the pass is entered with. -/
def s2Of (c : Dev nD) : Cheb.Feat := fun i k =>
  (Cheb.mat (n0 := 10000) (n1 := 128) (V c main_call0_v0) i k + Cheb.mat (n0 := 10000) (n1 := 128) (V c main_call0_v3_1) i k) + t2Of V c i k

/-- The body's `T₂` payload at a grid point, entry by entry, in the arrays' terms. -/
theorem t2_at (c : Dev nD) (t : Fin cfg1.N) (p : Fin 400) (k : Fin 128) :
    k1_pay2 (F := Ideal) (iblk1 V c 0 t) (iblk1 V c 1 t) (iblk1 V c 2 t) (iblk1 V c 5 t) (iblk1 V c 3 t) (ix2 p k) = t2Of V c (row1 t p) k := by
  refine (t2_apply (iblk1 V c 0 t) (iblk1 V c 1 t) (iblk1 V c 2 t) (iblk1 V c 5 t) (iblk1 V c 3 t) p k).trans ?_
  simp only [iblk1_0, iblk1_1, iblk1_2, iblk1_5, iblk1_3]
  rfl

theorem flushed1_6 (c : Dev nD) (t : Fin cfg1.N) :
    (dat1 V c).flushed 6 t = ((cfg1.win 6).blk t).view.read (Elt Ideal) (Cheb.arr (t2Of V c)) := by
  show (cfg1.win 6).cut (grid1.coords t) ((dat1 V c).after 6 t) = _
  rw [after1_6]
  unfold t2Blk
  rw [View.canon_unit_zero hz1]
  simp only [View.ld_unit_zero (S := S400x10000) hz1, View.ld_unit_zero (S := S10000x128) hz1, View.ld_unit_zero (S := S400x128) hz1, View.ld_unit_zero (S := S400x1) hz1]
  funext y
  obtain ⟨p, k, rfl⟩ : ∃ (p : Fin 400) (k : Fin 128), y = ix2 p k := ⟨y 0, y 1, eq_ix2 y⟩
  show k1_pay2 (F := Ideal) (iblk1 V c 0 t) (iblk1 V c 1 t) (iblk1 V c 2 t) (iblk1 V c 5 t) (iblk1 V c 3 t) (ix2 p k)
    = Cheb.arr (t2Of V c) (((cfg1.win 6).blk t).view.emb (ix2 p k))
  rw [emb1_6, Cheb.arr_apply]
  exact t2_at V c t p k

theorem flushed1_7 (c : Dev nD) (t : Fin cfg1.N) :
    (dat1 V c).flushed 7 t = ((cfg1.win 7).blk t).view.read (Elt Ideal) (Cheb.arr (t2Of V c)) := by
  show (cfg1.win 7).cut (grid1.coords t) ((dat1 V c).after 7 t) = _
  rw [after1_7]
  unfold t2bBlk
  rw [View.canon_unit_zero hz1]
  simp only [View.ld_unit_zero (S := S400x10000) hz1, View.ld_unit_zero (S := S10000x128) hz1, View.ld_unit_zero (S := S400x128) hz1, View.ld_unit_zero (S := S400x1) hz1]
  funext y
  obtain ⟨p, k, rfl⟩ : ∃ (p : Fin 400) (k : Fin 128), y = ix2 p k := ⟨y 0, y 1, eq_ix2 y⟩
  show k1_pay3 (F := Ideal) (iblk1 V c 0 t) (iblk1 V c 1 t) (iblk1 V c 2 t) (iblk1 V c 5 t) (iblk1 V c 3 t) (ix2 p k)
    = Cheb.arr (t2Of V c) (((cfg1.win 7).blk t).view.emb (ix2 p k))
  rw [emb1_7, Cheb.arr_apply]
  exact (congrFun (t2b_eq (iblk1 V c 0 t) (iblk1 V c 1 t) (iblk1 V c 2 t) (iblk1 V c 5 t) (iblk1 V c 3 t)) (ix2 p k)).trans (t2_at V c t p k)

theorem flushed1_8 (c : Dev nD) (t : Fin cfg1.N) :
    (dat1 V c).flushed 8 t = ((cfg1.win 8).blk t).view.read (Elt Ideal) (Cheb.arr (s2Of V c)) := by
  show (cfg1.win 8).cut (grid1.coords t) ((dat1 V c).after 8 t) = _
  rw [after1_8]
  unfold s2Blk
  rw [View.canon_unit_zero hz1]
  simp only [View.ld_unit_zero (S := S400x10000) hz1, View.ld_unit_zero (S := S10000x128) hz1, View.ld_unit_zero (S := S400x128) hz1, View.ld_unit_zero (S := S400x1) hz1]
  funext y
  obtain ⟨p, k, rfl⟩ : ∃ (p : Fin 400) (k : Fin 128), y = ix2 p k := ⟨y 0, y 1, eq_ix2 y⟩
  show k1_pay4 (F := Ideal) (iblk1 V c 0 t) (iblk1 V c 1 t) (iblk1 V c 2 t) (iblk1 V c 5 t) (iblk1 V c 3 t) (iblk1 V c 4 t) (ix2 p k)
    = Cheb.arr (s2Of V c) (((cfg1.win 8).blk t).view.emb (ix2 p k))
  rw [emb1_8, Cheb.arr_apply]
  refine (s2_apply (iblk1 V c 0 t) (iblk1 V c 1 t) (iblk1 V c 2 t) (iblk1 V c 5 t) (iblk1 V c 3 t) (iblk1 V c 4 t) p k).trans ?_
  rw [t2_at V c t p k, iblk1_4, iblk1_2]
  rfl

/-- After the second pass the wide `T₂` array holds `T₂` of the arrays the pass was entered with, -/
theorem final1_6 (c : Dev nD) : (dat1 V c).arrAt 6 cfg1.N = Cheb.arr (t2Of V c) :=
  (dat1 V c).arrAt_eq_of_cover 6 _ (fun t _ => flushed1_6 V c t) cover1_6
/-- so does the narrow one, -/
theorem final1_7 (c : Dev nD) : (dat1 V c).arrAt 7 cfg1.N = Cheb.arr (t2Of V c) :=
  (dat1 V c).arrAt_eq_of_cover 7 _ (fun t _ => flushed1_7 V c t) cover1_7
/-- and the running sum's array holds `(H + T₁) + T₂`. -/
theorem final1_8 (c : Dev nD) : (dat1 V c).arrAt 8 cfg1.N = Cheb.arr (s2Of V c) :=
  (dat1 V c).arrAt_eq_of_cover 8 _ (fun t _ => flushed1_8 V c t) cover1_8

end Cert.KernelIdeal.Arrays

end
-- ==== Proof.KernelIdeal.Blocks2.lean ====
/-
  Where the third pass's blocks sit in their arrays. Its grid has 25 points; at point `t` a row-blocked window is on rows
  `400·t … 400·t + 399` of its array (all columns) and a whole-array window on the whole array. Here: those index facts, decided over the
  grid; each input window's block read as entries of its array; where each output block's entries land; and that an output's 25 row
  blocks cover its array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Pass2
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass

variable (V : (c : Dev nD) → (b : Ref sig .tc) → Buf (Elt Ideal) ((c : Thread nD τ).loc b))

theorem hz2 : (![0, 0] : Fin 2 → Nat) = fun _ => 0 := funext fun a => by fin_cases a <;> rfl

/-! ## The printed index maps, decided over the grid -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)
/-- The grid's one coordinate at point `t` is `t`. -/
theorem coord2 : ∀ t : Fin cfg2.N, ((grid2.coords t) 0).val = t.val :=
  (by decide +kernel : ∀ t : Fin grid2.N, _)

/-- Row `p` of the block at grid point `t` is row `400·t + p` of the array. -/
def row2 (t : Fin cfg2.N) (p : Fin 400) : Fin 10000 :=
  ⟨400 * t.val + p.val, by have ht := t.isLt; have hN : cfg2.N = 25 := N_2; have hp := p.isLt; omega⟩
theorem row2_val (t : Fin cfg2.N) (p : Fin 400) : (row2 t p).val = 400 * t.val + p.val := rfl

/-! ## The input windows' blocks, read as entries of their arrays -/

theorem iblk2_0 (c : Dev nD) (t : Fin cfg2.N) (p : Fin 400) (q : Fin 10000) :
    iblk2 V c 0 t (ix2 p q) = V c main_call0_v3_2 (ix2 (row2 t p) q) := by
  show V c main_call0_v3_2 (((cfg2.win 0).blk t).view.emb (ix2 p q)) = V c main_call0_v3_2 (ix2 (row2 t p) q)
  refine congrArg _ ?_
  obtain ⟨e0, e1⟩ := idx2_0 t
  funext a; apply Fin.ext
  match a with
  | ⟨0, _⟩ => show win2_0.index t (0 : Fin 2) * 400 + 1 * p.val = 400 * t.val + p.val; omega
  | ⟨1, _⟩ => show win2_0.index t (1 : Fin 2) * 10000 + 1 * q.val = q.val; omega
theorem iblk2_1 (c : Dev nD) (t : Fin cfg2.N) (p : Fin 10000) (q : Fin 128) :
    iblk2 V c 1 t (ix2 p q) = V c main_call0_v4_1 (ix2 p q) := by
  show V c main_call0_v4_1 (((cfg2.win 1).blk t).view.emb (ix2 p q)) = V c main_call0_v4_1 (ix2 p q)
  refine congrArg _ ?_
  obtain ⟨e0, e1⟩ := idx2_1 t
  funext a; apply Fin.ext
  match a with
  | ⟨0, _⟩ => show win2_1.index t (0 : Fin 2) * 10000 + 1 * p.val = p.val; omega
  | ⟨1, _⟩ => show win2_1.index t (1 : Fin 2) * 128 + 1 * q.val = q.val; omega
theorem iblk2_2 (c : Dev nD) (t : Fin cfg2.N) (p : Fin 400) (q : Fin 128) :
    iblk2 V c 2 t (ix2 p q) = V c main_call0_v4_1 (ix2 (row2 t p) q) := by
  show V c main_call0_v4_1 (((cfg2.win 2).blk t).view.emb (ix2 p q)) = V c main_call0_v4_1 (ix2 (row2 t p) q)
  refine congrArg _ ?_
  obtain ⟨e0, e1⟩ := idx2_2 t
  funext a; apply Fin.ext
  match a with
  | ⟨0, _⟩ => show win2_2.index t (0 : Fin 2) * 400 + 1 * p.val = 400 * t.val + p.val; omega
  | ⟨1, _⟩ => show win2_2.index t (1 : Fin 2) * 128 + 1 * q.val = q.val; omega
theorem iblk2_3 (c : Dev nD) (t : Fin cfg2.N) (p : Fin 400) (q : Fin 128) :
    iblk2 V c 3 t (ix2 p q) = V c main_call0_v3_0 (ix2 (row2 t p) q) := by
  show V c main_call0_v3_0 (((cfg2.win 3).blk t).view.emb (ix2 p q)) = V c main_call0_v3_0 (ix2 (row2 t p) q)
  refine congrArg _ ?_
  obtain ⟨e0, e1⟩ := idx2_3 t
  funext a; apply Fin.ext
  match a with
  | ⟨0, _⟩ => show win2_3.index t (0 : Fin 2) * 400 + 1 * p.val = 400 * t.val + p.val; omega
  | ⟨1, _⟩ => show win2_3.index t (1 : Fin 2) * 128 + 1 * q.val = q.val; omega
theorem iblk2_4 (c : Dev nD) (t : Fin cfg2.N) (p : Fin 400) (q : Fin 1) :
    iblk2 V c 4 t (ix2 p q) = V c main_call0_v3_3 (ix2 (row2 t p) q) := by
  show V c main_call0_v3_3 (((cfg2.win 4).blk t).view.emb (ix2 p q)) = V c main_call0_v3_3 (ix2 (row2 t p) q)
  refine congrArg _ ?_
  obtain ⟨e0, e1⟩ := idx2_4 t
  funext a; apply Fin.ext
  match a with
  | ⟨0, _⟩ => show win2_4.index t (0 : Fin 2) * 400 + 1 * p.val = 400 * t.val + p.val; omega
  | ⟨1, _⟩ => show win2_4.index t (1 : Fin 2) * 1 + 1 * q.val = q.val; omega
theorem iblk2_5 (c : Dev nD) (t : Fin cfg2.N) (p : Fin 400) (q : Fin 128) :
    iblk2 V c 5 t (ix2 p q) = V c main_call0_v4_2 (ix2 (row2 t p) q) := by
  show V c main_call0_v4_2 (((cfg2.win 5).blk t).view.emb (ix2 p q)) = V c main_call0_v4_2 (ix2 (row2 t p) q)
  refine congrArg _ ?_
  obtain ⟨e0, e1⟩ := idx2_5 t
  funext a; apply Fin.ext
  match a with
  | ⟨0, _⟩ => show win2_5.index t (0 : Fin 2) * 400 + 1 * p.val = 400 * t.val + p.val; omega
  | ⟨1, _⟩ => show win2_5.index t (1 : Fin 2) * 128 + 1 * q.val = q.val; omega
theorem iblk2_6 (c : Dev nD) (t : Fin cfg2.N) (p : Fin 128) (q : Fin 128) :
    iblk2 V c 6 t (ix2 p q) = V c main_call0_v1 (ix2 p q) := by
  show V c main_call0_v1 (((cfg2.win 6).blk t).view.emb (ix2 p q)) = V c main_call0_v1 (ix2 p q)
  refine congrArg _ ?_
  obtain ⟨e0, e1⟩ := idx2_6 t
  funext a; apply Fin.ext
  match a with
  | ⟨0, _⟩ => show win2_6.index t (0 : Fin 2) * 128 + 1 * p.val = p.val; omega
  | ⟨1, _⟩ => show win2_6.index t (1 : Fin 2) * 128 + 1 * q.val = q.val; omega
theorem iblk2_7 (c : Dev nD) (t : Fin cfg2.N) (p : Fin 1) (q : Fin 128) :
    iblk2 V c 7 t (ix2 p q) = V c main_call0_v2 (ix2 p q) := by
  show V c main_call0_v2 (((cfg2.win 7).blk t).view.emb (ix2 p q)) = V c main_call0_v2 (ix2 p q)
  refine congrArg _ ?_
  obtain ⟨e0, e1⟩ := idx2_7 t
  funext a; apply Fin.ext
  match a with
  | ⟨0, _⟩ => show win2_7.index t (0 : Fin 2) * 1 + 1 * p.val = p.val; omega
  | ⟨1, _⟩ => show win2_7.index t (1 : Fin 2) * 128 + 1 * q.val = q.val; omega

/-! ## The output windows: where a block's entries land, and that the blocks cover the array -/

theorem emb2_8 (t : Fin cfg2.N) (p : Fin 400) (q : Fin 128) :
    ((cfg2.win 8).blk t).view.emb (ix2 p q) = ix2 (row2 t p) q := by
  obtain ⟨e0, e1⟩ := idx2_8 t
  funext a; apply Fin.ext
  match a with
  | ⟨0, _⟩ => show win2_8.index t (0 : Fin 2) * 400 + 1 * p.val = 400 * t.val + p.val; omega
  | ⟨1, _⟩ => show win2_8.index t (1 : Fin 2) * 128 + 1 * q.val = q.val; omega
theorem mem_blk2_8 (t : Fin cfg2.N) (i : S10000x128.Idx) :
    i ∈ ((cfg2.win 8).blk t).view.set ↔ ∀ a : Fin 2, win2_8.index t a * S400x128.size a ≤ (i a).val ∧ (i a).val < win2_8.index t a * S400x128.size a + S400x128.size a := by
  show i ∈ ((View.whole main_v0).slice (win2_8.rect t)).set ↔ _
  rw [View.set_slice_whole, Rect.mem_set_unit]
  exact Iff.rfl
/-- Every entry of the array is in the row block of the point `row / 400`. -/
theorem cover2_8 (i : S10000x128.Idx) : ∃ t : Fin cfg2.N, (cfg2.win 8).flush t = true ∧ i ∈ ((cfg2.win 8).blk t).view.set := by
  have hi0 : (i 0).val < 10000 := idx2_lt0 i
  have hi1 : (i 1).val < 128 := idx2_lt1 i
  have hN : cfg2.N = 25 := N_2
  refine ⟨⟨(i 0).val / 400, by omega⟩, flush2_8 _, ?_⟩
  obtain ⟨e0, e1⟩ := idx2_8 ⟨(i 0).val / 400, by omega⟩
  rw [mem_blk2_8]
  intro a
  match a with
  | ⟨0, _⟩ => show win2_8.index ⟨(i 0).val / 400, _⟩ (0 : Fin 2) * 400 ≤ (i 0).val ∧ (i 0).val < win2_8.index ⟨(i 0).val / 400, _⟩ (0 : Fin 2) * 400 + 400; rw [e0]; show (i 0).val / 400 * 400 ≤ (i 0).val ∧ (i 0).val < (i 0).val / 400 * 400 + 400; omega
  | ⟨1, _⟩ => show win2_8.index ⟨(i 0).val / 400, _⟩ (1 : Fin 2) * 128 ≤ (i 1).val ∧ (i 1).val < win2_8.index ⟨(i 0).val / 400, _⟩ (1 : Fin 2) * 128 + 128; rw [e1]; omega

end Cert.KernelIdeal.Arrays

end
-- ==== Proof.KernelIdeal.PayloadThird.lean ====
/-
  The third pass's arithmetic at an index. With `S = ∑ j, x₀ (p, j) · x₁ (j, k)` the row block's product it forms the
  third term `T₃ (p, k) = (4·S + (2·c (p, 0))·x₂ (p, k)) − x₃ (p, k)`, adds the running sum `x₅`, multiplies the
  total by the weights, `∑ k, (x₅ (p, k) + T₃ (p, k)) · W (k, n)`, and adds the bias row `b (0, n)`. The changes of
  format on the way are the identity on extended reals.
-/
import proofs.«148721_g88055419503321_cont_sun_m_792_6_alg».proof.Proof.Gen.KernelIdeal.Skeleton
import proofs.«148721_g88055419503321_cont_sun_m_792_6_alg».proof.Proof.KernelIdeal.PayloadOps
import proofs.«148721_g88055419503321_cont_sun_m_792_6_alg».proof.Proof.Consts
import Idealize.ShloMosaic.Lib.Pipeline.Value
import Idealize.ShloMosaic.Lib.ValueIdx
import Idealize.ShloMosaic.PureOps.Ideal.Laws

noncomputable section

namespace Cert.KernelIdeal.PassValue

open Cert.KernelIdeal Cert.KernelIdeal.Gen Idealize.ShloMosaic Idealize.ShloMosaic.ValueIdx
open scoped BigOperators

/-- The output block as the pass computes it. -/
theorem out_apply (x0 : Vec Ideal S400x10000 .bf16) (x1 : Vec Ideal S10000x128 .bf16) (xc : Vec Ideal S400x1 .f32)
    (x2 : Vec Ideal S400x128 .bf16) (x3 : Vec Ideal S400x128 .f32) (x5 : Vec Ideal S400x128 .f32)
    (xW : Vec Ideal S128x128 .bf16) (xb : Vec Ideal S1x128 .f32) (p : Fin 400) (n : Fin 128) :
    k2_pay1 (F := Ideal) x0 x1 xc x2 x3 x5 xW xb (ix2 p n)
      = (∑ k : Fin 128, (x5 (ix2 p k)
            + ((4 * (∑ j : Fin 10000, x0 (ix2 p j) * x1 (ix2 j k)) + (2 * xc (ix2 p 0)) * x2 (ix2 p k)) - x3 (ix2 p k)))
          * xW (ix2 k n)) + xb (ix2 (0 : Fin 1) n) := by
  unfold k2_pay1
  simp only [shapeCast_self]
  rw [addf_apply, matmul_small_apply, bcast_row_apply]
  refine congrArg (fun t => t + xb (ix2 (0 : Fin 1) n)) (Finset.sum_congr rfl fun k _ => congrArg (fun t => t * xW (ix2 k n)) ?_)
  show x5 (ix2 p k)
      + ((Ideal.ofBits .f32 0x40800000#32
            * matmul (F := Ideal) dot_S400x10000_S10000x128_S400x128_1_0_0_1_n_n none x0 x1 (constant (F := Ideal) S400x128 .f32 0x00000000#32) (ix2 p k)
          + broadcastTo S400x128 (mulf (F := Ideal) (broadcast S400x1 (Scalar.ofBits (F := Ideal) .f32 0x40000000#32)) xc)
              broadcasts_S400x1_S400x128 (ix2 p k) * x2 (ix2 p k)) - x3 (ix2 p k)) = _
  rw [matmul_big_apply, bcast_col_apply]
  show x5 (ix2 p k)
      + ((Ideal.ofBits .f32 0x40800000#32 * (∑ j : Fin 10000, x0 (ix2 p j) * x1 (ix2 j k))
          + (Ideal.ofBits .f32 0x40000000#32 * xc (ix2 p 0)) * x2 (ix2 p k)) - x3 (ix2 p k)) = _
  rw [Cert.Consts.ofBits_four, Cert.Consts.ofBits_two] <;> rfl

end Cert.KernelIdeal.PassValue

end
-- ==== Proof.KernelIdeal.Arrays2.lean ====
/-
  What the third pass leaves in the result array, as a function of the arrays it is entered with. Row `i`, column `n`:
  `∑ₖ (S₂ + T₃) i k · W k n + b n` with `T₃ = (4·(L·T₂) + 2c·T₂) − T₁` — `L`, `T₂`, `c`, `T₁`, `S₂`, `W`, `b` being whatever the
  corresponding arrays hold when the pass is entered. Each row block's write-back is the corresponding rows of that function,
  and the 25 row blocks cover the array.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.Blocks2
import proofs.«148721_g88055419503321_cont_sun_m_792_6_alg».proof.Proof.KernelIdeal.PayloadThird
import proofs.«148721_g88055419503321_cont_sun_m_792_6_alg».proof.Proof.ChebIdx
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass Cert.KernelIdeal.PassValue

variable (V : (c : Dev nD) → (b : Ref sig .tc) → Buf (Elt Ideal) ((c : Thread nD τ).loc b))

/-- The result of the arrays the pass is entered with. -/
def outOf (c : Dev nD) : Cheb.Feat := fun i n =>
  (∑ k : Fin 128, (Cheb.mat (n0 := 10000) (n1 := 128) (V c main_call0_v4_2) i k
      + ((4 * Cheb.opMul (Cheb.mat (n0 := 10000) (n1 := 10000) (V c main_call0_v3_2)) (Cheb.mat (n0 := 10000) (n1 := 128) (V c main_call0_v4_1)) i k
          + (2 * (V c main_call0_v3_3 : S10000x1.Idx → EReal) (ix2 i (0 : Fin 1))) * Cheb.mat (n0 := 10000) (n1 := 128) (V c main_call0_v4_1) i k)
        - Cheb.mat (n0 := 10000) (n1 := 128) (V c main_call0_v3_0) i k))
    * Cheb.mat (n0 := 128) (n1 := 128) (V c main_call0_v1) k n)
  + (V c main_call0_v2 : S1x128.Idx → EReal) (ix2 (0 : Fin 1) n)

theorem flushed2_8 (c : Dev nD) (t : Fin cfg2.N) :
    (dat2 V c).flushed 8 t = ((cfg2.win 8).blk t).view.read (Elt Ideal) (Cheb.arr (outOf V c)) := by
  show (cfg2.win 8).cut (grid2.coords t) ((dat2 V c).after 8 t) = _
  rw [after2_8]
  unfold outBlk
  rw [View.canon_unit_zero hz2]
  simp only [View.ld_unit_zero (S := S400x10000) hz2, View.ld_unit_zero (S := S10000x128) hz2, View.ld_unit_zero (S := S400x128) hz2,
    View.ld_unit_zero (S := S400x1) hz2, View.ld_unit_zero (S := S128x128) hz2, View.ld_unit_zero (S := S1x128) hz2]
  funext y
  obtain ⟨p, n, rfl⟩ : ∃ (p : Fin 400) (n : Fin 128), y = ix2 p n := ⟨y 0, y 1, eq_ix2 y⟩
  show k2_pay1 (F := Ideal) (iblk2 V c 0 t) (iblk2 V c 1 t) (iblk2 V c 4 t) (iblk2 V c 2 t) (iblk2 V c 3 t) (iblk2 V c 5 t) (iblk2 V c 6 t) (iblk2 V c 7 t) (ix2 p n)
    = Cheb.arr (outOf V c) (((cfg2.win 8).blk t).view.emb (ix2 p n))
  rw [emb2_8, Cheb.arr_apply]
  refine (out_apply (iblk2 V c 0 t) (iblk2 V c 1 t) (iblk2 V c 4 t) (iblk2 V c 2 t) (iblk2 V c 3 t) (iblk2 V c 5 t) (iblk2 V c 6 t) (iblk2 V c 7 t) p n).trans ?_
  simp only [iblk2_0, iblk2_1, iblk2_4, iblk2_2, iblk2_3, iblk2_5, iblk2_6, iblk2_7]
  rfl

/-- After the third pass the result array holds the result of the arrays the pass was entered with. -/
theorem final2_8 (c : Dev nD) : (dat2 V c).arrAt 8 cfg2.N = Cheb.arr (outOf V c) :=
  (dat2 V c).arrAt_eq_of_cover 8 _ (fun t _ => flushed2_8 V c t) cover2_8

end Cert.KernelIdeal.Arrays

end
-- ==== Proof.KernelIdeal.Compose.lean ====
/-
  The three passes composed, at the ideal instance. The first pass is entered with the launch arrays (the narrow features being the
  features), so it leaves `T₁` and the corrections of the launch operator and features; the second is entered with those, so it
  leaves `T₂` and the running sum; the third with those, the weights and the bias, so the result array ends holding the result as
  the three passes compute it, `Cheb.passOut`, of the four launch arrays.
-/
import proofs.«148721_g88055419503321_cont_sun_m_792_6_alg».proof.Proof.Gen.KernelIdeal.Launch
import proofs.«148721_g88055419503321_cont_sun_m_792_6_alg».proof.Proof.Gen.KernelIdeal.Skeleton
import proofs.«148721_g88055419503321_cont_sun_m_792_6_alg».proof.Proof.Gen.KernelIdeal.Points
import proofs.«148721_g88055419503321_cont_sun_m_792_6_alg».proof.Proof.KernelIdeal.HostRead
import proofs.«148721_g88055419503321_cont_sun_m_792_6_alg».proof.Proof.KernelIdeal.Arrays0
import proofs.«148721_g88055419503321_cont_sun_m_792_6_alg».proof.Proof.KernelIdeal.Arrays1
import proofs.«148721_g88055419503321_cont_sun_m_792_6_alg».proof.Proof.KernelIdeal.Arrays2
import proofs.«148721_g88055419503321_cont_sun_m_792_6_alg».proof.Proof.ChebIdx
import Idealize.ShloMosaic.Lib.Pipeline.Value
import Idealize.ShloMosaic.Lib.ValueIdx
import Idealize.ShloMosaic.PureOps.Ideal.Laws

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pass

variable (m : (ℓ : Loc nD τ sig) → Buf (Elt Ideal) ℓ)

/-- The launch operator, features, weights and bias of core `c`, as matrices. -/
abbrev opL (c : Dev nD) : Cheb.Op := Cheb.mat (n0 := 10000) (n1 := 10000) (m ((c : Thread nD τ).loc main_arg0))
abbrev ftH (c : Dev nD) : Cheb.Feat := Cheb.mat (n0 := 10000) (n1 := 128) (m ((c : Thread nD τ).loc main_arg1))
abbrev wtW (c : Dev nD) : Cheb.Wt := Cheb.mat (n0 := 128) (n1 := 128) (m ((c : Thread nD τ).loc main_arg2))
abbrev bsB (c : Dev nD) : Cheb.Bias := Cheb.vec (n := 128) (m ((c : Thread nD τ).loc main_arg3))

/-! ## After the first pass -/

theorem t1Of_E1 (c : Dev nD) : t1Of (E1 m) c = Cheb.passT1 (opL m c) (ftH m c) := by
  unfold t1Of; rw [E1_arg0, E1_v0]
theorem corrOf_E1 (c : Dev nD) : corrOf (E1 m) c = fun j => Cheb.corr (opL m c) (j 0) := by
  unfold corrOf; rw [E1_arg0]

theorem E2_v3_0 (c : Dev nD) : (E2 m c main_call0_v3_0 : S10000x128.Idx → EReal) = Cheb.arr (Cheb.passT1 (opL m c) (ftH m c)) :=
  (W2_v3_0 m c).trans ((final0_3 (E1 m) c).trans (congrArg Cheb.arr (t1Of_E1 m c)))
theorem E2_v3_1 (c : Dev nD) : (E2 m c main_call0_v3_1 : S10000x128.Idx → EReal) = Cheb.arr (Cheb.passT1 (opL m c) (ftH m c)) :=
  (W2_v3_1 m c).trans ((final0_4 (E1 m) c).trans (congrArg Cheb.arr (t1Of_E1 m c)))
theorem E2_v3_2 (c : Dev nD) : (E2 m c main_call0_v3_2 : S10000x10000.Idx → EReal) = m ((c : Thread nD τ).loc main_arg0) :=
  (W2_v3_2 m c).trans ((final0_5 (E1 m) c).trans (E1_arg0 m c))
theorem E2_v3_3 (c : Dev nD) : (E2 m c main_call0_v3_3 : S10000x1.Idx → EReal) = fun j => Cheb.corr (opL m c) (j 0) :=
  (W2_v3_3 m c).trans ((final0_6 (E1 m) c).trans (corrOf_E1 m c))
theorem E2_arg1 (c : Dev nD) : E2 m c main_arg1 = m ((c : Thread nD τ).loc main_arg1) := (W2_of m c main_arg1 (by decide)).trans (E1_arg1 m c)
theorem E2_v0 (c : Dev nD) : (E2 m c main_call0_v0 : S10000x128.Idx → EReal) = m ((c : Thread nD τ).loc main_arg1) :=
  (W2_of m c main_call0_v0 (by decide)).trans (E1_v0 m c)

/-! ## After the second pass -/

theorem t2Of_E2 (c : Dev nD) : t2Of (E2 m) c = Cheb.passT2 (opL m c) (ftH m c) := by
  unfold t2Of; rw [E2_v3_2, E2_v3_1, E2_v3_3, E2_arg1]; rfl
theorem s2Of_E2 (c : Dev nD) : s2Of (E2 m) c = Cheb.passS2 (opL m c) (ftH m c) := by
  unfold s2Of; rw [t2Of_E2, E2_v0, E2_v3_1]; rfl

theorem E3_v4_1 (c : Dev nD) : (E3 m c main_call0_v4_1 : S10000x128.Idx → EReal) = Cheb.arr (Cheb.passT2 (opL m c) (ftH m c)) :=
  (W3_v4_1 m c).trans ((final1_7 (E2 m) c).trans (congrArg Cheb.arr (t2Of_E2 m c)))
theorem E3_v4_2 (c : Dev nD) : (E3 m c main_call0_v4_2 : S10000x128.Idx → EReal) = Cheb.arr (Cheb.passS2 (opL m c) (ftH m c)) :=
  (W3_v4_2 m c).trans ((final1_8 (E2 m) c).trans (congrArg Cheb.arr (s2Of_E2 m c)))
theorem E3_v3_0 (c : Dev nD) : (E3 m c main_call0_v3_0 : S10000x128.Idx → EReal) = Cheb.arr (Cheb.passT1 (opL m c) (ftH m c)) :=
  (W3_of m c main_call0_v3_0 (by decide)).trans (E2_v3_0 m c)
theorem E3_v3_2 (c : Dev nD) : (E3 m c main_call0_v3_2 : S10000x10000.Idx → EReal) = m ((c : Thread nD τ).loc main_arg0) :=
  (W3_of m c main_call0_v3_2 (by decide)).trans (E2_v3_2 m c)
theorem E3_v3_3 (c : Dev nD) : (E3 m c main_call0_v3_3 : S10000x1.Idx → EReal) = fun j => Cheb.corr (opL m c) (j 0) :=
  (W3_of m c main_call0_v3_3 (by decide)).trans (E2_v3_3 m c)
theorem E3_v1 (c : Dev nD) : (E3 m c main_call0_v1 : S128x128.Idx → EReal) = m ((c : Thread nD τ).loc main_arg2) :=
  (W3_of m c main_call0_v1 (by decide)).trans ((W2_of m c main_call0_v1 (by decide)).trans (E1_v1 m c))
theorem E3_v2 (c : Dev nD) (n : Fin 128) :
    (E3 m c main_call0_v2 : S1x128.Idx → EReal) (ix2 (0 : Fin 1) n) = (m ((c : Thread nD τ).loc main_arg3) : S128.Idx → EReal) (ix1 n) :=
  (congrFun ((W3_of m c main_call0_v2 (by decide)).trans (W2_of m c main_call0_v2 (by decide))) _).trans (E1_v2 m c n)

/-! ## After the third pass -/

theorem outOf_E3 (c : Dev nD) : outOf (E3 m) c = Cheb.passOut (opL m c) (ftH m c) (wtW m c) (bsB m c) := by
  funext i n
  unfold outOf
  rw [E3_v4_2, E3_v3_2, E3_v4_1, E3_v3_3, E3_v3_0, E3_v1, E3_v2]
  rfl

/-- THE RESULT ARRAY after the three passes is the result, as the passes compute it, of the four launch arrays. -/
theorem result_eq (c : Dev nD) :
    (dat2 (E3 m) c).arrAt 8 cfg2.N = Cheb.arr (Cheb.passOut (opL m c) (ftH m c) (wtW m c) (bsB m c)) :=
  (final2_8 (E3 m) c).trans (congrArg Cheb.arr (outOf_E3 m c))

end Cert.KernelIdeal.Arrays

end
-- ==== Proof.RefRead.lean ====
/-
  The reference program, read operation by operation, is the recursion as the textbook states it. Its `2·L − I`
  — the identity built as the conversion to a float of the comparison of the row counter with the column counter —
  is `normOp`; its three products with that operator and its two steps `2·(…) − (…)` are `T₁`, `T₂`, `T₃`; its
  four products with `W`, summed left to right, and the bias row broadcast over the rows are `recOut`. No law of
  arithmetic is used and no finiteness: every operation is only re-read at an index, and `2·x` stays `2·x`.
-/
import proofs.«148721_g88055419503321_cont_sun_m_792_6_alg».proof.Proof.Gen.ReferenceIdeal.Read
import proofs.«148721_g88055419503321_cont_sun_m_792_6_alg».proof.Proof.ChebIdx
import proofs.«148721_g88055419503321_cont_sun_m_792_6_alg».proof.Proof.Consts

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The four argument arrays' contents at the extended reals. -/
abbrev ArrL := (⟨S10000x10000, .f32⟩ : BufTy).Contents (Elt Ideal)
abbrev ArrH := (⟨S10000x128, .f32⟩ : BufTy).Contents (Elt Ideal)
abbrev ArrW := (⟨S128x128, .f32⟩ : BufTy).Contents (Elt Ideal)
abbrev ArrB := (⟨S128, .f32⟩ : BufTy).Contents (Elt Ideal)

/-- Two rank-2 indices with the same two coordinates are the same index. -/
theorem idx2_ext {n0 n1 : Nat} (f g : (⟨2, ![n0, n1]⟩ : Shape).Idx) (h0 : f 0 = g 0) (h1 : f 1 = g 1) : f = g := by
  funext a; match a with | ⟨0, _⟩ => exact h0 | ⟨1, _⟩ => exact h1

/-- Two rank-1 indices with the same coordinate are the same index. -/
theorem idx1_ext {n : Nat} (f g : (⟨1, ![n]⟩ : Shape).Idx) (h0 : f 0 = g 0) : f = g := by
  funext a; match a with | ⟨0, _⟩ => exact h0

/-! ## The identity matrix -/

/-- Counters below `2^32` are equal as 32-bit words only when they are equal. -/
theorem word_ne {i j : Fin 10000} (h : i ≠ j) : IntOp.addi (BitVec.ofNat 32 i.val) 0#32 ≠ BitVec.ofNat 32 j.val := by
  intro e
  apply h
  have e' := congrArg BitVec.toNat e
  simp only [IntOp.addi, BitVec.add_zero, BitVec.toNat_ofNat] at e'
  have hi := i.isLt
  have hj := j.isLt
  apply Fin.ext
  omega

/-- The converted comparison of the two counters is `1` on the diagonal and `0` off it. -/
theorem eye_apply (i j : Fin 10000) :
    val_main_v7 (F := Ideal) (ix2 i j) = if i = j then (1 : EReal) else 0 := by
  have h : val_main_v7 (F := Ideal) (ix2 i j)
      = (((IntOp.cmpi .eq (IntOp.addi (BitVec.ofNat 32 i.val) 0#32) (BitVec.ofNat 32 j.val)).toNat : ℝ) : EReal) := rfl
  rw [h]
  by_cases hij : i = j
  · subst hij
    have h1 : IntOp.cmpi .eq (IntOp.addi (BitVec.ofNat 32 i.val) 0#32) (BitVec.ofNat 32 i.val) = 1#1 :=
      IntOp.cmpi_eq.2 (by simp only [IntOp.addi, BitVec.add_zero])
    rw [if_pos rfl, h1]
    simp
  · have h0 : IntOp.cmpi .eq (IntOp.addi (BitVec.ofNat 32 i.val) 0#32) (BitVec.ofNat 32 j.val) = 0#1 := by
      have hne : IntOp.cmpi .eq (IntOp.addi (BitVec.ofNat 32 i.val) 0#32) (BitVec.ofNat 32 j.val) ≠ 1#1 :=
        fun e => word_ne hij (IntOp.cmpi_eq.1 e)
      generalize IntOp.cmpi .eq (IntOp.addi (BitVec.ofNat 32 i.val) 0#32) (BitVec.ofNat 32 j.val) = v at hne
      revert v; decide
    rw [if_neg hij, h0]
    simp

/-! ## The operator `2·L − I` -/

theorem v8_mat (a0 : ArrL) : Cheb.mat (val_main_v8 (F := Ideal) a0) = Cheb.normOp (Cheb.mat a0) := by
  funext i j
  show Ideal.ofBits .f32 0x40000000#32 * a0 (ix2 i j) - val_main_v7 (F := Ideal) (ix2 i j)
    = 2 * a0 (ix2 i j) - (if i = j then 1 else 0)
  rw [Cert.Consts.ofBits_two, eye_apply]

/-! ## The products with the operator and the recursion's steps -/

theorem v10_mat (a0 : ArrL) (a1 : ArrH) :
    Cheb.mat (val_main_v10 (F := Ideal) a0 a1) = Cheb.recT1 (Cheb.mat a0) (Cheb.mat a1) := by
  funext i k
  show val_main_v10 (F := Ideal) a0 a1 (ix2 i k) = ∑ j : Fin 10000, Cheb.normOp (Cheb.mat a0) i j * a1 (ix2 j k)
  rw [val_main_v10_apply, ← v8_mat]
  refine Finset.sum_congr rfl fun j _ => ?_
  show val_main_v8 (F := Ideal) a0 (lidx_main_v10 (ix2 i k) j) * a1 (ridx_main_v10 (ix2 i k) j)
    = val_main_v8 (F := Ideal) a0 (ix2 i j) * a1 (ix2 j k)
  rw [idx2_ext (lidx_main_v10 (ix2 i k) j) (ix2 i j) rfl rfl, idx2_ext (ridx_main_v10 (ix2 i k) j) (ix2 j k) rfl rfl]

theorem v13_mat (a0 : ArrL) (a1 : ArrH) :
    Cheb.mat (val_main_v13 (F := Ideal) a0 a1)
      = Cheb.opMul (Cheb.normOp (Cheb.mat a0)) (Cheb.recT1 (Cheb.mat a0) (Cheb.mat a1)) := by
  funext i k
  show val_main_v13 (F := Ideal) a0 a1 (ix2 i k)
    = ∑ j : Fin 10000, Cheb.normOp (Cheb.mat a0) i j * Cheb.recT1 (Cheb.mat a0) (Cheb.mat a1) j k
  rw [val_main_v13_apply, ← v8_mat, ← v10_mat]
  refine Finset.sum_congr rfl fun j _ => ?_
  show val_main_v8 (F := Ideal) a0 (lidx_main_v13 (ix2 i k) j) * val_main_v10 (F := Ideal) a0 a1 (ridx_main_v13 (ix2 i k) j)
    = val_main_v8 (F := Ideal) a0 (ix2 i j) * val_main_v10 (F := Ideal) a0 a1 (ix2 j k)
  rw [idx2_ext (lidx_main_v13 (ix2 i k) j) (ix2 i j) rfl rfl, idx2_ext (ridx_main_v13 (ix2 i k) j) (ix2 j k) rfl rfl]

theorem v16_mat (a0 : ArrL) (a1 : ArrH) :
    Cheb.mat (val_main_v16 (F := Ideal) a0 a1) = Cheb.recT2 (Cheb.mat a0) (Cheb.mat a1) := by
  funext i k
  show Ideal.ofBits .f32 0x40000000#32 * Cheb.mat (val_main_v13 (F := Ideal) a0 a1) i k - a1 (ix2 i k)
    = 2 * Cheb.opMul (Cheb.normOp (Cheb.mat a0)) (Cheb.recT1 (Cheb.mat a0) (Cheb.mat a1)) i k - a1 (ix2 i k)
  rw [Cert.Consts.ofBits_two, v13_mat]

theorem v19_mat (a0 : ArrL) (a1 : ArrH) :
    Cheb.mat (val_main_v19 (F := Ideal) a0 a1)
      = Cheb.opMul (Cheb.normOp (Cheb.mat a0)) (Cheb.recT2 (Cheb.mat a0) (Cheb.mat a1)) := by
  funext i k
  show val_main_v19 (F := Ideal) a0 a1 (ix2 i k)
    = ∑ j : Fin 10000, Cheb.normOp (Cheb.mat a0) i j * Cheb.recT2 (Cheb.mat a0) (Cheb.mat a1) j k
  rw [val_main_v19_apply, ← v8_mat, ← v16_mat]
  refine Finset.sum_congr rfl fun j _ => ?_
  show val_main_v8 (F := Ideal) a0 (lidx_main_v19 (ix2 i k) j) * val_main_v16 (F := Ideal) a0 a1 (ridx_main_v19 (ix2 i k) j)
    = val_main_v8 (F := Ideal) a0 (ix2 i j) * val_main_v16 (F := Ideal) a0 a1 (ix2 j k)
  rw [idx2_ext (lidx_main_v19 (ix2 i k) j) (ix2 i j) rfl rfl, idx2_ext (ridx_main_v19 (ix2 i k) j) (ix2 j k) rfl rfl]

theorem v22_mat (a0 : ArrL) (a1 : ArrH) :
    Cheb.mat (val_main_v22 (F := Ideal) a0 a1) = Cheb.recT3 (Cheb.mat a0) (Cheb.mat a1) := by
  funext i k
  show Ideal.ofBits .f32 0x40000000#32 * Cheb.mat (val_main_v19 (F := Ideal) a0 a1) i k
      - Cheb.mat (val_main_v10 (F := Ideal) a0 a1) i k
    = 2 * Cheb.opMul (Cheb.normOp (Cheb.mat a0)) (Cheb.recT2 (Cheb.mat a0) (Cheb.mat a1)) i k
      - Cheb.recT1 (Cheb.mat a0) (Cheb.mat a1) i k
  rw [Cert.Consts.ofBits_two, v19_mat, v10_mat]

/-! ## The products with the weights -/

theorem v9_mat (a1 : ArrH) (a2 : ArrW) :
    Cheb.mat (val_main_v9 (F := Ideal) a1 a2) = Cheb.wtMul (Cheb.mat a1) (Cheb.mat a2) := by
  funext i n
  show val_main_v9 (F := Ideal) a1 a2 (ix2 i n) = ∑ k : Fin 128, a1 (ix2 i k) * a2 (ix2 k n)
  rw [val_main_v9_apply]
  refine Finset.sum_congr rfl fun k _ => ?_
  rw [idx2_ext (lidx_main_v9 (ix2 i n) k) (ix2 i k) rfl rfl, idx2_ext (ridx_main_v9 (ix2 i n) k) (ix2 k n) rfl rfl]

theorem v11_mat (a0 : ArrL) (a1 : ArrH) (a2 : ArrW) :
    Cheb.mat (val_main_v11 (F := Ideal) a0 a1 a2) = Cheb.wtMul (Cheb.recT1 (Cheb.mat a0) (Cheb.mat a1)) (Cheb.mat a2) := by
  funext i n
  show val_main_v11 (F := Ideal) a0 a1 a2 (ix2 i n)
    = ∑ k : Fin 128, Cheb.recT1 (Cheb.mat a0) (Cheb.mat a1) i k * a2 (ix2 k n)
  rw [val_main_v11_apply, ← v10_mat]
  refine Finset.sum_congr rfl fun k _ => ?_
  show val_main_v10 (F := Ideal) a0 a1 (lidx_main_v11 (ix2 i n) k) * a2 (ridx_main_v11 (ix2 i n) k)
    = val_main_v10 (F := Ideal) a0 a1 (ix2 i k) * a2 (ix2 k n)
  rw [idx2_ext (lidx_main_v11 (ix2 i n) k) (ix2 i k) rfl rfl, idx2_ext (ridx_main_v11 (ix2 i n) k) (ix2 k n) rfl rfl]

theorem v17_mat (a0 : ArrL) (a1 : ArrH) (a2 : ArrW) :
    Cheb.mat (val_main_v17 (F := Ideal) a0 a1 a2) = Cheb.wtMul (Cheb.recT2 (Cheb.mat a0) (Cheb.mat a1)) (Cheb.mat a2) := by
  funext i n
  show val_main_v17 (F := Ideal) a0 a1 a2 (ix2 i n)
    = ∑ k : Fin 128, Cheb.recT2 (Cheb.mat a0) (Cheb.mat a1) i k * a2 (ix2 k n)
  rw [val_main_v17_apply, ← v16_mat]
  refine Finset.sum_congr rfl fun k _ => ?_
  show val_main_v16 (F := Ideal) a0 a1 (lidx_main_v17 (ix2 i n) k) * a2 (ridx_main_v17 (ix2 i n) k)
    = val_main_v16 (F := Ideal) a0 a1 (ix2 i k) * a2 (ix2 k n)
  rw [idx2_ext (lidx_main_v17 (ix2 i n) k) (ix2 i k) rfl rfl, idx2_ext (ridx_main_v17 (ix2 i n) k) (ix2 k n) rfl rfl]

theorem v23_mat (a0 : ArrL) (a1 : ArrH) (a2 : ArrW) :
    Cheb.mat (val_main_v23 (F := Ideal) a0 a1 a2) = Cheb.wtMul (Cheb.recT3 (Cheb.mat a0) (Cheb.mat a1)) (Cheb.mat a2) := by
  funext i n
  show val_main_v23 (F := Ideal) a0 a1 a2 (ix2 i n)
    = ∑ k : Fin 128, Cheb.recT3 (Cheb.mat a0) (Cheb.mat a1) i k * a2 (ix2 k n)
  rw [val_main_v23_apply, ← v22_mat]
  refine Finset.sum_congr rfl fun k _ => ?_
  show val_main_v22 (F := Ideal) a0 a1 (lidx_main_v23 (ix2 i n) k) * a2 (ridx_main_v23 (ix2 i n) k)
    = val_main_v22 (F := Ideal) a0 a1 (ix2 i k) * a2 (ix2 k n)
  rw [idx2_ext (lidx_main_v23 (ix2 i n) k) (ix2 i k) rfl rfl, idx2_ext (ridx_main_v23 (ix2 i n) k) (ix2 k n) rfl rfl]

/-! ## The bias row and the sum -/

/-- The bias, broadcast to one row and then over the rows, read at `(i, n)` is its entry `n`. -/
theorem v26_apply (a3 : ArrB) (i : Fin 10000) (n : Fin 128) :
    val_main_v26 (F := Ideal) a3 (ix2 i n) = Cheb.vec a3 n := by
  rw [val_main_v26_apply, val_main_v25_apply]
  show a3 (idx_main_v25 (idx_main_v26 (ix2 i n))) = a3 (ix1 n)
  rw [idx1_ext (idx_main_v25 (idx_main_v26 (ix2 i n))) (ix1 n) rfl]

theorem v27_mat (a0 : ArrL) (a1 : ArrH) (a2 : ArrW) (a3 : ArrB) :
    Cheb.mat (val_main_v27 (F := Ideal) a0 a1 a2 a3)
      = Cheb.recOut (Cheb.mat a0) (Cheb.mat a1) (Cheb.mat a2) (Cheb.vec a3) := by
  funext i n
  show (((Cheb.mat (val_main_v9 (F := Ideal) a1 a2) i n + Cheb.mat (val_main_v11 (F := Ideal) a0 a1 a2) i n)
        + Cheb.mat (val_main_v17 (F := Ideal) a0 a1 a2) i n) + Cheb.mat (val_main_v23 (F := Ideal) a0 a1 a2) i n)
      + val_main_v26 (F := Ideal) a3 (ix2 i n)
    = (((Cheb.wtMul (Cheb.mat a1) (Cheb.mat a2) i n
          + Cheb.wtMul (Cheb.recT1 (Cheb.mat a0) (Cheb.mat a1)) (Cheb.mat a2) i n)
        + Cheb.wtMul (Cheb.recT2 (Cheb.mat a0) (Cheb.mat a1)) (Cheb.mat a2) i n)
        + Cheb.wtMul (Cheb.recT3 (Cheb.mat a0) (Cheb.mat a1)) (Cheb.mat a2) i n) + Cheb.vec a3 n
  rw [v9_mat, v11_mat, v17_mat, v23_mat, v26_apply]

/-! ## The result -/

/-- The term the reference's run leaves in its result is the recursion's result, as an array. -/
theorem result_eq (a0 : ArrL) (a1 : ArrH) (a2 : ArrW) (a3 : ArrB) :
    addf (F := Ideal) (addf (F := Ideal) (addf (F := Ideal) (addf (F := Ideal) (Host.dotGeneral (F := Ideal) (φ₁ := .f32) (φ₂ := .f32) dot_S10000x128_S128x128_S10000x128_1_0_0_1_n_n none a1 a2) (Host.dotGeneral (F := Ideal) (φ₁ := .f32) (φ₂ := .f32) dot_S10000x128_S128x128_S10000x128_1_0_0_1_n_n none (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) a1) a2)) (Host.dotGeneral (F := Ideal) (φ₁ := .f32) (φ₂ := .f32) dot_S10000x128_S128x128_S10000x128_1_0_0_1_n_n none (subf (F := Ideal) (mulf (F := Ideal) (broadcastInDim S10000x128 ![] bcast_S_S10000x128 (constant (F := Ideal) S_ .f32 0x40000000#32)) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) a1))) a1) a2)) (Host.dotGeneral (F := Ideal) (φ₁ := .f32) (φ₂ := .f32) dot_S10000x128_S128x128_S10000x128_1_0_0_1_n_n none (subf (F := Ideal) (mulf (F := Ideal) (broadcastInDim S10000x128 ![] bcast_S_S10000x128 (constant (F := Ideal) S_ .f32 0x40000000#32)) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) (subf (F := Ideal) (mulf (F := Ideal) (broadcastInDim S10000x128 ![] bcast_S_S10000x128 (constant (F := Ideal) S_ .f32 0x40000000#32)) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) a1))) a1))) (Host.dotGeneral (F := Ideal) (φ₁ := .f32) (φ₂ := .f32) dot_S10000x10000_S10000x128_S10000x128_1_0_0_1_n_n none (subf (F := Ideal) (mulf (F := Ideal) (broadcastInDim S10000x10000 ![] bcast_S_S10000x10000 (constant (F := Ideal) S_ .f32 0x40000000#32)) a0) (uitofp (F := Ideal) .f32 (cmpi .eq (addi (iotaInDim S10000x10000 32 0) (broadcastInDim S10000x10000 ![] bcast_S_S10000x10000 (constantI S_ 32 0#32))) (iotaInDim S10000x10000 32 1)))) a1)) a2)) (broadcastInDim S10000x128 ![0, 1] bcast_S1x128_S10000x128_0_1 (broadcastInDim S1x128 ![1] bcast_S128_S1x128_1 a3))
      = Cheb.arr (Cheb.recOut (Cheb.mat a0) (Cheb.mat a1) (Cheb.mat a2) (Cheb.vec a3)) :=
  (val_main_v27_eq (F := Ideal) a0 a1 a2 a3).trans
    ((Cheb.arr_mat _).symm.trans (congrArg Cheb.arr (v27_mat a0 a1 a2 a3)))

end Cert.ReferenceIdeal.RefValue

end
-- ==== Proof.ChebLaw.lean ====
/-
  The two statements of the order-three Chebyshev graph convolution agree on finite entries.

  Over the reals: the per-row correction `(2·L i i − 1) − 2·L i i` is `−1`; the product with `2·L − I` is
  `∑ j, (2·L i j − δ i j)·X j k = 2·∑ j, L i j·X j k − X i k`; hence the three passes' terms are the recursion's
  terms, `T₁ = 2·(L·H) − H`, `T₂ = 4·(L·T₁) − 2·T₁ − H`, `T₃ = 4·(L·T₂) − 2·T₂ − T₁`; and a product with `W`
  distributes over the sum of the four terms. Over the extended reals none of this holds at infinities, so the
  entries are first written as coercions of reals, every term of either statement is shown to be the coercion of
  its real copy (coercion commutes with `+`, `−`, `·`, numerals and finite sums), and the identity is the real one.
-/
import Mathlib.Data.EReal.Operations
import Mathlib.Algebra.BigOperators.Ring.Finset
import Mathlib.Tactic.Ring
import proofs.«148721_g88055419503321_cont_sun_m_792_6_alg».proof.Proof.ChebDefs

noncomputable section

namespace Cheb

open scoped BigOperators

/-! ## Coercion out of a finite sum, and of the numerals met here -/

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem coe_two : ((2 : ℝ) : EReal) = 2 := rfl

theorem coe_four : ((4 : ℝ) : EReal) = 4 := rfl

/-! ## The real copies -/

abbrev ROp := Fin 10000 → Fin 10000 → ℝ
abbrev RFeat := Fin 10000 → Fin 128 → ℝ
abbrev RWt := Fin 128 → Fin 128 → ℝ
abbrev RBias := Fin 128 → ℝ

def opMulR (A : ROp) (X : RFeat) : RFeat := fun i k => ∑ j : Fin 10000, A i j * X j k
def wtMulR (X : RFeat) (W : RWt) : RFeat := fun i n => ∑ k : Fin 128, X i k * W k n
def corrR (L : ROp) (i : Fin 10000) : ℝ := (2 * L i i - 1) - 2 * L i i
def passT1R (L : ROp) (H : RFeat) : RFeat := fun i k => 2 * opMulR L H i k + corrR L i * H i k
def passT2R (L : ROp) (H : RFeat) : RFeat := fun i k =>
  (4 * opMulR L (passT1R L H) i k + (2 * corrR L i) * passT1R L H i k) - H i k
def passS2R (L : ROp) (H : RFeat) : RFeat := fun i k => (H i k + passT1R L H i k) + passT2R L H i k
def passT3R (L : ROp) (H : RFeat) : RFeat := fun i k =>
  (4 * opMulR L (passT2R L H) i k + (2 * corrR L i) * passT2R L H i k) - passT1R L H i k
def passOutR (L : ROp) (H : RFeat) (W : RWt) (b : RBias) : RFeat := fun i n =>
  wtMulR (fun i k => passS2R L H i k + passT3R L H i k) W i n + b n
def normOpR (L : ROp) : ROp := fun i j => 2 * L i j - (if i = j then 1 else 0)
def recT1R (L : ROp) (H : RFeat) : RFeat := opMulR (normOpR L) H
def recT2R (L : ROp) (H : RFeat) : RFeat := fun i k => 2 * opMulR (normOpR L) (recT1R L H) i k - H i k
def recT3R (L : ROp) (H : RFeat) : RFeat := fun i k => 2 * opMulR (normOpR L) (recT2R L H) i k - recT1R L H i k
def recOutR (L : ROp) (H : RFeat) (W : RWt) (b : RBias) : RFeat := fun i n =>
  (((wtMulR H W i n + wtMulR (recT1R L H) W i n) + wtMulR (recT2R L H) W i n) + wtMulR (recT3R L H) W i n) + b n

/-- A real matrix read entrywise in the extended reals. -/
def up {m n : Nat} (A : Fin m → Fin n → ℝ) : Fin m → Fin n → EReal := fun i j => (A i j : EReal)
/-- A real row read entrywise in the extended reals. -/
def up1 {n : Nat} (v : Fin n → ℝ) : Fin n → EReal := fun i => (v i : EReal)

/-! ## The identity over the reals -/

theorem opMulR_normOpR (L : ROp) (X : RFeat) (i : Fin 10000) (k : Fin 128) :
    opMulR (normOpR L) X i k = 2 * opMulR L X i k - X i k := by
  unfold opMulR normOpR
  simp only [sub_mul, Finset.sum_sub_distrib, ite_mul, one_mul, zero_mul, Finset.sum_ite_eq, Finset.mem_univ,
    if_true, mul_assoc, ← Finset.mul_sum]

theorem passT1R_eq (L : ROp) (H : RFeat) : passT1R L H = recT1R L H := by
  funext i k
  rw [recT1R, opMulR_normOpR]; unfold passT1R corrR; ring

theorem passT2R_eq (L : ROp) (H : RFeat) : passT2R L H = recT2R L H := by
  funext i k
  unfold passT2R recT2R
  rw [opMulR_normOpR, passT1R_eq]; unfold corrR; ring

theorem passT3R_eq (L : ROp) (H : RFeat) : passT3R L H = recT3R L H := by
  funext i k
  unfold passT3R recT3R
  rw [opMulR_normOpR, passT2R_eq, passT1R_eq]; unfold corrR; ring

theorem passOutR_eq (L : ROp) (H : RFeat) (W : RWt) (b : RBias) : passOutR L H W b = recOutR L H W b := by
  funext i n
  unfold passOutR recOutR passS2R wtMulR
  rw [passT1R_eq, passT2R_eq, passT3R_eq]
  simp only [add_mul, Finset.sum_add_distrib]

/-! ## Every term of either statement is the coercion of its real copy -/

theorem opMul_up (A : ROp) (X : RFeat) : opMul (up A) (up X) = up (opMulR A X) := by
  funext i k
  simp only [opMul, opMulR, up, coe_sum, EReal.coe_mul]

theorem wtMul_up (X : RFeat) (W : RWt) : wtMul (up X) (up W) = up (wtMulR X W) := by
  funext i n
  simp only [wtMul, wtMulR, up, coe_sum, EReal.coe_mul]

theorem corr_up (L : ROp) (i : Fin 10000) : corr (up L) i = (corrR L i : EReal) := by
  simp only [corr, corrR, up, EReal.coe_sub, EReal.coe_mul, coe_two, EReal.coe_one]

theorem passT1_up (L : ROp) (H : RFeat) : passT1 (up L) (up H) = up (passT1R L H) := by
  funext i k
  simp only [passT1, passT1R, opMul_up, corr_up, up, EReal.coe_add, EReal.coe_mul, coe_two]

theorem passT2_up (L : ROp) (H : RFeat) : passT2 (up L) (up H) = up (passT2R L H) := by
  funext i k
  simp only [passT2, passT2R, passT1_up, opMul_up, corr_up, up, EReal.coe_add, EReal.coe_sub, EReal.coe_mul,
    coe_two, coe_four]

theorem passS2_up (L : ROp) (H : RFeat) : passS2 (up L) (up H) = up (passS2R L H) := by
  funext i k
  simp only [passS2, passS2R, passT1_up, passT2_up, up, EReal.coe_add]

theorem passT3_up (L : ROp) (H : RFeat) : passT3 (up L) (up H) = up (passT3R L H) := by
  funext i k
  simp only [passT3, passT3R, passT1_up, passT2_up, opMul_up, corr_up, up, EReal.coe_add, EReal.coe_sub,
    EReal.coe_mul, coe_two, coe_four]

theorem passOut_up (L : ROp) (H : RFeat) (W : RWt) (b : RBias) :
    passOut (up L) (up H) (up W) (up1 b) = up (passOutR L H W b) := by
  have hs : (fun i k => passS2 (up L) (up H) i k + passT3 (up L) (up H) i k)
      = up (fun i k => passS2R L H i k + passT3R L H i k) := by
    funext i k
    simp only [passS2_up, passT3_up, up, EReal.coe_add]
  funext i n
  simp only [passOut, hs, wtMul_up]
  simp only [up, up1, passOutR, EReal.coe_add]

theorem normOp_up (L : ROp) : normOp (up L) = up (normOpR L) := by
  funext i j
  by_cases h : i = j
  · simp only [normOp, normOpR, up, h, if_true, EReal.coe_sub, EReal.coe_mul, coe_two, EReal.coe_one]
  · simp only [normOp, normOpR, up, h, if_false, EReal.coe_sub, EReal.coe_mul, coe_two, EReal.coe_zero]

theorem recT1_up (L : ROp) (H : RFeat) : recT1 (up L) (up H) = up (recT1R L H) := by
  simp only [recT1, recT1R, normOp_up, opMul_up]

theorem recT2_up (L : ROp) (H : RFeat) : recT2 (up L) (up H) = up (recT2R L H) := by
  funext i k
  simp only [recT2, recT2R, recT1_up, normOp_up, opMul_up, up, EReal.coe_sub, EReal.coe_mul, coe_two]

theorem recT3_up (L : ROp) (H : RFeat) : recT3 (up L) (up H) = up (recT3R L H) := by
  funext i k
  simp only [recT3, recT3R, recT1_up, recT2_up, normOp_up, opMul_up, up, EReal.coe_sub, EReal.coe_mul, coe_two]

theorem recOut_up (L : ROp) (H : RFeat) (W : RWt) (b : RBias) :
    recOut (up L) (up H) (up W) (up1 b) = up (recOutR L H W b) := by
  funext i n
  simp only [recOut, recT1_up, recT2_up, recT3_up, wtMul_up]
  simp only [up, up1, recOutR, EReal.coe_add]

/-! ## The law -/

/-- On finite entries the three passes compute what the recursion states. -/
theorem passOut_eq_recOut (L : Cheb.Op) (H : Cheb.Feat) (W : Cheb.Wt) (b : Cheb.Bias)
    (hL : ∀ i j, ∃ x : ℝ, L i j = (x : EReal)) (hH : ∀ i k, ∃ x : ℝ, H i k = (x : EReal))
    (hW : ∀ k n, ∃ x : ℝ, W k n = (x : EReal)) (hb : ∀ n, ∃ x : ℝ, b n = (x : EReal)) :
    Cheb.passOut L H W b = Cheb.recOut L H W b := by
  choose L' hL' using hL
  choose H' hH' using hH
  choose W' hW' using hW
  choose b' hb' using hb
  have eL : L = up L' := funext fun i => funext fun j => hL' i j
  have eH : H = up H' := funext fun i => funext fun k => hH' i k
  have eW : W = up W' := funext fun k => funext fun n => hW' k n
  have eb : b = up1 b' := funext fun n => hb' n
  rw [eL, eH, eW, eb, passOut_up, recOut_up, passOutR_eq]

end Cheb

end
-- ==== Proof.Finite.lean ====
/-
  From the precondition to real entries. The precondition is the conjunction, over the four argument arrays, of
  "every entry `x` has `|x| < +∞`", each conjunct a reduction by `and` over all axes of the entrywise comparison.
  At the extended reals `|x|` is `max x (−x)` and the word of `+∞` is `⊤`; `max x (−x) < ⊤` fails at `⊥` and at `⊤`,
  so it leaves `x` a real. Read through the matrix and row views of the arrays, this is the finiteness the
  algebraic law asks for.
-/
import proofs.«148721_g88055419503321_cont_sun_m_792_6_alg».proof.Pre_finite_inputs
import proofs.«148721_g88055419503321_cont_sun_m_792_6_alg».proof.Proof.Gen.Pre_finite_inputs
import Idealize.ShloMosaic.Lib.ReduceAll
import Idealize.ShloMosaic.PureOps.Ideal.Laws
import proofs.«148721_g88055419503321_cont_sun_m_792_6_alg».proof.Proof.ChebIdx
import proofs.«148721_g88055419503321_cont_sun_m_792_6_alg».proof.Proof.Consts

noncomputable section

namespace Cert.Finite

open Idealize.ShloMosaic Cert.Pre_finite_inputs Cert.Pre_finite_inputs.Gen

/-- The scalar shape has one index. -/
instance : Subsingleton S_.Idx := ⟨fun a b => funext fun d => d.elim0⟩

/-- An extended real whose absolute value `max x (−x)` is below `⊤` is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The entrywise comparison `|a| < c` against an array `c` that holds the word of `+∞` everywhere, where it is
    one, leaves the entry a real. -/
theorem real_of_cmp {s : Shape} (a c : FVec Ideal s .f32) (hc : ∀ i, c i = Ideal.ofBits .f32 0x7F800000#32)
    (i : s.Idx) (h : cmpf .olt (Host.absf a) c i = 1#1) : ∃ r : ℝ, a i = (r : EReal) := by
  have h1 : Ideal.cmp .olt (max (a i) (-(a i))) (c i) = 1#1 := h
  rw [hc i, Cert.Consts.ofBits_inf] at h1
  refine real_of_abs_lt_top (a i) ?_
  by_contra hn
  simp [Ideal.cmp, hn] at h1

/-- Under the precondition every entry of the four arrays is a real. -/
theorem of_pre (a0 : FVec Ideal S10000x10000 .f32) (a1 : FVec Ideal S10000x128 .f32) (a2 : FVec Ideal S128x128 .f32)
    (a3 : FVec Ideal S128 .f32) (h : Cert.Pre_finite_inputs.fn (F := Ideal) a0 a1 a2 a3 = fun _ => 1#1) :
    (∀ i j, ∃ x : ℝ, Cheb.mat a0 i j = x) ∧ (∀ i k, ∃ x : ℝ, Cheb.mat a1 i k = x)
      ∧ (∀ k n, ∃ x : ℝ, Cheb.mat a2 k n = x) ∧ (∀ n, ∃ x : ℝ, Cheb.vec a3 n = x) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i j => ?_, fun i k => ?_, fun k n => ?_, fun n => ?_⟩
  · exact real_of_cmp a0 _ (fun _ => rfl) (ValueIdx.ix2 i j) (Host.reduce_andi_all _ _ _ _ _ h0' _)
  · exact real_of_cmp a1 _ (fun _ => rfl) (ValueIdx.ix2 i k) (Host.reduce_andi_all _ _ _ _ _ h1 _)
  · exact real_of_cmp a2 _ (fun _ => rfl) (ValueIdx.ix2 k n) (Host.reduce_andi_all _ _ _ _ _ h2 _)
  · exact real_of_cmp a3 _ (fun _ => rfl) (ValueIdx.ix1 n) (Host.reduce_andi_all _ _ _ _ _ h3 _)

end Cert.Finite

end
-- ==== Proof.lean ====
/-
  A Chebyshev graph convolution of order three on a dense 10000 × 10000 operator `L`, 10000 × 128 features `H`, 128 × 128 weights `W`
  and a bias `b`: with `Lₙ = 2·L − I`, `T₁ = Lₙ·H`, `T₂ = 2·Lₙ·T₁ − H`, `T₃ = 2·Lₙ·T₂ − T₁`, the result is
  `H·W + T₁·W + T₂·W + T₃·W + b`. The reference states exactly that recursion on the host. The kernel runs three row-blocked passes
  of 25 blocks of 400 rows: it never forms `Lₙ`, but writes `Lₙ·X` as `2·(L·X) + c·X` with a per-row correction
  `c i = (2·L i i − 1) − 2·L i i` taken from the diagonal, folds the recursion's factors into `4·(L·X) + 2c·X`, carries the running sum
  `H + T₁ + T₂ + T₃` and multiplies it by `W` once.

  Over the extended reals the two agree when every input is finite. Then `c i = −1`, so `2·(L·X) + c·X = Lₙ·X` (the identity matrix's
  row picks `X i k` out of the sum), the folded factors are the recursion's, and a finite sum distributes over the product with `W`.
  Without finiteness neither step holds (`∞ − ∞`), which is where the precondition is used. The changes of float format the kernel makes
  on its way into each matrix product are the identity at the ideal instance, and the four round trips the ideal pass removed are the
  four conjuncts of `preserves`.

  The proof: each program's run — for the kernel, the host's conversions and the three passes as segments, each pass's two windows on
  one array holding the two halves of that array's share; for the reference, its generated run — then the kernel's result array read as
  `Cheb.passOut` of the launch arrays (pass by pass, block by block), the reference's as `Cheb.recOut`, and the law joining the two.
-/
import proofs.«148721_g88055419503321_cont_sun_m_792_6_alg».proof.Defs
import proofs.«148721_g88055419503321_cont_sun_m_792_6_alg».proof.Proof.Gen.Kernel
import proofs.«148721_g88055419503321_cont_sun_m_792_6_alg».proof.Proof.Gen.KernelIdeal
import proofs.«148721_g88055419503321_cont_sun_m_792_6_alg».proof.Proof.Gen.ReferenceIdeal
import proofs.«148721_g88055419503321_cont_sun_m_792_6_alg».proof.Proof.Gen.Pre_finite_inputs
import proofs.«148721_g88055419503321_cont_sun_m_792_6_alg».proof.Proof.Kernel.Run
import proofs.«148721_g88055419503321_cont_sun_m_792_6_alg».proof.Proof.KernelIdeal.Run
import proofs.«148721_g88055419503321_cont_sun_m_792_6_alg».proof.Proof.KernelIdeal.Compose
import proofs.«148721_g88055419503321_cont_sun_m_792_6_alg».proof.Proof.RefRead
import proofs.«148721_g88055419503321_cont_sun_m_792_6_alg».proof.Proof.ChebLaw
import proofs.«148721_g88055419503321_cont_sun_m_792_6_alg».proof.Proof.Finite
import Idealize.ShloMosaic.Adequacy
import Idealize.ShloMosaic.Init

noncomputable section

namespace Cert.Proof

open Idealize.ShloMosaic Idealize.SL.Sem

/-- The word-level kernel runs to the end and leaves its arguments as launched. -/
theorem frame_kernel [Cert.Kernel.Facts] [Cert.Pre_finite_inputs.Facts] : Cert.frame_Kernel :=
  fun m ρ _ => Cert.Kernel.Pass.frame_all (F := Bits) m ρ

/-- So does the idealized kernel. -/
theorem frame_kernelIdeal [Cert.KernelIdeal.Facts] [Cert.Pre_finite_inputs.Facts] : Cert.frame_KernelIdeal :=
  fun m ρ _ => Cert.KernelIdeal.Pass.frame_all (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The four round trips through the narrow format that the ideal pass removed: each is the identity at the ideal instance. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- From memories agreeing on finite arguments both idealized programs end with the same result array: the kernel's is the result as
    its three passes compute it, the reference's the result as the recursion states it, and under finiteness these are one function. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cheb.arr (Cheb.passOut (Cert.KernelIdeal.Arrays.opL m c) (Cert.KernelIdeal.Arrays.ftH m c)
      (Cert.KernelIdeal.Arrays.wtW m c) (Cert.KernelIdeal.Arrays.bsB m c)), ?_, ?_⟩
  · exact (θ_run Cert.KernelIdeal.defs _ _).mono
      (fun r h c => ⟨(h c).1.trans (Cert.KernelIdeal.Arrays.result_eq m c), (h c).2⟩)
      (Cert.KernelIdeal.Pass.value_all (F := Ideal) m ρ)
  · refine (θ_run Cert.ReferenceIdeal.defs _ _).mono
      (fun _ h c => ⟨(h c).1.trans ((Cert.ReferenceIdeal.RefValue.result_eq _ _ _ _).trans ?_), (h c).2⟩)
      (Cert.ReferenceIdeal.Value.run (F := Ideal) m' ρ')
    rw [(hagree c).1, (hagree c).2.1, (hagree c).2.2.1, (hagree c).2.2.2]
    obtain ⟨hL, hH, hW, hb⟩ := Cert.Finite.of_pre _ _ _ _ (hpre c)
    exact congrArg Cheb.arr (Cheb.passOut_eq_recOut _ _ _ _ hL hH hW hb).symm

theorem claim : Cert.Claim :=
  ⟨Cert.Kernel.Gen.facts, Cert.KernelIdeal.Gen.facts, Cert.ReferenceIdeal.Gen.facts, Cert.Pre_finite_inputs.Gen.facts,
   frame_kernel, frame_kernelIdeal, frame_reference, preserves, algebraic⟩

end Cert.Proof

end
